-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S1x8x16 : Shape := ⟨3, ![1, 8, 16]⟩
abbrev S64x40 : Shape := ⟨2, ![64, 40]⟩
abbrev S1x1x80 : Shape := ⟨3, ![1, 1, 80]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1x8x16 : S_.BroadcastsInDim S1x8x16 (![] : Fin 0 → Fin S1x8x16.rank)
  reducesTo_S1x8x16_S_d0_1_2 : S1x8x16.ReducesTo [0, 1, 2] S_
  bcast_S_S64x40 : S_.BroadcastsInDim S64x40 (![] : Fin 0 → Fin S64x40.rank)
  reducesTo_S64x40_S_d0_1 : S64x40.ReducesTo [0, 1] S_
  bcast_S_S1x1x80 : S_.BroadcastsInDim S1x1x80 (![] : Fin 0 → Fin S1x1x80.rank)
  reducesTo_S1x1x80_S_d0_1_2 : S1x1x80.ReducesTo [0, 1, 2] S_

variable [Facts]

def fn_part1 {F : FTy → Type} [FloatOps F] (main_arg5 : FVec F S1x1x80 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S1x1x80 .f32 := Host.absf main_arg5
  let main_cst_6 : FVec F S_ .f32 := constant S_ .f32 0x7F800000#32
  let main_v20 : FVec F S1x1x80 .f32 := broadcastInDim S1x1x80 ![] bcast_S_S1x1x80 main_cst_6
  let main_v21 : IVec S1x1x80 1 := cmpf .olt main_v19 main_v20
  let main_c_7 : IVec S_ 1 := constantI S_ 1 1#1
  let main_v22 : IVec S_ 1 := (fun x v => Host.reduce IntOp.andi x v reducesTo_S1x1x80_S_d0_1_2 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S1x8x16 .f32) (main_arg4 : FVec F S64x40 .f32) (main_arg5 : FVec F S1x1x80 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1x8x16 .f32 := Host.absf main_arg3
  let main_cst_2 : FVec F S_ .f32 := constant S_ .f32 0x7F800000#32
  let main_v10 : FVec F S1x8x16 .f32 := broadcastInDim S1x8x16 ![] bcast_S_S1x8x16 main_cst_2
  let main_v11 : IVec S1x8x16 1 := cmpf .olt main_v9 main_v10
  let main_c_3 : IVec S_ 1 := constantI S_ 1 1#1
  let main_v12 : IVec S_ 1 := (fun x v => Host.reduce IntOp.andi x v reducesTo_S1x8x16_S_d0_1_2 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S1x8x16 : Shape := ⟨3, ![1, 8, 16]⟩
abbrev S64x40 : Shape := ⟨2, ![64, 40]⟩
abbrev S1x1x80 : Shape := ⟨3, ![1, 1, 80]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x8x8 : Shape := ⟨3, ![1, 8, 8]⟩
abbrev S8x8 : Shape := ⟨2, ![8, 8]⟩
abbrev S64 : Shape := ⟨1, ![64]⟩
abbrev S_ : Shape := ⟨0, ![]⟩
abbrev S8 : Shape := ⟨1, ![8]⟩
abbrev S64x1 : Shape := ⟨2, ![64, 1]⟩
abbrev S1x8 : Shape := ⟨2, ![1, 8]⟩
abbrev S64x8 : Shape := ⟨2, ![64, 8]⟩
abbrev S100000x64 : Shape := ⟨2, ![100000, 64]⟩
abbrev S100000x8 : Shape := ⟨2, ![100000, 8]⟩
abbrev S10000x128 : Shape := ⟨2, ![10000, 128]⟩
abbrev S10000x64 : Shape := ⟨2, ![10000, 64]⟩
abbrev S10000x8 : Shape := ⟨2, ![10000, 8]⟩
abbrev S1700000x1 : Shape := ⟨2, ![1700000, 1]⟩
abbrev S1700000x8 : Shape := ⟨2, ![1700000, 8]⟩
abbrev S1700000x64 : Shape := ⟨2, ![1700000, 64]⟩
abbrev S1700000x8x8 : Shape := ⟨3, ![1700000, 8, 8]⟩
abbrev S1x1x40 : Shape := ⟨3, ![1, 1, 40]⟩
abbrev S40 : Shape := ⟨1, ![40]⟩
abbrev S40x1 : Shape := ⟨2, ![40, 1]⟩
abbrev S100000x40 : Shape := ⟨2, ![100000, 40]⟩
abbrev S100000x1 : Shape := ⟨2, ![100000, 1]⟩
abbrev S10000x40 : Shape := ⟨2, ![10000, 40]⟩
abbrev S10000x1 : Shape := ⟨2, ![10000, 1]⟩
abbrev S1700000x40 : Shape := ⟨2, ![1700000, 40]⟩
abbrev S1700000x1x40 : Shape := ⟨3, ![1700000, 1, 40]⟩
abbrev S10000 : Shape := ⟨1, ![10000]⟩

abbrev nBuf : Space → Nat
  | .hbm => 221
  | .vmem => 26
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S1x8x16, .f32⟩
  | 4 => ⟨S64x40, .f32⟩
  | 5 => ⟨S1x1x80, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S1x8x8, .f32⟩
  | 14 => ⟨S8x8, .f32⟩
  | 15 => ⟨S1x8x8, .f32⟩
  | 16 => ⟨S8x8, .f32⟩
  | 17 => ⟨S64, .f32⟩
  | 18 => ⟨S64, .i32⟩
  | 19 => ⟨S_, .i32⟩
  | 20 => ⟨S_, .i32⟩
  | 21 => ⟨S64, .i32⟩
  | 22 => ⟨S64, .i32⟩
  | 23 => ⟨S64, .i32⟩
  | 24 => ⟨S_, .i32⟩
  | 25 => ⟨S64, .i32⟩
  | 26 => ⟨S64, .i1⟩
  | 27 => ⟨S64, .i32⟩
  | 28 => ⟨S64, .i32⟩
  | 29 => ⟨S_, .i32⟩
  | 30 => ⟨S64, .i32⟩
  | 31 => ⟨S64, .i1⟩
  | 32 => ⟨S64, .i1⟩
  | 33 => ⟨S_, .i32⟩
  | 34 => ⟨S64, .i32⟩
  | 35 => ⟨S64, .i32⟩
  | 36 => ⟨S64, .i32⟩
  | 37 => ⟨S8, .i32⟩
  | 38 => ⟨S64x1, .i32⟩
  | 39 => ⟨S1x8, .i32⟩
  | 40 => ⟨S64x8, .i32⟩
  | 41 => ⟨S64x8, .i32⟩
  | 42 => ⟨S64x8, .i1⟩
  | 43 => ⟨S64x1, .f32⟩
  | 44 => ⟨S_, .f32⟩
  | 45 => ⟨S64, .f32⟩
  | 46 => ⟨S64x1, .f32⟩
  | 47 => ⟨S64x8, .f32⟩
  | 48 => ⟨S64x8, .f32⟩
  | 49 => ⟨S64x8, .f32⟩
  | 50 => ⟨S64, .f32⟩
  | 51 => ⟨S64, .i32⟩
  | 52 => ⟨S_, .i32⟩
  | 53 => ⟨S_, .i32⟩
  | 54 => ⟨S64, .i32⟩
  | 55 => ⟨S64, .i32⟩
  | 56 => ⟨S64, .i32⟩
  | 57 => ⟨S_, .i32⟩
  | 58 => ⟨S64, .i32⟩
  | 59 => ⟨S64, .i1⟩
  | 60 => ⟨S64, .i32⟩
  | 61 => ⟨S64, .i32⟩
  | 62 => ⟨S_, .i32⟩
  | 63 => ⟨S64, .i32⟩
  | 64 => ⟨S64, .i1⟩
  | 65 => ⟨S64, .i1⟩
  | 66 => ⟨S_, .i32⟩
  | 67 => ⟨S64, .i32⟩
  | 68 => ⟨S64, .i32⟩
  | 69 => ⟨S64, .i32⟩
  | 70 => ⟨S8, .i32⟩
  | 71 => ⟨S64x1, .i32⟩
  | 72 => ⟨S1x8, .i32⟩
  | 73 => ⟨S64x8, .i32⟩
  | 74 => ⟨S64x8, .i32⟩
  | 75 => ⟨S64x8, .i1⟩
  | 76 => ⟨S64x1, .f32⟩
  | 77 => ⟨S_, .f32⟩
  | 78 => ⟨S64, .f32⟩
  | 79 => ⟨S64x1, .f32⟩
  | 80 => ⟨S64x8, .f32⟩
  | 81 => ⟨S64x8, .f32⟩
  | 82 => ⟨S64x8, .f32⟩
  | 83 => ⟨S100000x64, .f32⟩
  | 84 => ⟨S100000x8, .f32⟩
  | 85 => ⟨S100000x8, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x8, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x8, .f32⟩
  | 104 => ⟨S1700000x8, .f32⟩
  | 105 => ⟨S_, .f32⟩
  | 106 => ⟨S_, .f32⟩
  | 107 => ⟨S1700000x8, .f32⟩
  | 108 => ⟨S1700000x8, .i1⟩
  | 109 => ⟨S_, .f32⟩
  | 110 => ⟨S1700000x8, .f32⟩
  | 111 => ⟨S1700000x8, .f32⟩
  | 112 => ⟨S1700000x8, .f32⟩
  | 113 => ⟨S_, .f32⟩
  | 114 => ⟨S1700000, .f32⟩
  | 115 => ⟨S1700000x1, .f32⟩
  | 116 => ⟨S1700000x8, .f32⟩
  | 117 => ⟨S1700000x8, .f32⟩
  | 118 => ⟨S1700000x8, .f32⟩
  | 119 => ⟨S_, .f32⟩
  | 120 => ⟨S100000x8, .f32⟩
  | 121 => ⟨S1700000x1, .i32⟩
  | 122 => ⟨S100000x8, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x8, .f32⟩
  | 4 => ⟨S1700000x8, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x64, .f32⟩
  | 14 => ⟨S1700000x8x8, .f32⟩
  | 15 => ⟨S1700000x64, .f32⟩
  | 16 => ⟨S1700000x64, .f32⟩
  | 17 => ⟨S_, .f32⟩
  | 18 => ⟨S100000x64, .f32⟩
  | 19 => ⟨S1700000x1, .i32⟩
  | 20 => ⟨S100000x64, .f32⟩
  | 21 => ⟨S1x1x40, .f32⟩
  | 22 => ⟨S40, .f32⟩
  | 23 => ⟨S40x1, .f32⟩
  | 24 => ⟨S1x1x40, .f32⟩
  | 25 => ⟨S40, .f32⟩
  | 26 => ⟨S40x1, .f32⟩
  | 27 => ⟨S100000x40, .f32⟩
  | 28 => ⟨S100000x1, .f32⟩
  | 29 => ⟨S100000x1, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x1, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x1, .f32⟩
  | 48 => ⟨S1700000x1, .f32⟩
  | 49 => ⟨S_, .f32⟩
  | 50 => ⟨S_, .f32⟩
  | 51 => ⟨S1700000x1, .f32⟩
  | 52 => ⟨S1700000x1, .i1⟩
  | 53 => ⟨S_, .f32⟩
  | 54 => ⟨S1700000x1, .f32⟩
  | 55 => ⟨S1700000x1, .f32⟩
  | 56 => ⟨S1700000x1, .f32⟩
  | 57 => ⟨S_, .f32⟩
  | 58 => ⟨S1700000, .f32⟩
  | 59 => ⟨S1700000x1, .f32⟩
  | 60 => ⟨S1700000x1, .f32⟩
  | 61 => ⟨S1700000x1, .f32⟩
  | 62 => ⟨S_, .f32⟩
  | 63 => ⟨S100000x1, .f32⟩
  | 64 => ⟨S1700000x1, .i32⟩
  | 65 => ⟨S100000x1, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x1, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x40, .f32⟩
  | 85 => ⟨S1700000x1x40, .f32⟩
  | 86 => ⟨S1700000x40, .f32⟩
  | 87 => ⟨S1700000x40, .f32⟩
  | 88 => ⟨S_, .f32⟩
  | 89 => ⟨S100000x40, .f32⟩
  | 90 => ⟨S1700000x1, .i32⟩
  | 91 => ⟨S100000x40, .f32⟩
  | 92 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64x8, .f32⟩
  | .local _ .vmem, ⟨4, _⟩ => ⟨S64x8, .f32⟩
  | .local _ .vmem, ⟨5, _⟩ => ⟨S10000x64, .f32⟩
  | .local _ .vmem, ⟨6, _⟩ => ⟨S10000x64, .f32⟩
  | .local _ .vmem, ⟨7, _⟩ => ⟨S10000x8, .f32⟩
  | .local _ .vmem, ⟨8, _⟩ => ⟨S10000x8, .f32⟩
  | .local _ .vmem, ⟨9, _⟩ => ⟨S10000x8, .f32⟩
  | .local _ .vmem, ⟨10, _⟩ => ⟨S10000x8, .f32⟩
  | .local _ .vmem, ⟨11, _⟩ => ⟨S10000x64, .f32⟩
  | .local _ .vmem, ⟨12, _⟩ => ⟨S10000x64, .f32⟩
  | .local _ .vmem, ⟨13, _⟩ => ⟨S64x40, .f32⟩
  | .local _ .vmem, ⟨14, _⟩ => ⟨S40x1, .f32⟩
  | .local _ .vmem, ⟨15, _⟩ => ⟨S40x1, .f32⟩
  | .local _ .vmem, ⟨16, _⟩ => ⟨S10000x40, .f32⟩
  | .local _ .vmem, ⟨17, _⟩ => ⟨S10000x40, .f32⟩
  | .local _ .vmem, ⟨18, _⟩ => ⟨S10000x1, .f32⟩
  | .local _ .vmem, ⟨19, _⟩ => ⟨S10000x1, .f32⟩
  | .local _ .vmem, ⟨20, _⟩ => ⟨S10000x1, .f32⟩
  | .local _ .vmem, ⟨21, _⟩ => ⟨S10000x1, .f32⟩
  | .local _ .vmem, ⟨22, _⟩ => ⟨S10000x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_call1_v0 : Ref sig .tc := ⟨.hbm, 47, rfl⟩
abbrev main_call1_v1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_1 : Ref sig .tc := ⟨.hbm, 77, rfl⟩
abbrev main_v34 : Ref sig .tc := ⟨.hbm, 78, rfl⟩
abbrev main_v35 : Ref sig .tc := ⟨.hbm, 79, rfl⟩
abbrev main_call3_v0 : Ref sig .tc := ⟨.hbm, 80, rfl⟩
abbrev main_call3_v1 : Ref sig .tc := ⟨.hbm, 81, rfl⟩
abbrev main_v36 : Ref sig .tc := ⟨.hbm, 82, rfl⟩
abbrev main_v37_0 : Ref sig .tc := ⟨.hbm, 83, rfl⟩
abbrev main_v37_1 : Ref sig .tc := ⟨.hbm, 84, rfl⟩
abbrev main_v37_2 : Ref sig .tc := ⟨.hbm, 85, rfl⟩
abbrev main_c_2 : Ref sig .tc := ⟨.hbm, 86, rfl⟩
abbrev main_v38 : Ref sig .tc := ⟨.hbm, 87, rfl⟩
abbrev main_v39 : Ref sig .tc := ⟨.hbm, 88, rfl⟩
abbrev main_c_3 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_c_4 : Ref sig .tc := ⟨.hbm, 95, rfl⟩
abbrev main_v45 : Ref sig .tc := ⟨.hbm, 96, rfl⟩
abbrev main_v46 : Ref sig .tc := ⟨.hbm, 97, rfl⟩
abbrev main_c_5 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_6 : Ref sig .tc := ⟨.hbm, 105, rfl⟩
abbrev main_call4_cst : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v53 : Ref sig .tc := ⟨.hbm, 112, rfl⟩
abbrev main_cst_7 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_8 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_9 : Ref sig .tc := ⟨.hbm, 123, rfl⟩
abbrev main_v62 : Ref sig .tc := ⟨.hbm, 124, rfl⟩
abbrev main_v63 : Ref sig .tc := ⟨.hbm, 125, rfl⟩
abbrev main_c_10 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_c_11 : Ref sig .tc := ⟨.hbm, 133, rfl⟩
abbrev main_v70 : Ref sig .tc := ⟨.hbm, 134, rfl⟩
abbrev main_v71 : Ref sig .tc := ⟨.hbm, 135, rfl⟩
abbrev main_c_12 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_13 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89_0 : Ref sig .tc := ⟨.hbm, 155, rfl⟩
abbrev main_v89_1 : Ref sig .tc := ⟨.hbm, 156, rfl⟩
abbrev main_v89_2 : Ref sig .tc := ⟨.hbm, 157, rfl⟩
abbrev main_c_14 : Ref sig .tc := ⟨.hbm, 158, rfl⟩
abbrev main_v90 : Ref sig .tc := ⟨.hbm, 159, rfl⟩
abbrev main_v91 : Ref sig .tc := ⟨.hbm, 160, rfl⟩
abbrev main_c_15 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_c_16 : Ref sig .tc := ⟨.hbm, 167, rfl⟩
abbrev main_v97 : Ref sig .tc := ⟨.hbm, 168, rfl⟩
abbrev main_v98 : Ref sig .tc := ⟨.hbm, 169, rfl⟩
abbrev main_c_17 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_cst_18 : Ref sig .tc := ⟨.hbm, 177, rfl⟩
abbrev main_call5_cst : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v105 : Ref sig .tc := ⟨.hbm, 184, rfl⟩
abbrev main_cst_19 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_cst_20 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_c_21 : Ref sig .tc := ⟨.hbm, 194, rfl⟩
abbrev main_v113 : Ref sig .tc := ⟨.hbm, 195, rfl⟩
abbrev main_v114 : Ref sig .tc := ⟨.hbm, 196, rfl⟩
abbrev main_c_22 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_c_23 : Ref sig .tc := ⟨.hbm, 204, rfl⟩
abbrev main_v121 : Ref sig .tc := ⟨.hbm, 205, rfl⟩
abbrev main_v122 : Ref sig .tc := ⟨.hbm, 206, rfl⟩
abbrev main_c_24 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_25 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  slices_S1x8x16_S1x8x8_0_0_0 : S1x8x16.Slices ![0, 0, 0] S1x8x8
  shapeCasts_S1x8x8_S8x8 : S1x8x8.ShapeCasts S8x8
  slices_S1x8x16_S1x8x8_0_0_8 : S1x8x16.Slices ![0, 0, 8] S1x8x8
  shapeCasts_S8x8_S64 : S8x8.ShapeCasts S64
  bcast_S_S64 : S_.BroadcastsInDim S64 (![] : Fin 0 → Fin S64.rank)
  bcast_S64_S64x1_0 : S64.BroadcastsInDim S64x1 (![0] : Fin 1 → Fin S64x1.rank)
  bcast_S8_S1x8_1 : S8.BroadcastsInDim S1x8 (![1] : Fin 1 → Fin S1x8.rank)
  bcast_S64x1_S64x8_0_1 : S64x1.BroadcastsInDim S64x8 (![0, 1] : Fin 2 → Fin S64x8.rank)
  bcast_S1x8_S64x8_0_1 : S1x8.BroadcastsInDim S64x8 (![0, 1] : Fin 2 → Fin S64x8.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S10000x8_S10000x8_0_0 : ∀ a, (![0, 0] : Fin 2 → Nat) a + S10000x8.size a ≤ S10000x8.size a
  h_S10000x8 : 0 < S10000x8.numel
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S1700000x8 : S_.BroadcastsInDim S1700000x8 (![] : Fin 0 → Fin S1700000x8.rank)
  reducesTo_S1700000x8_S1700000_d1 : S1700000x8.ReducesTo [1] S1700000
  h_S_ : 0 < S_.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S1700000x8_S1700000x8x8_0_1 : S1700000x8.BroadcastsInDim S1700000x8x8 (![0, 1] : Fin 2 → Fin S1700000x8x8.rank)
  shapeCasts_S1700000x8x8_S1700000x64 : S1700000x8x8.ShapeCasts S1700000x64
  bcast_S_S100000x64 : S_.BroadcastsInDim S100000x64 (![] : Fin 0 → Fin S100000x64.rank)
  slices_S1x1x80_S1x1x40_0_0_0 : S1x1x80.Slices ![0, 0, 0] S1x1x40
  shapeCasts_S1x1x40_S40 : S1x1x40.ShapeCasts S40
  shapeCasts_S40_S40x1 : S40.ShapeCasts S40x1
  slices_S1x1x80_S1x1x40_0_0_40 : S1x1x80.Slices ![0, 0, 40] S1x1x40
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  inb_S40x1_S40x1_0_0 : ∀ a, (![0, 0] : Fin 2 → Nat) a + S40x1.size a ≤ S40x1.size a
  h_S40x1 : 0 < S40x1.numel
  shapeCasts_S40x1_S40x1 : S40x1.ShapeCasts S40x1
  inb_S10000x1_S10000x1_0_0 : ∀ a, (![0, 0] : Fin 2 → Nat) a + S10000x1.size a ≤ S10000x1.size a
  h_S10000x1 : 0 < S10000x1.numel
  bcast_S_S1700000x1 : S_.BroadcastsInDim S1700000x1 (![] : Fin 0 → Fin S1700000x1.rank)
  reducesTo_S1700000x1_S1700000_d1 : S1700000x1.ReducesTo [1] S1700000
  bcast_S_S100000x1 : S_.BroadcastsInDim S100000x1 (![] : Fin 0 → Fin S100000x1.rank)
  bcast_S1700000x1_S1700000x1x40_0_1 : S1700000x1.BroadcastsInDim S1700000x1x40 (![0, 1] : Fin 2 → Fin S1700000x1x40.rank)
  shapeCasts_S1700000x1x40_S1700000x40 : S1700000x1x40.ShapeCasts S1700000x40
  bcast_S_S100000x40 : S_.BroadcastsInDim S100000x40 (![] : Fin 0 → Fin S100000x40.rank)
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  dot_S10000x128_S128x64_S10000x64_1_0_0_1_n_n_wf : DotDims.WF S10000x128 S128x64 S10000x64 [1] [0] [0] [1] [] []
  dot_S10000x64_S64x8_S10000x8_1_0_0_1_n_n_wf : DotDims.WF S10000x64 S64x8 S10000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  dot_S10000x40_S40x1_S10000x1_1_0_0_1_n_n_wf : DotDims.WF S10000x40 S40x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S64x8.size a
  hwx0_2 : ∀ i : grid0.Coords, EltTy.bits .f32 = 32 ∨ (Rect.block (s := S64x8) S64x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S64x8.size a
  hwx0_3 : ∀ i : grid0.Coords, EltTy.bits .f32 = 32 ∨ (Rect.block (s := S64x8) S64x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x8.size a ≤ S100000x8.size a
  hwx0_5 : ∀ i : grid0.Coords, EltTy.bits .f32 = 32 ∨ (Rect.block (s := S100000x8) S10000x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x8.size a ≤ S100000x8.size a
  hwx0_6 : ∀ i : grid0.Coords, EltTy.bits .f32 = 32 ∨ (Rect.block (s := S100000x8) S10000x8.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x1.size a ≤ S40x1.size a
  hwx1_2 : ∀ i : grid1.Coords, EltTy.bits .f32 = 32 ∨ (Rect.block (s := S40x1) S40x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x1.size a ≤ S40x1.size a
  hwx1_3 : ∀ i : grid1.Coords, EltTy.bits .f32 = 32 ∨ (Rect.block (s := S40x1) S40x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x40.size a ≤ S100000x40.size a
  hwx1_4 : ∀ i : grid1.Coords, EltTy.bits .f32 = 32 ∨ (Rect.block (s := S100000x40) S10000x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S100000x1.size a
  hwx1_6 : ∀ i : grid1.Coords, EltTy.bits .f32 = 32 ∨ (Rect.block (s := S100000x1) S10000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S100000x40.size a
  hwx2_1 : ∀ i : grid2.Coords, EltTy.bits .f32 = 32 ∨ (Rect.block (s := S100000x40) S10000x40.size (cc2_transform_1 i) (hinb2_1 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x8_S10000x8_1_0_0_1_n_n : DotDims S10000x64 S64x8 S10000x8 where
  lhsContracting := [1]
  rhsContracting := [0]
  lhsNonContracting := [0]
  rhsNonContracting := [1]
  lhsBatch := []
  rhsBatch := []
  wf := dot_S10000x64_S64x8_S10000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x40_S40x1_S10000x1_1_0_0_1_n_n : DotDims S10000x40 S40x1 S10000x1 where
  lhsContracting := [1]
  rhsContracting := [0]
  lhsNonContracting := [0]
  rhsNonContracting := [1]
  lhsBatch := []
  rhsBatch := []
  wf := dot_S10000x40_S40x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S64x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37_1) S10000x8.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37_2) S10000x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v82) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S40x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v88) S40x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v89_0) S10000x40.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v89_1) S10000x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v89_2) S10000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v133) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v134) S10000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S1x8x16 : Shape := ⟨3, ![1, 8, 16]⟩
abbrev S64x40 : Shape := ⟨2, ![64, 40]⟩
abbrev S1x1x80 : Shape := ⟨3, ![1, 1, 80]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S100000x8x8 : Shape := ⟨3, ![100000, 8, 8]⟩
abbrev S_ : Shape := ⟨0, ![]⟩
abbrev S1700000x1 : Shape := ⟨2, ![1700000, 1]⟩
abbrev S1700000x8x8 : Shape := ⟨3, ![1700000, 8, 8]⟩
abbrev S1x8x8 : Shape := ⟨3, ![1, 8, 8]⟩
abbrev S1700000x8 : Shape := ⟨2, ![1700000, 8]⟩
abbrev S100000x8 : Shape := ⟨2, ![100000, 8]⟩
abbrev S1700000x8x1 : Shape := ⟨3, ![1700000, 8, 1]⟩
abbrev S100000x40 : Shape := ⟨2, ![100000, 40]⟩
abbrev S100000x1x40 : Shape := ⟨3, ![100000, 1, 40]⟩
abbrev S1700000x1x40 : Shape := ⟨3, ![1700000, 1, 40]⟩
abbrev S1x1x40 : Shape := ⟨3, ![1, 1, 40]⟩
abbrev S100000x1 : Shape := ⟨2, ![100000, 1]⟩
abbrev S1700000x1x1 : Shape := ⟨3, ![1700000, 1, 1]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S1x8x16, .f32⟩
  | 4 => ⟨S64x40, .f32⟩
  | 5 => ⟨S1x1x80, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S100000x8x8, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x8x8, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000x8x8, .f32⟩
  | 33 => ⟨S1x8x8, .f32⟩
  | 34 => ⟨S1x8x8, .f32⟩
  | 35 => ⟨S1700000x8x8, .f32⟩
  | 36 => ⟨S1700000x8x8, .f32⟩
  | 37 => ⟨S_, .f32⟩
  | 38 => ⟨S1700000x8, .f32⟩
  | 39 => ⟨S1700000x8x8, .f32⟩
  | 40 => ⟨S1700000x8x8, .f32⟩
  | 41 => ⟨S_, .f32⟩
  | 42 => ⟨S1700000x8, .f32⟩
  | 43 => ⟨S1700000x8, .f32⟩
  | 44 => ⟨S_, .f32⟩
  | 45 => ⟨S_, .f32⟩
  | 46 => ⟨S1700000x8, .f32⟩
  | 47 => ⟨S1700000x8, .i1⟩
  | 48 => ⟨S_, .f32⟩
  | 49 => ⟨S1700000x8, .f32⟩
  | 50 => ⟨S1700000x8, .f32⟩
  | 51 => ⟨S1700000x8, .f32⟩
  | 52 => ⟨S_, .f32⟩
  | 53 => ⟨S1700000, .f32⟩
  | 54 => ⟨S1700000x1, .f32⟩
  | 55 => ⟨S1700000x8, .f32⟩
  | 56 => ⟨S1700000x8, .f32⟩
  | 57 => ⟨S1700000x8, .f32⟩
  | 58 => ⟨S_, .f32⟩
  | 59 => ⟨S100000x8, .f32⟩
  | 60 => ⟨S1700000x1, .i32⟩
  | 61 => ⟨S100000x8, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x8, .f32⟩
  | 71 => ⟨S1700000x8, .f32⟩
  | 72 => ⟨S1700000x8x1, .f32⟩
  | 73 => ⟨S1700000x8x8, .f32⟩
  | 74 => ⟨S1700000x8x8, .f32⟩
  | 75 => ⟨S_, .f32⟩
  | 76 => ⟨S100000x8x8, .f32⟩
  | 77 => ⟨S1700000x1, .i32⟩
  | 78 => ⟨S100000x8x8, .f32⟩
  | 79 => ⟨S100000x64, .f32⟩
  | 80 => ⟨S_, .f32⟩
  | 81 => ⟨S100000x64, .f32⟩
  | 82 => ⟨S100000x64, .i1⟩
  | 83 => ⟨S_, .f32⟩
  | 84 => ⟨S100000x64, .f32⟩
  | 85 => ⟨S100000x64, .i1⟩
  | 86 => ⟨S_, .f32⟩
  | 87 => ⟨S_, .f32⟩
  | 88 => ⟨S100000x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S100000x40, .f32⟩
  | 96 => ⟨S100000x1x40, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x1x40, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x1x40, .f32⟩
  | 115 => ⟨S1x1x40, .f32⟩
  | 116 => ⟨S1x1x40, .f32⟩
  | 117 => ⟨S1700000x1x40, .f32⟩
  | 118 => ⟨S1700000x1x40, .f32⟩
  | 119 => ⟨S_, .f32⟩
  | 120 => ⟨S1700000x1, .f32⟩
  | 121 => ⟨S1700000x1x40, .f32⟩
  | 122 => ⟨S1700000x1x40, .f32⟩
  | 123 => ⟨S_, .f32⟩
  | 124 => ⟨S1700000x1, .f32⟩
  | 125 => ⟨S1700000x1, .f32⟩
  | 126 => ⟨S_, .f32⟩
  | 127 => ⟨S_, .f32⟩
  | _ => ⟨S100000x128, .f32⟩

abbrev hbmTy0_1 (i : Nat) : BufTy := match i % 128 with
  | 0 => ⟨S1700000x1, .f32⟩
  | 1 => ⟨S1700000x1, .i1⟩
  | 2 => ⟨S_, .f32⟩
  | 3 => ⟨S1700000x1, .f32⟩
  | 4 => ⟨S1700000x1, .f32⟩
  | 5 => ⟨S1700000x1, .f32⟩
  | 6 => ⟨S_, .f32⟩
  | 7 => ⟨S1700000, .f32⟩
  | 8 => ⟨S1700000x1, .f32⟩
  | 9 => ⟨S1700000x1, .f32⟩
  | 10 => ⟨S1700000x1, .f32⟩
  | 11 => ⟨S_, .f32⟩
  | 12 => ⟨S100000x1, .f32⟩
  | 13 => ⟨S1700000x1, .i32⟩
  | 14 => ⟨S100000x1, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x1, .f32⟩
  | 24 => ⟨S1700000x1, .f32⟩
  | 25 => ⟨S1700000x1x1, .f32⟩
  | 26 => ⟨S1700000x1x40, .f32⟩
  | 27 => ⟨S1700000x1x40, .f32⟩
  | 28 => ⟨S_, .f32⟩
  | 29 => ⟨S100000x1x40, .f32⟩
  | 30 => ⟨S1700000x1, .i32⟩
  | 31 => ⟨S100000x1x40, .f32⟩
  | 32 => ⟨S_, .f32⟩
  | 33 => ⟨S100000x40, .f32⟩
  | 34 => ⟨S_, .f32⟩
  | 35 => ⟨S100000x40, .f32⟩
  | 36 => ⟨S100000x40, .f32⟩
  | 37 => ⟨S_, .f32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x40, .f32⟩
  | 44 => ⟨S100000x40, .f32⟩
  | 45 => ⟨S100000x40, .f32⟩
  | 46 => ⟨S_, .f32⟩
  | 47 => ⟨S100000, .f32⟩
  | 48 => ⟨S100000x1, .f32⟩
  | 49 => ⟨S100000x1, .f32⟩
  | 50 => ⟨S100000x40, .f32⟩
  | 51 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_cst_1 : Ref sig .tc := ⟨.hbm, 86, rfl⟩
abbrev main_call1_call0_v0 : Ref sig .tc := ⟨.hbm, 87, rfl⟩
abbrev main_call1_call0_v1 : Ref sig .tc := ⟨.hbm, 88, rfl⟩
abbrev main_call1_v4 : Ref sig .tc := ⟨.hbm, 89, rfl⟩
abbrev main_call1_v5 : Ref sig .tc := ⟨.hbm, 90, rfl⟩
abbrev main_call1_cst_2 : Ref sig .tc := ⟨.hbm, 91, rfl⟩
abbrev main_call1_v6 : Ref sig .tc := ⟨.hbm, 92, rfl⟩
abbrev main_call1_v7 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_10 : Ref sig .tc := ⟨.hbm, 97, rfl⟩
abbrev main_v59 : Ref sig .tc := ⟨.hbm, 98, rfl⟩
abbrev main_v60 : Ref sig .tc := ⟨.hbm, 99, rfl⟩
abbrev main_c_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_12 : Ref sig .tc := ⟨.hbm, 106, rfl⟩
abbrev main_v66 : Ref sig .tc := ⟨.hbm, 107, rfl⟩
abbrev main_v67 : Ref sig .tc := ⟨.hbm, 108, rfl⟩
abbrev main_c_13 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_14 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_15 : Ref sig .tc := ⟨.hbm, 123, rfl⟩
abbrev main_v80 : Ref sig .tc := ⟨.hbm, 124, rfl⟩
abbrev main_v81 : Ref sig .tc := ⟨.hbm, 125, rfl⟩
abbrev main_cst_16 : Ref sig .tc := ⟨.hbm, 126, rfl⟩
abbrev main_call2_cst : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_v82 : Ref sig .tc := ⟨.hbm, 133, rfl⟩
abbrev main_cst_17 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_18 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_19 : Ref sig .tc := ⟨.hbm, 143, rfl⟩
abbrev main_v90 : Ref sig .tc := ⟨.hbm, 144, rfl⟩
abbrev main_v91 : Ref sig .tc := ⟨.hbm, 145, rfl⟩
abbrev main_c_20 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_21 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_22 : Ref sig .tc := ⟨.hbm, 160, rfl⟩
abbrev main_v104 : Ref sig .tc := ⟨.hbm, 161, rfl⟩
abbrev main_cst_23 : Ref sig .tc := ⟨.hbm, 162, rfl⟩
abbrev main_v105 : Ref sig .tc := ⟨.hbm, 163, rfl⟩
abbrev main_v106 : Ref sig .tc := ⟨.hbm, 164, rfl⟩
abbrev main_call3_cst : Ref sig .tc := ⟨.hbm, 165, rfl⟩
abbrev main_call3_v0 : Ref sig .tc := ⟨.hbm, 166, rfl⟩
abbrev main_call3_cst_0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_v5 : Ref sig .tc := ⟨.hbm, 172, rfl⟩
abbrev main_call3_v6 : Ref sig .tc := ⟨.hbm, 173, rfl⟩
abbrev main_call3_cst_1 : Ref sig .tc := ⟨.hbm, 174, rfl⟩
abbrev main_call3_v7 : Ref sig .tc := ⟨.hbm, 175, rfl⟩
abbrev main_call3_v8 : Ref sig .tc := ⟨.hbm, 176, rfl⟩
abbrev main_call3_v9 : Ref sig .tc := ⟨.hbm, 177, rfl⟩
abbrev main_call3_v10 : Ref sig .tc := ⟨.hbm, 178, rfl⟩
abbrev main_v107 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  shapeCasts_S100000x64_S100000x8x8 : S100000x64.ShapeCasts S100000x8x8
  bcast_S_S1700000 : S_.BroadcastsInDim S1700000 (![] : Fin 0 → Fin S1700000.rank)
  bcast_S1700000_S1700000x1_0 : S1700000.BroadcastsInDim S1700000x1 (![0] : Fin 1 → Fin S1700000x1.rank)
  slices_S1x8x16_S1x8x8_0_0_0 : S1x8x16.Slices ![0, 0, 0] S1x8x8
  slices_S1x8x16_S1x8x8_0_0_8 : S1x8x16.Slices ![0, 0, 8] S1x8x8
  bcast_S1x8x8_S1700000x8x8_0_1_2 : S1x8x8.BroadcastsInDim S1700000x8x8 (![0, 1, 2] : Fin 3 → Fin S1700000x8x8.rank)
  reducesTo_S1700000x8x8_S1700000x8_d2 : S1700000x8x8.ReducesTo [2] S1700000x8
  h_S_ : 0 < S_.numel
  bcast_S_S1700000x8 : S_.BroadcastsInDim S1700000x8 (![] : Fin 0 → Fin S1700000x8.rank)
  reducesTo_S1700000x8_S1700000_d1 : S1700000x8.ReducesTo [1] S1700000
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S1700000x8_S1700000x8x1_0_1 : S1700000x8.BroadcastsInDim S1700000x8x1 (![0, 1] : Fin 2 → Fin S1700000x8x1.rank)
  bcast_S1700000x8x1_S1700000x8x8_0_1_2 : S1700000x8x1.BroadcastsInDim S1700000x8x8 (![0, 1, 2] : Fin 3 → Fin S1700000x8x8.rank)
  bcast_S_S100000x8x8 : S_.BroadcastsInDim S100000x8x8 (![] : Fin 0 → Fin S100000x8x8.rank)
  shapeCasts_S100000x8x8_S100000x64 : S100000x8x8.ShapeCasts S100000x64
  bcast_S_S100000x64 : S_.BroadcastsInDim S100000x64 (![] : Fin 0 → Fin S100000x64.rank)
  shapeCasts_S100000x40_S100000x1x40 : S100000x40.ShapeCasts S100000x1x40
  slices_S1x1x80_S1x1x40_0_0_0 : S1x1x80.Slices ![0, 0, 0] S1x1x40
  slices_S1x1x80_S1x1x40_0_0_40 : S1x1x80.Slices ![0, 0, 40] S1x1x40
  bcast_S1x1x40_S1700000x1x40_0_1_2 : S1x1x40.BroadcastsInDim S1700000x1x40 (![0, 1, 2] : Fin 3 → Fin S1700000x1x40.rank)
  reducesTo_S1700000x1x40_S1700000x1_d2 : S1700000x1x40.ReducesTo [2] S1700000x1
  bcast_S_S1700000x1 : S_.BroadcastsInDim S1700000x1 (![] : Fin 0 → Fin S1700000x1.rank)
  reducesTo_S1700000x1_S1700000_d1 : S1700000x1.ReducesTo [1] S1700000
  bcast_S_S100000x1 : S_.BroadcastsInDim S100000x1 (![] : Fin 0 → Fin S100000x1.rank)
  bcast_S1700000x1_S1700000x1x1_0_1 : S1700000x1.BroadcastsInDim S1700000x1x1 (![0, 1] : Fin 2 → Fin S1700000x1x1.rank)
  bcast_S1700000x1x1_S1700000x1x40_0_1_2 : S1700000x1x1.BroadcastsInDim S1700000x1x40 (![0, 1, 2] : Fin 3 → Fin S1700000x1x40.rank)
  bcast_S_S100000x1x40 : S_.BroadcastsInDim S100000x1x40 (![] : Fin 0 → Fin S100000x1x40.rank)
  reducesTo_S100000x1x40_S100000x40_d1 : S100000x1x40.ReducesTo [1] S100000x40
  bcast_S_S100000x40 : S_.BroadcastsInDim S100000x40 (![] : Fin 0 → Fin S100000x40.rank)
  reducesTo_S100000x40_S100000_d1 : S100000x40.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x8x8_S1700000x1_S1700000x8x8_12_0_n_n_0_1_188_wf : GatherDims.WF S100000x8x8 S1700000x1 S1700000x8x8 [1, 2] [0] [] [0] [] 1 ![1, 8, 8]
  scatter_S100000x8_S1700000x1_S1700000x8_1_0_0_1_wf : ScatterDims.WF S100000x8 S1700000x1 S1700000x8 [1] [0] [0] 1
  gather_S100000x8_S1700000x1_S1700000x8_1_0_n_n_0_1_18_wf : GatherDims.WF S100000x8 S1700000x1 S1700000x8 [1] [0] [] [0] [] 1 ![1, 8]
  scatter_S100000x8x8_S1700000x1_S1700000x8x8_12_0_0_1_wf : ScatterDims.WF S100000x8x8 S1700000x1 S1700000x8x8 [1, 2] [0] [0] 1
  dot_S100000x64_S64x40_S100000x40_1_0_0_1_n_n_wf : DotDims.WF S100000x64 S64x40 S100000x40 [1] [0] [0] [1] [] []
  gather_S100000x1x40_S1700000x1_S1700000x1x40_12_0_n_n_0_1_1140_wf : GatherDims.WF S100000x1x40 S1700000x1 S1700000x1x40 [1, 2] [0] [] [0] [] 1 ![1, 1, 40]
  scatter_S100000x1_S1700000x1_S1700000x1_1_0_0_1_wf : ScatterDims.WF S100000x1 S1700000x1 S1700000x1 [1] [0] [0] 1
  gather_S100000x1_S1700000x1_S1700000x1_1_0_n_n_0_1_11_wf : GatherDims.WF S100000x1 S1700000x1 S1700000x1 [1] [0] [] [0] [] 1 ![1, 1]
  scatter_S100000x1x40_S1700000x1_S1700000x1x40_12_0_0_1_wf : ScatterDims.WF S100000x1x40 S1700000x1 S1700000x1x40 [1, 2] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x8x8_S1700000x1_S1700000x8x8_12_0_n_n_0_1_188 : GatherDims S100000x8x8 S1700000x1 S1700000x8x8 where
  offsetDims := [1, 2]
  collapsedSliceDims := [0]
  operandBatchingDims := []
  startIndicesBatchingDims := []
  startIndexMap := [0]
  indexVectorDim := 1
  sliceSizes := ![1, 8, 8]
  wf := gather_S100000x8x8_S1700000x1_S1700000x8x8_12_0_n_n_0_1_188_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8x8_S1700000x1_S1700000x8x8_12_0_0_1 : ScatterDims S100000x8x8 S1700000x1 S1700000x8x8 where
  updateWindowDims := [1, 2]
  insertedWindowDims := [0]
  scatterDimsToOperandDims := [0]
  indexVectorDim := 1
  wf := scatter_S100000x8x8_S1700000x1_S1700000x8x8_12_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x1x40_S1700000x1_S1700000x1x40_12_0_n_n_0_1_1140 : GatherDims S100000x1x40 S1700000x1 S1700000x1x40 where
  offsetDims := [1, 2]
  collapsedSliceDims := [0]
  operandBatchingDims := []
  startIndicesBatchingDims := []
  startIndexMap := [0]
  indexVectorDim := 1
  sliceSizes := ![1, 1, 40]
  wf := gather_S100000x1x40_S1700000x1_S1700000x1x40_12_0_n_n_0_1_1140_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1x40_S1700000x1_S1700000x1x40_12_0_0_1 : ScatterDims S100000x1x40 S1700000x1 S1700000x1x40 where
  updateWindowDims := [1, 2]
  insertedWindowDims := [0]
  scatterDimsToOperandDims := [0]
  indexVectorDim := 1
  wf := scatter_S100000x1x40_S1700000x1_S1700000x1x40_12_0_0_1_wf

class Facts : Prop extends Facts₀ where

variable [Facts]
-- ==== Proof.KRun.lean ====
/-
  The kernel program's run with its result named: from any memory with zero counters every weakly fair execution
  of the program on the TensorCores terminates, and the result buffer ends at what the last region's pipeline leaves
  in its output array, the six arguments as launched.
-/
import proofs.«160089_j1881195675933_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s result buffer holds when the program returns: the last boundary's contents at it. -/
def out (c : Dev nD) : Buf (Elt F) ((c.tc : Thread nD τ).loc main_v134) :=
  W17 m ρ c (Proc.devRef .tc main_v134)

/-- The result buffer is the last region's output array, so it holds what that region's pipeline leaves there. -/
theorem out_eq (c : Dev nD) : out m ρ c = (dat2 (V16 m ρ) c).arrAt 1 cfg2.N :=
  W17_arr m ρ c 1

set_option backward.isDefEq.respectTransparency.types false in
/-- THE RUN: the program terminates from any memory with zero counters, nothing faulting; the result buffer ends
    at `out`, every argument as launched. The launch over the program's segments, the last thread state read against
    the final state at the result buffer and at each argument. -/
theorem run : θ_run defs (onTc (τ := τ) (main (F := F))) ⟨m, fun _ => 0, ρ⟩ (fun r => ∀ c : Dev nD,
      r.2.mem ((c.tc : Thread nD τ).loc main_v134) = out m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v134 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c)⟩)

end Cert.KernelIdeal.KRun

end
-- ==== Proof.KStages.lean ====
/-
  The kernel program's host stages as pure functions: each the composition of the StableHLO operations
  that compute one named value of the 2-layer graph attention network from earlier values, in the
  operations' own order and spelling.
-/
import proofs.«160089_j1881195675933_1_alg».proof.Proof.Gen.KernelIdeal

noncomputable section

namespace Cert.KernelIdeal.KRun

open Idealize.ShloMosaic Idealize.SL.Sem
open Cert.KernelIdeal.Gen

variable {F : FTy → Type} [FloatOps F]

local notation "C[" S ", " e "]" => BufTy.Contents (Elt F) (BufTy.mk S e)

/-! ## The edge list with self loops -/

/-- Row 0 of the edge list followed by the self loops `0 … 99999`: the source end of each of the 1700000 edges. -/
def edgeSrc (a1 : C[S2x1600000, .i32]) : C[S1700000, .i32] :=
  let v0 : C[S100000, .i32] := iotaInDim S100000 32 0
  let v1 : C[S1x1600000, .i32] := extractStridedSlice S1x1600000 ![0, 0] a1 slices_S2x1600000_S1x1600000_0_0
  let v2 : C[S1600000, .i32] := fun i => shapeCast S1600000 v1 shapeCasts_S1x1600000_S1600000 i
  concatenate S1700000 0 [⟨S1600000, v2⟩, ⟨S100000, v0⟩] concatenates_S1600000_S100000_S1700000_d0

/-- Row 1 of the edge list followed by the self loops: the target end of each edge. -/
def edgeDst (a1 : C[S2x1600000, .i32]) : C[S1700000, .i32] :=
  let v0 : C[S100000, .i32] := iotaInDim S100000 32 0
  let v4 : C[S1x1600000, .i32] := extractStridedSlice S1x1600000 ![1, 0] a1 slices_S2x1600000_S1x1600000_1_0
  let v5 : C[S1600000, .i32] := fun i => shapeCast S1600000 v4 shapeCasts_S1x1600000_S1600000 i
  concatenate S1700000 0 [⟨S1600000, v5⟩, ⟨S100000, v0⟩] concatenates_S1600000_S100000_S1700000_d0

/-- A vector of node indices wrapped as a gather takes it: a negative entry has 100000 added, and the result is set as a column. -/
def normCol (v : C[S1700000, .i32]) : C[S1700000x1, .i32] :=
  let z : C[S1700000, .i32] := broadcastInDim S1700000 ![] bcast_S_S1700000 (constantI S_ 32 0#32 : C[S_, .i32])
  let n : C[S1700000, .i32] := broadcastInDim S1700000 ![] bcast_S_S1700000 (constantI S_ 32 100000#32 : C[S_, .i32])
  let w : C[S1700000, .i32] := select (cmpi .slt v z : C[S1700000, .i1]) (addi v n : C[S1700000, .i32]) v
  broadcastInDim S1700000x1 ![0] bcast_S1700000_S1700000x1_0 w

/-- A vector of node indices set as a column, as a scatter takes it. -/
def rawCol (v : C[S1700000, .i32]) : C[S1700000x1, .i32] :=
  broadcastInDim S1700000x1 ![0] bcast_S1700000_S1700000x1_0 v

/-! ## Layer 1's block-diagonal attention matrices -/

/-- `⌊k / 8⌋` for `k = 0 … 63` (the head a channel belongs to), in the spelling of a floor division of signed integers. -/
def headOf : C[S64, .i32] :=
  let k : C[S64, .i32] := iotaInDim S64 32 0
  let c8 : C[S_, .i32] := constantI S_ 32 8#32
  let b8 : C[S64, .i32] := broadcastInDim S64 ![] bcast_S_S64 c8
  let q : C[S64, .i32] := Host.divsi k b8
  let sk : C[S64, .i32] := signi k
  let s8 : C[S64, .i32] := broadcastInDim S64 ![] bcast_S_S64 (signi c8 : C[S_, .i32])
  let ne1 : C[S64, .i1] := cmpi .ne sk s8
  let r : C[S64, .i32] := Host.remsi k b8
  let ne2 : C[S64, .i1] := cmpi .ne r (broadcastInDim S64 ![] bcast_S_S64 (constantI S_ 32 0#32 : C[S_, .i32]) : C[S64, .i32])
  let both : C[S64, .i1] := andi ne1 ne2
  let qm : C[S64, .i32] := subi q (broadcastInDim S64 ![] bcast_S_S64 (constantI S_ 32 1#32 : C[S_, .i32]) : C[S64, .i32])
  select both qm q

/-- The 64×8 mask that is set at `(k, j)` exactly when channel `k` belongs to head `j`. -/
def headMask : C[S64x8, .i1] :=
  let hcol : C[S64x1, .i32] := broadcastInDim S64x1 ![0] bcast_S64_S64x1_0 (headOf (F := F))
  let jrow : C[S1x8, .i32] := broadcastInDim S1x8 ![1] bcast_S8_S1x8_1 (iotaInDim S8 32 0 : C[S8, .i32])
  let hm : C[S64x8, .i32] := broadcastInDim S64x8 ![0, 1] bcast_S64x1_S64x8_0_1 hcol
  let jm : C[S64x8, .i32] := broadcastInDim S64x8 ![0, 1] bcast_S1x8_S64x8_0_1 jrow
  cmpi .eq hm jm

/-- An 8×8 table of attention weights (head, channel) laid out as the block-diagonal 64×8 matrix whose entry
    `(k, j)` is the weight of channel `k` when `k` belongs to head `j` and zero otherwise. -/
def blockDiag (a : C[S8x8, .f32]) : C[S64x8, .f32] :=
  let flat : C[S64, .f32] := fun i => shapeCast S64 a shapeCasts_S8x8_S64 i
  let colv : C[S64x1, .f32] := broadcastInDim S64x1 ![0] bcast_S64_S64x1_0 flat
  let z64 : C[S64, .f32] := broadcastInDim S64 ![] bcast_S_S64 (constant (F := F) S_ .f32 0x00000000#32)
  let zcol : C[S64x1, .f32] := broadcastInDim S64x1 ![0] bcast_S64_S64x1_0 z64
  select (headMask (F := F)) (broadcastInDim S64x8 ![0, 1] bcast_S64x1_S64x8_0_1 colv : C[S64x8, .f32])
    (broadcastInDim S64x8 ![0, 1] bcast_S64x1_S64x8_0_1 zcol : C[S64x8, .f32])

/-- The first eight columns of layer 1's attention parameters (the weights on the target end), block-diagonal. -/
def Mi1 (a3 : C[S1x8x16, .f32]) : C[S64x8, .f32] :=
  let v7 : C[S1x8x8, .f32] := extractStridedSlice S1x8x8 ![0, 0, 0] a3 slices_S1x8x16_S1x8x8_0_0_0
  blockDiag (fun i => shapeCast S8x8 v7 shapeCasts_S1x8x8_S8x8 i)

/-- The last eight columns of layer 1's attention parameters (the weights on the source end), block-diagonal. -/
def Mj1 (a3 : C[S1x8x16, .f32]) : C[S64x8, .f32] :=
  let v9 : C[S1x8x8, .f32] := extractStridedSlice S1x8x8 ![0, 0, 8] a3 slices_S1x8x16_S1x8x8_0_0_8
  blockDiag (fun i => shapeCast S8x8 v9 shapeCasts_S1x8x8_S8x8 i)

/-! ## Layer 1 on the edges -/

/-- The attention logit of each edge and head: the target end's row of `ai` plus the source end's row of `aj`. -/
def alpha1K (ai aj : C[S100000x8, .f32]) (src dst : C[S1700000, .i32]) : C[S1700000x8, .f32] :=
  addf (Host.gather gather_S100000x8_S1700000x1_S1700000x8_1_0_n_n_0_1_18 ai (normCol (F := F) dst) : C[S1700000x8, .f32])
    (Host.gather gather_S100000x8_S1700000x1_S1700000x8_1_0_n_n_0_1_18 aj (normCol (F := F) src) : C[S1700000x8, .f32])

/-- `x` where `x ≥ 0`, else `0.2 · x`. -/
def leaky8 (x : C[S1700000x8, .f32]) : C[S1700000x8, .f32] :=
  let z : C[S1700000x8, .f32] := broadcastInDim S1700000x8 ![] bcast_S_S1700000x8 (constant (F := F) S_ .f32 0x00000000#32)
  let s : C[S1700000x8, .f32] := broadcastInDim S1700000x8 ![] bcast_S_S1700000x8 (constant (F := F) S_ .f32 0x3E4CCCCD#32)
  select (cmpf .oge x z : C[S1700000x8, .i1]) x (mulf s x : C[S1700000x8, .f32])

/-- The attention weights of layer 1: leaky rectification, each edge's own maximum over its heads subtracted, the
    exponential, and division by the sum of the exponentials over the edges with the same target. -/
def attn8 (alpha : C[S1700000x8, .f32]) (dst : C[S1700000, .i32]) : C[S1700000x8, .f32] :=
  let l : C[S1700000x8, .f32] := leaky8 alpha
  let mx : C[S1700000, .f32] := Host.reduce FloatOps.maximumf l (constant (F := F) S_ .f32 0xFF800000#32) reducesTo_S1700000x8_S1700000_d1 h_S_
  let mc : C[S1700000x1, .f32] := broadcastInDim S1700000x1 ![0] bcast_S1700000_S1700000x1_0 mx
  let mb : C[S1700000x8, .f32] := broadcastInDim S1700000x8 ![0, 1] bcast_S1700000x1_S1700000x8_0_1 mc
  let e : C[S1700000x8, .f32] := Host.exp (subf l mb : C[S1700000x8, .f32])
  let z : C[S100000x8, .f32] := broadcastInDim S100000x8 ![] bcast_S_S100000x8 (constant (F := F) S_ .f32 0x00000000#32)
  let s : C[S100000x8, .f32] := Host.scatterAdd scatter_S100000x8_S1700000x1_S1700000x8_1_0_0_1 z (rawCol (F := F) dst) e
  Host.divf e (Host.gather gather_S100000x8_S1700000x1_S1700000x8_1_0_n_n_0_1_18 s (normCol (F := F) dst) : C[S1700000x8, .f32])

/-- Layer 1's aggregation: each edge's source row of `h`, every channel scaled by its head's attention weight,
    summed into the edge's target row. -/
def agg1K (h : C[S100000x64, .f32]) (an : C[S1700000x8, .f32]) (src dst : C[S1700000, .i32]) : C[S100000x64, .f32] :=
  let g : C[S1700000x64, .f32] := Host.gather gather_S100000x64_S1700000x1_S1700000x64_1_0_n_n_0_1_164 h (normCol (F := F) src)
  let w3 : C[S1700000x8x8, .f32] := broadcastInDim S1700000x8x8 ![0, 1] bcast_S1700000x8_S1700000x8x8_0_1 an
  let w : C[S1700000x64, .f32] := fun i => shapeCast S1700000x64 w3 shapeCasts_S1700000x8x8_S1700000x64 i
  let z : C[S100000x64, .f32] := broadcastInDim S100000x64 ![] bcast_S_S100000x64 (constant (F := F) S_ .f32 0x00000000#32)
  Host.scatterAdd scatter_S100000x64_S1700000x1_S1700000x64_1_0_0_1 z (rawCol (F := F) dst) (mulf g w : C[S1700000x64, .f32])

/-! ## Layer 2 -/

/-- The first forty of layer 2's attention parameters (the weights on the target end), as a column. -/
def atti2 (a5 : C[S1x1x80, .f32]) : C[S40x1, .f32] :=
  let v83 : C[S1x1x40, .f32] := extractStridedSlice S1x1x40 ![0, 0, 0] a5 slices_S1x1x80_S1x1x40_0_0_0
  let v84 : C[S40, .f32] := fun i => shapeCast S40 v83 shapeCasts_S1x1x40_S40 i
  fun i => shapeCast S40x1 v84 shapeCasts_S40_S40x1 i

/-- The last forty of layer 2's attention parameters (the weights on the source end), as a column. -/
def attj2 (a5 : C[S1x1x80, .f32]) : C[S40x1, .f32] :=
  let v86 : C[S1x1x40, .f32] := extractStridedSlice S1x1x40 ![0, 0, 40] a5 slices_S1x1x80_S1x1x40_0_0_40
  let v87 : C[S40, .f32] := fun i => shapeCast S40 v86 shapeCasts_S1x1x40_S40 i
  fun i => shapeCast S40x1 v87 shapeCasts_S40_S40x1 i

/-- Layer 2's attention logit of each edge (one head). -/
def alpha2K (ai aj : C[S100000x1, .f32]) (src dst : C[S1700000, .i32]) : C[S1700000x1, .f32] :=
  addf (Host.gather gather_S100000x1_S1700000x1_S1700000x1_1_0_n_n_0_1_11 ai (normCol (F := F) dst) : C[S1700000x1, .f32])
    (Host.gather gather_S100000x1_S1700000x1_S1700000x1_1_0_n_n_0_1_11 aj (normCol (F := F) src) : C[S1700000x1, .f32])

/-- `x` where `x ≥ 0`, else `0.2 · x`, on a column. -/
def leaky1 (x : C[S1700000x1, .f32]) : C[S1700000x1, .f32] :=
  let z : C[S1700000x1, .f32] := broadcastInDim S1700000x1 ![] bcast_S_S1700000x1 (constant (F := F) S_ .f32 0x00000000#32)
  let s : C[S1700000x1, .f32] := broadcastInDim S1700000x1 ![] bcast_S_S1700000x1 (constant (F := F) S_ .f32 0x3E4CCCCD#32)
  select (cmpf .oge x z : C[S1700000x1, .i1]) x (mulf s x : C[S1700000x1, .f32])

/-- The attention weights of layer 2 (one head): the same chain as layer 1's on a column. -/
def attn1 (alpha : C[S1700000x1, .f32]) (dst : C[S1700000, .i32]) : C[S1700000x1, .f32] :=
  let l : C[S1700000x1, .f32] := leaky1 alpha
  let mx : C[S1700000, .f32] := Host.reduce FloatOps.maximumf l (constant (F := F) S_ .f32 0xFF800000#32) reducesTo_S1700000x1_S1700000_d1 h_S_
  let mc : C[S1700000x1, .f32] := broadcastInDim S1700000x1 ![0] bcast_S1700000_S1700000x1_0 mx
  let e : C[S1700000x1, .f32] := Host.exp (subf l mc : C[S1700000x1, .f32])
  let z : C[S100000x1, .f32] := broadcastInDim S100000x1 ![] bcast_S_S100000x1 (constant (F := F) S_ .f32 0x00000000#32)
  let s : C[S100000x1, .f32] := Host.scatterAdd scatter_S100000x1_S1700000x1_S1700000x1_1_0_0_1 z (rawCol (F := F) dst) e
  Host.divf e (Host.gather gather_S100000x1_S1700000x1_S1700000x1_1_0_n_n_0_1_11 s (normCol (F := F) dst) : C[S1700000x1, .f32])

/-- Layer 2's aggregation: each edge's source row of `h` scaled by the edge's attention weight, summed into the
    edge's target row. -/
def agg2K (h : C[S100000x40, .f32]) (an : C[S1700000x1, .f32]) (src dst : C[S1700000, .i32]) : C[S100000x40, .f32] :=
  let g : C[S1700000x40, .f32] := Host.gather gather_S100000x40_S1700000x1_S1700000x40_1_0_n_n_0_1_140 h (normCol (F := F) src)
  let w3 : C[S1700000x1x40, .f32] := broadcastInDim S1700000x1x40 ![0, 1] bcast_S1700000x1_S1700000x1x40_0_1 an
  let w : C[S1700000x40, .f32] := fun i => shapeCast S1700000x40 w3 shapeCasts_S1700000x1x40_S1700000x40 i
  let z : C[S100000x40, .f32] := broadcastInDim S100000x40 ![] bcast_S_S100000x40 (constant (F := F) S_ .f32 0x00000000#32)
  Host.scatterAdd scatter_S100000x40_S1700000x1_S1700000x40_1_0_0_1 z (rawCol (F := F) dst) (mulf g w : C[S1700000x40, .f32])

end Cert.KernelIdeal.KRun

end
-- ==== Proof.KHost0.lean ====
/-
  What the first region finds in its input arrays: each a host stage of the launch memory, read off the fold of the
  host operations that run before it.
-/
import proofs.«160089_j1881195675933_1_alg».proof.Proof.Gen.KernelIdeal.Frame
import proofs.«160089_j1881195675933_1_alg».proof.Proof.KStages

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)
open Cert.KernelIdeal.Gen

variable {F : FTy → Type} [FloatOps F]
variable (m : (ℓ : Loc nD τ sig) → Buf (Elt F) ℓ) (ρ : Dev nD → PrngReg)

/-! ## Before region 0: arguments no operation writes, and the values the host stretch computes -/

theorem W8_arg0 (c : Dev nD) : W8 m ρ c (Proc.devRef .tc main_arg0) = m ((c.tc : Thread nD τ).loc main_arg0) := by
  show W8 m ρ c (Proc.devRef .tc main_arg0) = _
  dsimp only [W8, W7, W6, W5, W4, W3, W2, W1]
  after_results_simp
theorem W8_arg1 (c : Dev nD) : W8 m ρ c (Proc.devRef .tc main_arg1) = m ((c.tc : Thread nD τ).loc main_arg1) := by
  show W8 m ρ c (Proc.devRef .tc main_arg1) = _
  dsimp only [W8, W7, W6, W5, W4, W3, W2, W1]
  after_results_simp
theorem W8_arg2 (c : Dev nD) : W8 m ρ c (Proc.devRef .tc main_arg2) = m ((c.tc : Thread nD τ).loc main_arg2) := by
  show W8 m ρ c (Proc.devRef .tc main_arg2) = _
  dsimp only [W8, W7, W6, W5, W4, W3, W2, W1]
  after_results_simp
theorem W8_arg4 (c : Dev nD) : W8 m ρ c (Proc.devRef .tc main_arg4) = m ((c.tc : Thread nD τ).loc main_arg4) := by
  show W8 m ρ c (Proc.devRef .tc main_arg4) = _
  dsimp only [W8, W7, W6, W5, W4, W3, W2, W1]
  after_results_simp
theorem W8_arg5 (c : Dev nD) : W8 m ρ c (Proc.devRef .tc main_arg5) = m ((c.tc : Thread nD τ).loc main_arg5) := by
  show W8 m ρ c (Proc.devRef .tc main_arg5) = _
  dsimp only [W8, W7, W6, W5, W4, W3, W2, W1]
  after_results_simp

/-- The source ends of the edges, as the first host stretch leaves them. -/
theorem W8_v3 (c : Dev nD) : W8 m ρ c (Proc.devRef .tc main_v3) = edgeSrc (m ((c.tc : Thread nD τ).loc main_arg1)) := by
  show W8 m ρ c (Proc.devRef .tc main_v3) = _
  dsimp only [W8, W7, W6, W5, W4, W3, W2, W1]
  after_results_simp
  rfl
/-- The target ends of the edges. -/
theorem W8_v6 (c : Dev nD) : W8 m ρ c (Proc.devRef .tc main_v6) = edgeDst (m ((c.tc : Thread nD τ).loc main_arg1)) := by
  show W8 m ρ c (Proc.devRef .tc main_v6) = _
  dsimp only [W8, W7, W6, W5, W4, W3, W2, W1]
  after_results_simp
  rfl

/-! ## Region 0's entry contents -/

theorem V8_arg0 (c : Dev nD) : V8 m ρ c main_arg0 = m ((c.tc : Thread nD τ).loc main_arg0) := W8_arg0 m ρ c
theorem V8_arg2 (c : Dev nD) : V8 m ρ c main_arg2 = m ((c.tc : Thread nD τ).loc main_arg2) := W8_arg2 m ρ c

/-- The block-diagonal matrix of the target-end attention weights. -/
theorem V8_v23 (c : Dev nD) : V8 m ρ c main_v23 = Mi1 (m ((c.tc : Thread nD τ).loc main_arg3)) := by
  show W8 m ρ c (Proc.devRef .tc main_v23) = _
  dsimp only [W8, W7, W6, W5, W4, W3, W2, W1]
  after_results_simp
  rfl
/-- The block-diagonal matrix of the source-end attention weights. -/
theorem V8_v36 (c : Dev nD) : V8 m ρ c main_v36 = Mj1 (m ((c.tc : Thread nD τ).loc main_arg3)) := by
  show W8 m ρ c (Proc.devRef .tc main_v36) = _
  dsimp only [W8, W7, W6, W5, W4, W3, W2, W1]
  after_results_simp
  rfl

end Cert.KernelIdeal.KRun

end
-- ==== Proof.KHost1.lean ====
/-
  What the second region finds in its input arrays: the aggregation of layer 1 over the first region's arrays, and
  layer 2's parameters.
-/
import proofs.«160089_j1881195675933_1_alg».proof.Proof.KHost0

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)
open Cert.KernelIdeal.Gen

variable {F : FTy → Type} [FloatOps F]
variable (m : (ℓ : Loc nD τ sig) → Buf (Elt F) ℓ) (ρ : Dev nD → PrngReg)

/-! ## Across region 0: its arrays at what its pipeline leaves, every other buffer as entered -/

theorem W9_v37_0 (c : Dev nD) : W9 m ρ c (Proc.devRef .tc main_v37_0) = (dat0 (V8 m ρ) c).arrAt 4 cfg0.N := W9_arr m ρ c 4
theorem W9_v37_1 (c : Dev nD) : W9 m ρ c (Proc.devRef .tc main_v37_1) = (dat0 (V8 m ρ) c).arrAt 5 cfg0.N := W9_arr m ρ c 5
theorem W9_v37_2 (c : Dev nD) : W9 m ρ c (Proc.devRef .tc main_v37_2) = (dat0 (V8 m ρ) c).arrAt 6 cfg0.N := W9_arr m ρ c 6

theorem W9_v3 (c : Dev nD) : W9 m ρ c (Proc.devRef .tc main_v3) = edgeSrc (m ((c.tc : Thread nD τ).loc main_arg1)) :=
  (W9_of_ne m ρ c main_v3 (by decide)).trans (W8_v3 m ρ c)
theorem W9_v6 (c : Dev nD) : W9 m ρ c (Proc.devRef .tc main_v6) = edgeDst (m ((c.tc : Thread nD τ).loc main_arg1)) :=
  (W9_of_ne m ρ c main_v6 (by decide)).trans (W8_v6 m ρ c)
theorem W9_arg4 (c : Dev nD) : W9 m ρ c (Proc.devRef .tc main_arg4) = m ((c.tc : Thread nD τ).loc main_arg4) :=
  (W9_of_ne m ρ c main_arg4 (by decide)).trans (W8_arg4 m ρ c)
theorem W9_arg5 (c : Dev nD) : W9 m ρ c (Proc.devRef .tc main_arg5) = m ((c.tc : Thread nD τ).loc main_arg5) :=
  (W9_of_ne m ρ c main_arg5 (by decide)).trans (W8_arg5 m ρ c)

/-! ## Before region 1 -/

theorem W12_v3 (c : Dev nD) : W12 m ρ c (Proc.devRef .tc main_v3) = edgeSrc (m ((c.tc : Thread nD τ).loc main_arg1)) := by
  dsimp only [W12, W11, W10]
  after_results_simp
  exact W9_v3 m ρ c
theorem W12_v6 (c : Dev nD) : W12 m ρ c (Proc.devRef .tc main_v6) = edgeDst (m ((c.tc : Thread nD τ).loc main_arg1)) := by
  dsimp only [W12, W11, W10]
  after_results_simp
  exact W9_v6 m ρ c
theorem W12_arg5 (c : Dev nD) : W12 m ρ c (Proc.devRef .tc main_arg5) = m ((c.tc : Thread nD τ).loc main_arg5) := by
  dsimp only [W12, W11, W10]
  after_results_simp
  exact W9_arg5 m ρ c

/-! ## Region 1's entry contents -/

set_option maxHeartbeats 8000000 in
/-- Layer 1's aggregation over the first region's three arrays. -/
theorem V12_v82 (c : Dev nD) : V12 m ρ c main_v82
    = agg1K ((dat0 (V8 m ρ) c).arrAt 4 cfg0.N)
        (attn8 (alpha1K ((dat0 (V8 m ρ) c).arrAt 5 cfg0.N) ((dat0 (V8 m ρ) c).arrAt 6 cfg0.N)
            (edgeSrc (m ((c.tc : Thread nD τ).loc main_arg1))) (edgeDst (m ((c.tc : Thread nD τ).loc main_arg1))))
          (edgeDst (m ((c.tc : Thread nD τ).loc main_arg1))))
        (edgeSrc (m ((c.tc : Thread nD τ).loc main_arg1))) (edgeDst (m ((c.tc : Thread nD τ).loc main_arg1))) := by
  show W12 m ρ c (Proc.devRef .tc main_v82) = _
  dsimp only [W12, W11, W10]
  after_results_simp
  rw [W9_v3, W9_v6, W9_v37_0, W9_v37_1, W9_v37_2]
  rfl

theorem V12_arg4 (c : Dev nD) : V12 m ρ c main_arg4 = m ((c.tc : Thread nD τ).loc main_arg4) := by
  show W12 m ρ c (Proc.devRef .tc main_arg4) = _
  dsimp only [W12, W11, W10]
  after_results_simp
  exact W9_arg4 m ρ c

theorem V12_v85 (c : Dev nD) : V12 m ρ c main_v85 = atti2 (m ((c.tc : Thread nD τ).loc main_arg5)) := by
  show W12 m ρ c (Proc.devRef .tc main_v85) = _
  dsimp only [W12, W11, W10]
  after_results_simp
  rw [W9_arg5]
  rfl

theorem V12_v88 (c : Dev nD) : V12 m ρ c main_v88 = attj2 (m ((c.tc : Thread nD τ).loc main_arg5)) := by
  show W12 m ρ c (Proc.devRef .tc main_v88) = _
  dsimp only [W12, W11, W10]
  after_results_simp
  rw [W9_arg5]
  rfl

end Cert.KernelIdeal.KRun

end
-- ==== Proof.KHost2.lean ====
/-
  What the third region finds in its input array: the aggregation of layer 2 over the second region's arrays.
-/
import proofs.«160089_j1881195675933_1_alg».proof.Proof.KHost1

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)
open Cert.KernelIdeal.Gen

variable {F : FTy → Type} [FloatOps F]
variable (m : (ℓ : Loc nD τ sig) → Buf (Elt F) ℓ) (ρ : Dev nD → PrngReg)

/-! ## Across region 1 -/

theorem W13_v89_0 (c : Dev nD) : W13 m ρ c (Proc.devRef .tc main_v89_0) = (dat1 (V12 m ρ) c).arrAt 4 cfg1.N := W13_arr m ρ c 4
theorem W13_v89_1 (c : Dev nD) : W13 m ρ c (Proc.devRef .tc main_v89_1) = (dat1 (V12 m ρ) c).arrAt 5 cfg1.N := W13_arr m ρ c 5
theorem W13_v89_2 (c : Dev nD) : W13 m ρ c (Proc.devRef .tc main_v89_2) = (dat1 (V12 m ρ) c).arrAt 6 cfg1.N := W13_arr m ρ c 6

theorem W13_v3 (c : Dev nD) : W13 m ρ c (Proc.devRef .tc main_v3) = edgeSrc (m ((c.tc : Thread nD τ).loc main_arg1)) :=
  (W13_of_ne m ρ c main_v3 (by decide)).trans (W12_v3 m ρ c)
theorem W13_v6 (c : Dev nD) : W13 m ρ c (Proc.devRef .tc main_v6) = edgeDst (m ((c.tc : Thread nD τ).loc main_arg1)) :=
  (W13_of_ne m ρ c main_v6 (by decide)).trans (W12_v6 m ρ c)

/-! ## Region 2's entry contents -/

set_option maxHeartbeats 8000000 in
/-- Layer 2's aggregation over the second region's three arrays. -/
theorem V16_v133 (c : Dev nD) : V16 m ρ c main_v133
    = agg2K ((dat1 (V12 m ρ) c).arrAt 4 cfg1.N)
        (attn1 (alpha2K ((dat1 (V12 m ρ) c).arrAt 5 cfg1.N) ((dat1 (V12 m ρ) c).arrAt 6 cfg1.N)
            (edgeSrc (m ((c.tc : Thread nD τ).loc main_arg1))) (edgeDst (m ((c.tc : Thread nD τ).loc main_arg1))))
          (edgeDst (m ((c.tc : Thread nD τ).loc main_arg1))))
        (edgeSrc (m ((c.tc : Thread nD τ).loc main_arg1))) (edgeDst (m ((c.tc : Thread nD τ).loc main_arg1))) := by
  show W16 m ρ c (Proc.devRef .tc main_v133) = _
  dsimp only [W16, W15, W14]
  after_results_simp
  rw [W13_v3, W13_v6, W13_v89_0, W13_v89_1, W13_v89_2]
  rfl

end Cert.KernelIdeal.KRun

end
-- ==== Proof.LibGcnLayers.lean ====
/-
  A four-layer graph convolution network on the extended reals, as functions of whole arrays.

  One layer sends node features `H : [n, f]` to `act (Â · (H · W) + b)`: a dense product with the weights, an
  aggregation of each node's neighbours along weighted edges (kept abstract here: both programs apply the very same
  gather / scale / scatter-add to the product, so nothing about it is ever opened), the bias added to every row, and an
  activation — `max(·, 0)` for the three hidden layers, the row-wise log-softmax for the last. This module states the
  three dense pieces index by index; they are what a row-tiled kernel and a whole-array host program both compute.

  * `mm A B` at `(i, j)` is `Σ_k A(i, k) · B(k, j)`.
  * `biasRelu a b` at `(i, j)` is `max (a(i, j) + b(j)) 0`, the zero being the float pattern of `+0.0`, which is never
    evaluated: both programs carry the same pattern.
  * `logSoftmax a b` at `(i, j)`, with `z = a + b` row-broadcast and `M(i) = max_k z(i, k)` (a fold of `max` from the
    pattern of `-∞`, again never evaluated), is `(z(i, j) - M(i)) - log Σ_k exp (z(i, k) - M(i))`.
-/
import Idealize.ShloMosaic.Lib.ValueIdx
import Idealize.ShloMosaic.PureOps.Ideal.Laws

noncomputable section

open scoped BigOperators

namespace Cert.Gcn

open Idealize.ShloMosaic Idealize.ShloMosaic.ValueIdx

variable {M K N : Nat}

/-- The dense product: row `i` of `A` against column `j` of `B`. -/
def mm (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem mm_apply (A : (⟨2, ![M, K]⟩ : Shape).Idx → EReal) (B : (⟨2, ![K, N]⟩ : Shape).Idx → EReal) (p : Fin M) (q : Fin N) :
    mm A B (ix2 p q) = ∑ k : Fin K, A (ix2 p k) * B (ix2 k q) := rfl

/-- The float pattern of `+0.0`, as both programs carry it. -/
abbrev zeroWord : EReal := Ideal.ofBits .f32 0x00000000#32
/-- The float pattern of `-∞`, as both programs carry it. -/
abbrev negInfWord : EReal := Ideal.ofBits .f32 0xFF800000#32

/-- The bias added to every row, then the positive part. -/
def biasRelu (a : (⟨2, ![M, N]⟩ : Shape).Idx → EReal) (b : (⟨1, ![N]⟩ : Shape).Idx → EReal) :
    (⟨2, ![M, N]⟩ : Shape).Idx → EReal :=
  fun i => max (a i + b (ix1 (i 1))) zeroWord

theorem biasRelu_apply (a : (⟨2, ![M, N]⟩ : Shape).Idx → EReal) (b : (⟨1, ![N]⟩ : Shape).Idx → EReal) (p : Fin M) (q : Fin N) :
    biasRelu a b (ix2 p q) = max (a (ix2 p q) + b (ix1 q)) zeroWord := rfl

/-- A row's maximum: the fold of `max` over the row, from the pattern of `-∞`. -/
def rowMax (z : (⟨2, ![M, N]⟩ : Shape).Idx → EReal) (r : Fin M) : EReal :=
  (Finset.univ : Finset (Fin N)).fold max negInfWord (fun k => z (ix2 r k))

/-- The logits of the last layer: the bias added to every row. -/
def logits (a : (⟨2, ![M, N]⟩ : Shape).Idx → EReal) (b : (⟨1, ![N]⟩ : Shape).Idx → EReal) :
    (⟨2, ![M, N]⟩ : Shape).Idx → EReal :=
  fun i => a i + b (ix1 (i 1))

/-- The row-wise log-softmax of the logits, shifted by the row's maximum as both programs shift it. -/
def logSoftmax (a : (⟨2, ![M, N]⟩ : Shape).Idx → EReal) (b : (⟨1, ![N]⟩ : Shape).Idx → EReal) :
    (⟨2, ![M, N]⟩ : Shape).Idx → EReal :=
  fun i => (logits a b i - rowMax (logits a b) (i 0))
    - Ideal.log (∑ k : Fin N, Ideal.exp (logits a b (ix2 (i 0) k) - rowMax (logits a b) (i 0)))

theorem logSoftmax_apply (a : (⟨2, ![M, N]⟩ : Shape).Idx → EReal) (b : (⟨1, ![N]⟩ : Shape).Idx → EReal) (p : Fin M) (q : Fin N) :
    logSoftmax a b (ix2 p q) = (logits a b (ix2 p q) - rowMax (logits a b) p)
      - Ideal.log (∑ k : Fin N, Ideal.exp (logits a b (ix2 p k) - rowMax (logits a b) p)) := rfl

end Cert.Gcn

end
-- ==== Proof.LogSoftmaxSpec.lean ====
/-
  The row-wise log-softmax of a matrix on the extended reals, as one function of the whole array.

  For `z : [M, N]` and `m(i) = max_k z(i, k)` (the fold of `max` over row `i` from the float pattern of `-∞`,
  `Cert.Gcn.rowMax`), the entry at `(i, j)` is `(z(i, j) - m(i)) - log Σ_k exp (z(i, k) - m(i))`. A row of the result
  depends on `z` only through that row: two matrices that agree on a row have the same row of results, whatever their
  heights.
-/
import proofs.«160089_j1881195675933_1_alg».proof.Proof.LibGcnLayers

noncomputable section

open scoped BigOperators

namespace Cert.Gat

open Idealize.ShloMosaic Idealize.ShloMosaic.ValueIdx

variable {M N : Nat}

/-- Subtract each row's maximum, then the logarithm of the row's sum of exponentials. -/
def logSoftmaxRows (z : (⟨2, ![M, N]⟩ : Shape).Idx → EReal) : (⟨2, ![M, N]⟩ : Shape).Idx → EReal :=
  fun i => (z i - Cert.Gcn.rowMax z (i 0))
    - Ideal.log (∑ k : Fin N, Ideal.exp (z (ix2 (i 0) k) - Cert.Gcn.rowMax z (i 0)))

theorem logSoftmaxRows_apply (z : (⟨2, ![M, N]⟩ : Shape).Idx → EReal) (p : Fin M) (q : Fin N) :
    logSoftmaxRows z (ix2 p q) = (z (ix2 p q) - Cert.Gcn.rowMax z p)
      - Ideal.log (∑ k : Fin N, Ideal.exp (z (ix2 p k) - Cert.Gcn.rowMax z p)) := rfl

/-- A row's maximum is a function of the row alone. -/
theorem rowMax_congr {M' : Nat} (x : (⟨2, ![M', N]⟩ : Shape).Idx → EReal) (z : (⟨2, ![M, N]⟩ : Shape).Idx → EReal)
    (p : Fin M') (r : Fin M) (h : ∀ k : Fin N, x (ix2 p k) = z (ix2 r k)) :
    Cert.Gcn.rowMax x p = Cert.Gcn.rowMax z r := by
  unfold Cert.Gcn.rowMax
  exact congrArg (Finset.fold max Cert.Gcn.negInfWord · Finset.univ) (funext h)

/-- The row-wise formula of a matrix `x` at `(p, q)` is the log-softmax of `z` at `(r, q)` when row `p` of `x` is row
    `r` of `z`. -/
theorem logSoftmaxRows_of_row {M' : Nat} (x : (⟨2, ![M', N]⟩ : Shape).Idx → EReal) (z : (⟨2, ![M, N]⟩ : Shape).Idx → EReal)
    (p : Fin M') (r : Fin M) (h : ∀ k : Fin N, x (ix2 p k) = z (ix2 r k)) (q : Fin N) :
    (x (ix2 p q) - Cert.Gcn.rowMax x p) - Ideal.log (∑ k : Fin N, Ideal.exp (x (ix2 p k) - Cert.Gcn.rowMax x p))
      = logSoftmaxRows z (ix2 r q) := by
  rw [logSoftmaxRows_apply, rowMax_congr x z p r h, h q]
  exact congrArg (fun s => (z (ix2 r q) - Cert.Gcn.rowMax z r) - Ideal.log s)
    (Finset.sum_congr rfl fun k _ => by rw [h k])

end Cert.Gat

end
-- ==== Proof.EluSpec.lean ====
/-
  The exponential linear unit as the kernel's body spells it, over the extended reals and for any shape: where an entry
  is greater than zero it is kept, elsewhere it becomes its exponential minus one. The comparison is the ordered
  "greater than" against the zero word, the one is the word of 1.0, and the choice is the bitwise select on the
  comparison's one-bit answer; read at an index every step acts on that entry alone.
-/
import Idealize.ShloMosaic.Lib.ValueIdx

noncomputable section

namespace Cert.Gat

open Idealize.ShloMosaic Idealize.ShloMosaic.ValueIdx

/-- ELU of a whole array: `x` where `x > 0`, `exp x - 1` elsewhere. -/
def eluK {s : Shape} (x : FVec Ideal s .f32) : FVec Ideal s .f32 :=
  select (cmpf .ogt x (broadcast s (Scalar.ofBits .f32 0x00000000#32))) x
    (subf (exp x) (broadcast s (Scalar.ofBits .f32 0x3F800000#32)))

/-- ELU of one entry. -/
def eluS (a : Ideal .f32) : Ideal .f32 :=
  Scalar.select (FloatOps.cmpf .ogt a (Scalar.ofBits .f32 0x00000000#32)) a
    (FloatOps.subf (FloatOps.exp a) (Scalar.ofBits .f32 0x3F800000#32))

/-- Read at an index, the array's ELU is the entry's. -/
theorem eluK_apply {s : Shape} (x : FVec Ideal s .f32) (i : s.Idx) : eluK x i = eluS (x i) := rfl

/-- Two arrays that agree at corresponding indices have ELUs that agree there. -/
theorem eluK_congr {s s' : Shape} (x : FVec Ideal s .f32) (x' : FVec Ideal s' .f32) (i : s.Idx) (i' : s'.Idx)
    (h : x i = x' i') : eluK x i = eluK x' i' := by
  rw [eluK_apply, eluK_apply, h]

end Cert.Gat

end
-- ==== Proof.KOutSpec.lean ====
/-
  The kernel program's result as one function of its six arguments: the dense products its three kernels compute
  (as whole-array sums), threaded through the host's edge stages.
-/
import proofs.«160089_j1881195675933_1_alg».proof.Proof.KStages
import proofs.«160089_j1881195675933_1_alg».proof.Proof.LibGcnLayers
import proofs.«160089_j1881195675933_1_alg».proof.Proof.LogSoftmaxSpec
import proofs.«160089_j1881195675933_1_alg».proof.Proof.EluSpec

noncomputable section

namespace Cert.Gat.Bridge

open Idealize.ShloMosaic Idealize.ShloMosaic.ValueIdx

/-! ## The kernel program's value, layer by layer -/

/-- Layer 1 as the kernel's program computes it: the three products of its first kernel, then the host's edge stage. -/
def layer1K (a0 : FVec Ideal ⟨2, ![100000, 128]⟩ .f32) (a1 : IVec ⟨2, ![2, 1600000]⟩ 32)
    (a2 : FVec Ideal ⟨2, ![128, 64]⟩ .f32) (a3 : FVec Ideal ⟨3, ![1, 8, 16]⟩ .f32) : FVec Ideal ⟨2, ![100000, 64]⟩ .f32 :=
  Cert.KernelIdeal.KRun.agg1K (F := Ideal) (Cert.Gcn.mm (M := 100000) (K := 128) (N := 64) a0 a2)
    (Cert.KernelIdeal.KRun.attn8 (F := Ideal)
      (Cert.KernelIdeal.KRun.alpha1K (F := Ideal)
        (Cert.Gcn.mm (M := 100000) (K := 64) (N := 8) (Cert.Gcn.mm (M := 100000) (K := 128) (N := 64) a0 a2)
          (Cert.KernelIdeal.KRun.Mi1 (F := Ideal) a3))
        (Cert.Gcn.mm (M := 100000) (K := 64) (N := 8) (Cert.Gcn.mm (M := 100000) (K := 128) (N := 64) a0 a2)
          (Cert.KernelIdeal.KRun.Mj1 (F := Ideal) a3))
        (Cert.KernelIdeal.KRun.edgeSrc (F := Ideal) a1) (Cert.KernelIdeal.KRun.edgeDst (F := Ideal) a1))
      (Cert.KernelIdeal.KRun.edgeDst (F := Ideal) a1))
    (Cert.KernelIdeal.KRun.edgeSrc (F := Ideal) a1) (Cert.KernelIdeal.KRun.edgeDst (F := Ideal) a1)

/-- Layer 2 as the kernel's program computes it, on the previous layer's output `o` (the activation is inside the
    second kernel). -/
def layer2K (o : FVec Ideal ⟨2, ![100000, 64]⟩ .f32) (a1 : IVec ⟨2, ![2, 1600000]⟩ 32)
    (a4 : FVec Ideal ⟨2, ![64, 40]⟩ .f32) (a5 : FVec Ideal ⟨3, ![1, 1, 80]⟩ .f32) : FVec Ideal ⟨2, ![100000, 40]⟩ .f32 :=
  Cert.KernelIdeal.KRun.agg2K (F := Ideal) (Cert.Gcn.mm (M := 100000) (K := 64) (N := 40) (Cert.Gat.eluK o) a4)
    (Cert.KernelIdeal.KRun.attn1 (F := Ideal)
      (Cert.KernelIdeal.KRun.alpha2K (F := Ideal)
        (Cert.Gcn.mm (M := 100000) (K := 40) (N := 1) (Cert.Gcn.mm (M := 100000) (K := 64) (N := 40) (Cert.Gat.eluK o) a4)
          (Cert.KernelIdeal.KRun.atti2 (F := Ideal) a5))
        (Cert.Gcn.mm (M := 100000) (K := 40) (N := 1) (Cert.Gcn.mm (M := 100000) (K := 64) (N := 40) (Cert.Gat.eluK o) a4)
          (Cert.KernelIdeal.KRun.attj2 (F := Ideal) a5))
        (Cert.KernelIdeal.KRun.edgeSrc (F := Ideal) a1) (Cert.KernelIdeal.KRun.edgeDst (F := Ideal) a1))
      (Cert.KernelIdeal.KRun.edgeDst (F := Ideal) a1))
    (Cert.KernelIdeal.KRun.edgeSrc (F := Ideal) a1) (Cert.KernelIdeal.KRun.edgeDst (F := Ideal) a1)

/-- The kernel program's result as a function of its six arguments. -/
def outK (a0 : FVec Ideal ⟨2, ![100000, 128]⟩ .f32) (a1 : IVec ⟨2, ![2, 1600000]⟩ 32)
    (a2 : FVec Ideal ⟨2, ![128, 64]⟩ .f32) (a3 : FVec Ideal ⟨3, ![1, 8, 16]⟩ .f32)
    (a4 : FVec Ideal ⟨2, ![64, 40]⟩ .f32) (a5 : FVec Ideal ⟨3, ![1, 1, 80]⟩ .f32) : FVec Ideal ⟨2, ![100000, 40]⟩ .f32 :=
  Cert.Gat.logSoftmaxRows (layer2K (layer1K a0 a1 a2 a3) a1 a4 a5)

end Cert.Gat.Bridge

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Reg0Value.lean ====
/-
  REGION 0, the first projection: each of its three output arrays, after the region, as ONE function of the arrays the
  region finds on entry. The grid has ten points; point t handles rows 10000·t … 10000·t + 9999 of the node features
  and writes the same rows of each output, while the three weight matrices are read whole at every point. In a block
  the body forms h = x · W (a 10000×128 by a 128×64 product into a zero accumulator: a plain sum over the 128 shared
  positions; the narrowing to half precision before each product is the identity on the extended reals) and then
  h · M for each of the two 64×8 head matrices. An entry of a product depends on the left operand only through its
  row, so block t of the whole-array product is the product of block t: each point writes back exactly its block of
  the whole-array function, the ten blocks tile the 100000 rows (row r is in the block of the point at r / 10000),
  and so each array ends holding that function everywhere.
-/
import proofs.«160089_j1881195675933_1_alg».proof.Proof.Gen.KernelIdeal.Frame
import Idealize.ShloMosaic.Lib.Pipeline.Value
import proofs.«160089_j1881195675933_1_alg».proof.Proof.LibMatmulNN
import proofs.«160089_j1881195675933_1_alg».proof.Proof.LibGcnLayers

noncomputable section

open scoped BigOperators

namespace Cert.KernelIdeal.RegValue

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn (mm mm_apply)

/-- The projection at an index of a block: row p of the left block against column q of the right one. -/
theorem pay0_1_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.LibMatmulNN.matmul_nn_apply dot_S10000x128_S128x64_S10000x64_1_0_0_1_n_n rfl rfl rfl rfl rfl rfl none _ _ p q

/-- A block of rows of the product is the product of that block of rows. -/
theorem pay0_1_block (x0 : Vec Ideal S10000x128 .f32) (x1 : Vec Ideal S128x64 .f32)
    (A : S100000x128.Idx → EReal) (B : S128x64.Idx → EReal) (p : Fin 10000) (q : Fin 64) (r : Fin 100000)
    (hx0 : ∀ k : Fin 128, x0 (ix2 p k) = A (ix2 r k)) (hx1 : ∀ k : Fin 128, x1 (ix2 k q) = B (ix2 k q)) :
    k0_pay1 x0 x1 (ix2 p q) = mm (M := 100000) (K := 128) (N := 64) A B (ix2 r q) := by
  refine (pay0_1_apply x0 x1 p q).trans ?_
  rw [mm_apply]
  exact Finset.sum_congr rfl fun k _ => by rw [hx0 k, hx1 k]

/-- Window 5's block at an index: row p of the projected block against column q of the head matrix. -/
theorem pay0_3_apply (x0 : Vec Ideal S10000x128 .f32) (x1 : Vec Ideal S128x64 .f32) (x2 : Vec Ideal S64x8 .f32)
    (p : Fin 10000) (q : Fin 8) :
    k0_pay3 x0 x1 x2 (ix2 p q) = ∑ d : Fin 64, k0_pay1 x0 x1 (ix2 p d) * x2 (ix2 d q) := by
  unfold k0_pay3
  refine (Cert.LibMatmulNN.matmul_nn_apply dot_S10000x64_S64x8_S10000x8_1_0_0_1_n_n rfl rfl rfl rfl rfl rfl none _ _ p q).trans ?_
  refine Finset.sum_congr rfl fun d _ => ?_
  show k0_pay1 x0 x1 (ix2 p d) * (shapeCast S64x8 x2 shapeCasts_S64x8_S64x8) (ix2 d q) = _
  rw [shapeCast_self]

/-- A block of rows of the twofold product is the twofold product of that block of rows. -/
theorem pay0_3_block (x0 : Vec Ideal S10000x128 .f32) (x1 : Vec Ideal S128x64 .f32) (x2 : Vec Ideal S64x8 .f32)
    (A : S100000x128.Idx → EReal) (B : S128x64.Idx → EReal) (C : S64x8.Idx → EReal)
    (p : Fin 10000) (q : Fin 8) (r : Fin 100000)
    (hx0 : ∀ k : Fin 128, x0 (ix2 p k) = A (ix2 r k))
    (hx1 : ∀ (k : Fin 128) (d : Fin 64), x1 (ix2 k d) = B (ix2 k d))
    (hx2 : ∀ d : Fin 64, x2 (ix2 d q) = C (ix2 d q)) :
    k0_pay3 x0 x1 x2 (ix2 p q)
      = mm (M := 100000) (K := 64) (N := 8) (mm (M := 100000) (K := 128) (N := 64) A B) C (ix2 r q) := by
  refine (pay0_3_apply x0 x1 x2 p q).trans ?_
  rw [mm_apply]
  exact Finset.sum_congr rfl fun d _ => by
    rw [pay0_1_block x0 x1 A B p d r hx0 (fun k => hx1 k d), hx2 d]

/-- Window 6's block at an index: row p of the projected block against column q of the head matrix. -/
theorem pay0_4_apply (x0 : Vec Ideal S10000x128 .f32) (x1 : Vec Ideal S128x64 .f32) (x2 : Vec Ideal S64x8 .f32)
    (p : Fin 10000) (q : Fin 8) :
    k0_pay4 x0 x1 x2 (ix2 p q) = ∑ d : Fin 64, k0_pay1 x0 x1 (ix2 p d) * x2 (ix2 d q) := by
  unfold k0_pay4
  refine (Cert.LibMatmulNN.matmul_nn_apply dot_S10000x64_S64x8_S10000x8_1_0_0_1_n_n rfl rfl rfl rfl rfl rfl none _ _ p q).trans ?_
  refine Finset.sum_congr rfl fun d _ => ?_
  show k0_pay1 x0 x1 (ix2 p d) * (shapeCast S64x8 x2 shapeCasts_S64x8_S64x8) (ix2 d q) = _
  rw [shapeCast_self]

/-- A block of rows of the twofold product is the twofold product of that block of rows. -/
theorem pay0_4_block (x0 : Vec Ideal S10000x128 .f32) (x1 : Vec Ideal S128x64 .f32) (x2 : Vec Ideal S64x8 .f32)
    (A : S100000x128.Idx → EReal) (B : S128x64.Idx → EReal) (C : S64x8.Idx → EReal)
    (p : Fin 10000) (q : Fin 8) (r : Fin 100000)
    (hx0 : ∀ k : Fin 128, x0 (ix2 p k) = A (ix2 r k))
    (hx1 : ∀ (k : Fin 128) (d : Fin 64), x1 (ix2 k d) = B (ix2 k d))
    (hx2 : ∀ d : Fin 64, x2 (ix2 d q) = C (ix2 d q)) :
    k0_pay4 x0 x1 x2 (ix2 p q)
      = mm (M := 100000) (K := 64) (N := 8) (mm (M := 100000) (K := 128) (N := 64) A B) C (ix2 r q) := by
  refine (pay0_4_apply x0 x1 x2 p q).trans ?_
  rw [mm_apply]
  exact Finset.sum_congr rfl fun d _ => by
    rw [pay0_1_block x0 x1 A B p d r hx0 (fun k => hx1 k d), hx2 d]

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the row-blocked windows (0, 4, 5, 6) all sit at the same row block,
    which is at most 9, and at column block 0; the weight windows (1, 2, 3) sit at block (0, 0). -/
theorem idx_facts0 : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9
    ∧ win0_5.index t (0 : Fin 2) = win0_4.index t (0 : Fin 2) ∧ win0_5.index t (1 : Fin 2) = 0
    ∧ win0_6.index t (0 : Fin 2) = win0_4.index t (0 : Fin 2) ∧ win0_6.index t (1 : Fin 2) = 0 :=
  (by decide +kernel : ∀ t : Fin grid0.N, _)

/-- What point t writes back to window 4's array is block t of the product of the two argument arrays. -/
theorem flushed0_4_eq (c : Dev nD) (t : Fin cfg0.N) :
    (dat0 V c).flushed 4 t = ((cfg0.win 4).blk t).view.read (Elt Ideal)
      (mm (M := 100000) (K := 128) (N := 64) (V c main_arg0) (V c main_arg2)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x64) hz]
  obtain ⟨e00, e01, e10, e11, e20, e21, e30, e31, e41, e4le, e50, e51, e60, e61⟩ := idx_facts0 t
  funext j
  have hj0 : (j 0).val < 10000 := (j 0).isLt
  have hj1 : (j 1).val < 64 := (j 1).isLt
  let p : Fin 10000 := ⟨(j 0).val, hj0⟩
  let q : Fin 64 := ⟨(j 1).val, hj1⟩
  let r : Fin 100000 := ⟨win0_4.index t (0 : Fin 2) * 10000 + (j 0).val, by omega⟩
  show k0_pay1 (iblk0 V c 0 t) (iblk0 V c 1 t) j
    = mm (M := 100000) (K := 128) (N := 64) (V c main_arg0) (V c main_arg2) (((cfg0.win 4).blk t).view.emb j)
  have ej : j = ix2 p q := by
    funext a
    match a with
    | ⟨0, _⟩ => rfl
    | ⟨1, _⟩ => rfl
  have ei : ((cfg0.win 4).blk t).view.emb j = ix2 r q := by
    funext a; apply Fin.ext
    match a with
    | ⟨0, _⟩ => show win0_4.index t (0 : Fin 2) * 10000 + 1 * (j 0).val = win0_4.index t (0 : Fin 2) * 10000 + (j 0).val; omega
    | ⟨1, _⟩ => show win0_4.index t (1 : Fin 2) * 64 + 1 * (j 1).val = (j 1).val; omega
  have h0 : ∀ k : Fin 128, (iblk0 V c 0 t : Vec Ideal S10000x128 .f32) (ix2 p k) = V c main_arg0 (ix2 r k) := by
    intro k
    show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 10000 + 1 * (j 0).val = win0_4.index t (0 : Fin 2) * 10000 + (j 0).val; omega
    | ⟨1, _⟩ => show win0_0.index t (1 : Fin 2) * 128 + 1 * k.val = k.val; omega
  have h1 : ∀ k : Fin 128, (iblk0 V c 1 t : Vec Ideal S128x64 .f32) (ix2 k q) = V c main_arg2 (ix2 k q) := by
    intro k
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * (j 1).val = (j 1).val; omega
  exact (congrArg (k0_pay1 (iblk0 V c 0 t) (iblk0 V c 1 t)) ej).trans
    ((pay0_1_block (iblk0 V c 0 t) (iblk0 V c 1 t) (V c main_arg0) (V c main_arg2) p q r h0 h1).trans
      (congrArg (mm (M := 100000) (K := 128) (N := 64) (V c main_arg0) (V c main_arg2)) ei.symm))

/-- Every row block 0 … 9 is some point's. -/
theorem idx_onto0 : ∀ q0 : Fin 10, ∃ t : Fin cfg0.N, win0_4.index t = ![q0.val, 0] :=
  (by decide +kernel : ∀ q0 : Fin 10, ∃ t : Fin grid0.N, win0_4.index t = ![q0.val, 0])

/-- An index of window 4's array is in point t's block iff each coordinate is in the block's range on its axis. -/
theorem mem_blk0_4 (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v37_0).slice (win0_4.rect t)).set ↔ _
  rw [View.set_slice_whole, Rect.mem_set_unit]
  exact Iff.rfl

/-- Row r of window 4's array lies in the block of the point whose row block is r / 10000: the ten blocks of 10000
    rows tile the 100000 rows. -/
theorem rows_cover0_4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto0 ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_blk0_4]
  intro a
  match a with
  | ⟨0, _⟩ =>
    show win0_4.index t (0 : Fin 2) * 10000 ≤ (i 0).val ∧ (i 0).val < win0_4.index t (0 : Fin 2) * 10000 + 10000
    omega
  | ⟨1, _⟩ =>
    show win0_4.index t (1 : Fin 2) * 64 ≤ (i 1).val ∧ (i 1).val < win0_4.index t (1 : Fin 2) * 64 + 64
    omega

/-- After region 0, window 4's array is the product of the node features by the first layer's weights. -/
theorem arr0_4 (c : Dev nD) :
    (dat0 V c).arrAt 4 cfg0.N = mm (M := 100000) (K := 128) (N := 64) (V c main_arg0) (V c main_arg2) :=
  (dat0 V c).arrAt_eq_of_cover 4 _ (fun t _ => flushed0_4_eq V c t) rows_cover0_4

/-- What point t writes back to window 5's array is block t of the projected features times the first head matrix. -/
theorem flushed0_5_eq (c : Dev nD) (t : Fin cfg0.N) :
    (dat0 V c).flushed 5 t = ((cfg0.win 5).blk t).view.read (Elt Ideal)
      (mm (M := 100000) (K := 64) (N := 8)
        (mm (M := 100000) (K := 128) (N := 64) (V c main_arg0) (V c main_arg2)) (V c main_v23)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x64) hz, View.ld_unit_zero (S := S64x8) hz]
  obtain ⟨e00, e01, e10, e11, e20, e21, e30, e31, e41, e4le, e50, e51, e60, e61⟩ := idx_facts0 t
  funext j
  have hj0 : (j 0).val < 10000 := (j 0).isLt
  have hj1 : (j 1).val < 8 := (j 1).isLt
  let p : Fin 10000 := ⟨(j 0).val, hj0⟩
  let q : Fin 8 := ⟨(j 1).val, hj1⟩
  let r : Fin 100000 := ⟨win0_4.index t (0 : Fin 2) * 10000 + (j 0).val, by omega⟩
  show k0_pay3 (iblk0 V c 0 t) (iblk0 V c 1 t) (iblk0 V c 2 t) j
    = mm (M := 100000) (K := 64) (N := 8)
        (mm (M := 100000) (K := 128) (N := 64) (V c main_arg0) (V c main_arg2)) (V c main_v23)
        (((cfg0.win 5).blk t).view.emb j)
  have ej : j = ix2 p q := by
    funext a
    match a with
    | ⟨0, _⟩ => rfl
    | ⟨1, _⟩ => rfl
  have ei : ((cfg0.win 5).blk t).view.emb j = ix2 r q := by
    funext a; apply Fin.ext
    match a with
    | ⟨0, _⟩ => show win0_5.index t (0 : Fin 2) * 10000 + 1 * (j 0).val = win0_4.index t (0 : Fin 2) * 10000 + (j 0).val; omega
    | ⟨1, _⟩ => show win0_5.index t (1 : Fin 2) * 8 + 1 * (j 1).val = (j 1).val; omega
  have h0 : ∀ k : Fin 128, (iblk0 V c 0 t : Vec Ideal S10000x128 .f32) (ix2 p k) = V c main_arg0 (ix2 r k) := by
    intro k
    show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 10000 + 1 * (j 0).val = win0_4.index t (0 : Fin 2) * 10000 + (j 0).val; omega
    | ⟨1, _⟩ => show win0_0.index t (1 : Fin 2) * 128 + 1 * k.val = k.val; omega
  have h1 : ∀ (k : Fin 128) (d : Fin 64), (iblk0 V c 1 t : Vec Ideal S128x64 .f32) (ix2 k d) = V c main_arg2 (ix2 k d) := by
    intro k d
    show V c main_arg2 (((cfg0.win 1).blk t).view.emb (ix2 k d)) = V c main_arg2 (ix2 k d)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * d.val = d.val; omega
  have h2 : ∀ d : Fin 64, (iblk0 V c 2 t : Vec Ideal S64x8 .f32) (ix2 d q) = V c main_v23 (ix2 d q) := by
    intro d
    show V c main_v23 (((cfg0.win 2).blk t).view.emb (ix2 d q)) = V c main_v23 (ix2 d q)
    refine congrArg (V c main_v23) ?_
    funext a; apply Fin.ext
    match a with
    | ⟨0, _⟩ => show win0_2.index t (0 : Fin 2) * 64 + 1 * d.val = d.val; omega
    | ⟨1, _⟩ => show win0_2.index t (1 : Fin 2) * 8 + 1 * (j 1).val = (j 1).val; omega
  exact (congrArg (k0_pay3 (iblk0 V c 0 t) (iblk0 V c 1 t) (iblk0 V c 2 t)) ej).trans
    ((pay0_3_block (iblk0 V c 0 t) (iblk0 V c 1 t) (iblk0 V c 2 t) (V c main_arg0) (V c main_arg2) (V c main_v23)
        p q r h0 h1 h2).trans
      (congrArg (mm (M := 100000) (K := 64) (N := 8)
        (mm (M := 100000) (K := 128) (N := 64) (V c main_arg0) (V c main_arg2)) (V c main_v23)) ei.symm))

/-- An index of window 5's array is in point t's block iff each coordinate is in the block's range on its axis. -/
theorem mem_blk0_5 (t : Fin cfg0.N) (i : S100000x8.Idx) :
    i ∈ ((cfg0.win 5).blk t).view.set ↔ ∀ a : Fin 2, win0_5.index t a * S10000x8.size a ≤ (i a).val
      ∧ (i a).val < win0_5.index t a * S10000x8.size a + S10000x8.size a := by
  show i ∈ ((View.whole main_v37_1).slice (win0_5.rect t)).set ↔ _
  rw [View.set_slice_whole, Rect.mem_set_unit]
  exact Iff.rfl

/-- Row r of window 5's array lies in the block of the point whose row block is r / 10000. -/
theorem rows_cover0_5 (i : S100000x8.Idx) :
    ∃ t : Fin cfg0.N, (cfg0.win 5).flush t = true ∧ i ∈ ((cfg0.win 5).blk t).view.set := by
  have hi0 : (i 0).val < 100000 := (i 0).isLt
  have hi1 : (i 1).val < 8 := (i 1).isLt
  obtain ⟨t, ht⟩ := idx_onto0 ⟨(i 0).val / 10000, by omega⟩
  have q0 : win0_4.index t (0 : Fin 2) = (i 0).val / 10000 := congrFun ht 0
  obtain ⟨e00, e01, e10, e11, e20, e21, e30, e31, e41, e4le, e50, e51, e60, e61⟩ := idx_facts0 t
  refine ⟨t, flush0_5 t, ?_⟩
  rw [mem_blk0_5]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 8 ≤ (i 1).val ∧ (i 1).val < win0_5.index t (1 : Fin 2) * 8 + 8
    omega

/-- After region 0, window 5's array is the projected features times the first head matrix. -/
theorem arr0_5 (c : Dev nD) :
    (dat0 V c).arrAt 5 cfg0.N = mm (M := 100000) (K := 64) (N := 8)
      (mm (M := 100000) (K := 128) (N := 64) (V c main_arg0) (V c main_arg2)) (V c main_v23) :=
  (dat0 V c).arrAt_eq_of_cover 5 _ (fun t _ => flushed0_5_eq V c t) rows_cover0_5

/-- What point t writes back to window 6's array is block t of the projected features times the second head matrix. -/
theorem flushed0_6_eq (c : Dev nD) (t : Fin cfg0.N) :
    (dat0 V c).flushed 6 t = ((cfg0.win 6).blk t).view.read (Elt Ideal)
      (mm (M := 100000) (K := 64) (N := 8)
        (mm (M := 100000) (K := 128) (N := 64) (V c main_arg0) (V c main_arg2)) (V c main_v36)) := by
  show (cfg0.win 6).cut (grid0.coords t) ((dat0 V c).after 6 t) = _
  rw [after0_6]
  unfold out0_6
  rw [View.canon_unit_zero hz]
  simp only [View.ld_unit_zero (S := S10000x128) hz, View.ld_unit_zero (S := S128x64) hz, View.ld_unit_zero (S := S64x8) hz]
  obtain ⟨e00, e01, e10, e11, e20, e21, e30, e31, e41, e4le, e50, e51, e60, e61⟩ := idx_facts0 t
  funext j
  have hj0 : (j 0).val < 10000 := (j 0).isLt
  have hj1 : (j 1).val < 8 := (j 1).isLt
  let p : Fin 10000 := ⟨(j 0).val, hj0⟩
  let q : Fin 8 := ⟨(j 1).val, hj1⟩
  let r : Fin 100000 := ⟨win0_4.index t (0 : Fin 2) * 10000 + (j 0).val, by omega⟩
  show k0_pay4 (iblk0 V c 0 t) (iblk0 V c 1 t) (iblk0 V c 3 t) j
    = mm (M := 100000) (K := 64) (N := 8)
        (mm (M := 100000) (K := 128) (N := 64) (V c main_arg0) (V c main_arg2)) (V c main_v36)
        (((cfg0.win 6).blk t).view.emb j)
  have ej : j = ix2 p q := by
    funext a
    match a with
    | ⟨0, _⟩ => rfl
    | ⟨1, _⟩ => rfl
  have ei : ((cfg0.win 6).blk t).view.emb j = ix2 r q := by
    funext a; apply Fin.ext
    match a with
    | ⟨0, _⟩ => show win0_6.index t (0 : Fin 2) * 10000 + 1 * (j 0).val = win0_4.index t (0 : Fin 2) * 10000 + (j 0).val; omega
    | ⟨1, _⟩ => show win0_6.index t (1 : Fin 2) * 8 + 1 * (j 1).val = (j 1).val; omega
  have h0 : ∀ k : Fin 128, (iblk0 V c 0 t : Vec Ideal S10000x128 .f32) (ix2 p k) = V c main_arg0 (ix2 r k) := by
    intro k
    show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 10000 + 1 * (j 0).val = win0_4.index t (0 : Fin 2) * 10000 + (j 0).val; omega
    | ⟨1, _⟩ => show win0_0.index t (1 : Fin 2) * 128 + 1 * k.val = k.val; omega
  have h1 : ∀ (k : Fin 128) (d : Fin 64), (iblk0 V c 1 t : Vec Ideal S128x64 .f32) (ix2 k d) = V c main_arg2 (ix2 k d) := by
    intro k d
    show V c main_arg2 (((cfg0.win 1).blk t).view.emb (ix2 k d)) = V c main_arg2 (ix2 k d)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * d.val = d.val; omega
  have h2 : ∀ d : Fin 64, (iblk0 V c 3 t : Vec Ideal S64x8 .f32) (ix2 d q) = V c main_v36 (ix2 d q) := by
    intro d
    show V c main_v36 (((cfg0.win 3).blk t).view.emb (ix2 d q)) = V c main_v36 (ix2 d q)
    refine congrArg (V c main_v36) ?_
    funext a; apply Fin.ext
    match a with
    | ⟨0, _⟩ => show win0_3.index t (0 : Fin 2) * 64 + 1 * d.val = d.val; omega
    | ⟨1, _⟩ => show win0_3.index t (1 : Fin 2) * 8 + 1 * (j 1).val = (j 1).val; omega
  exact (congrArg (k0_pay4 (iblk0 V c 0 t) (iblk0 V c 1 t) (iblk0 V c 3 t)) ej).trans
    ((pay0_4_block (iblk0 V c 0 t) (iblk0 V c 1 t) (iblk0 V c 3 t) (V c main_arg0) (V c main_arg2) (V c main_v36)
        p q r h0 h1 h2).trans
      (congrArg (mm (M := 100000) (K := 64) (N := 8)
        (mm (M := 100000) (K := 128) (N := 64) (V c main_arg0) (V c main_arg2)) (V c main_v36)) ei.symm))

/-- An index of window 6's array is in point t's block iff each coordinate is in the block's range on its axis. -/
theorem mem_blk0_6 (t : Fin cfg0.N) (i : S100000x8.Idx) :
    i ∈ ((cfg0.win 6).blk t).view.set ↔ ∀ a : Fin 2, win0_6.index t a * S10000x8.size a ≤ (i a).val
      ∧ (i a).val < win0_6.index t a * S10000x8.size a + S10000x8.size a := by
  show i ∈ ((View.whole main_v37_2).slice (win0_6.rect t)).set ↔ _
  rw [View.set_slice_whole, Rect.mem_set_unit]
  exact Iff.rfl

/-- Row r of window 6's array lies in the block of the point whose row block is r / 10000. -/
theorem rows_cover0_6 (i : S100000x8.Idx) :
    ∃ t : Fin cfg0.N, (cfg0.win 6).flush t = true ∧ i ∈ ((cfg0.win 6).blk t).view.set := by
  have hi0 : (i 0).val < 100000 := (i 0).isLt
  have hi1 : (i 1).val < 8 := (i 1).isLt
  obtain ⟨t, ht⟩ := idx_onto0 ⟨(i 0).val / 10000, by omega⟩
  have q0 : win0_4.index t (0 : Fin 2) = (i 0).val / 10000 := congrFun ht 0
  obtain ⟨e00, e01, e10, e11, e20, e21, e30, e31, e41, e4le, e50, e51, e60, e61⟩ := idx_facts0 t
  refine ⟨t, flush0_6 t, ?_⟩
  rw [mem_blk0_6]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 8 ≤ (i 1).val ∧ (i 1).val < win0_6.index t (1 : Fin 2) * 8 + 8
    omega

/-- After region 0, window 6's array is the projected features times the second head matrix. -/
theorem arr0_6 (c : Dev nD) :
    (dat0 V c).arrAt 6 cfg0.N = mm (M := 100000) (K := 64) (N := 8)
      (mm (M := 100000) (K := 128) (N := 64) (V c main_arg0) (V c main_arg2)) (V c main_v36) :=
  (dat0 V c).arrAt_eq_of_cover 6 _ (fun t _ => flushed0_6_eq V c t) rows_cover0_6

end Cert.KernelIdeal.RegValue

end
-- ==== Proof.Reg1Value.lean ====
/-
  REGION 1, the second projection: each of its three output arrays, after the region, as ONE function of the arrays the
  region finds on entry. The grid has ten points; point t handles rows 10000·t … 10000·t + 9999 of the aggregated
  first-layer features and writes the same rows of each output, while the weight matrix and the two attention vectors
  are read whole at every point. In a block the body applies the exponential linear unit entry by entry (x where
  x > 0, exp x - 1 elsewhere), forms g = elu(x) · W (a 10000×64 by a 64×40 product into a zero accumulator: a plain
  sum over the 64 shared positions; the narrowing to half precision before each product is the identity on the extended
  reals) and then g · a for each of the two 40×1 attention vectors. The unit acts on each entry alone and an entry of
  a product depends on the left operand only through its row, so block t of the whole-array function is that function
  of block t: each point writes back exactly its block, the ten blocks tile the 100000 rows (row r is in the block of
  the point at r / 10000), and so each array ends holding the whole-array function everywhere.
-/
import proofs.«160089_j1881195675933_1_alg».proof.Proof.Gen.KernelIdeal.Frame
import Idealize.ShloMosaic.Lib.Pipeline.Value
import proofs.«160089_j1881195675933_1_alg».proof.Proof.LibMatmulNN
import proofs.«160089_j1881195675933_1_alg».proof.Proof.LibGcnLayers
import proofs.«160089_j1881195675933_1_alg».proof.Proof.EluSpec

noncomputable section

open scoped BigOperators

namespace Cert.KernelIdeal.RegValue

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn (mm mm_apply)
open Cert.Gat (eluK eluK_congr)

/-- The second projection at an index of a block: row p of the block's ELU against column q of the weights. -/
theorem pay1_1_apply (x0 : Vec Ideal S10000x64 .f32) (x1 : Vec Ideal S64x40 .f32) (p : Fin 10000) (q : Fin 40) :
    k1_pay1 x0 x1 (ix2 p q) = ∑ d : Fin 64, eluK x0 (ix2 p d) * x1 (ix2 d q) := by
  unfold k1_pay1
  refine (Cert.LibMatmulNN.matmul_nn_apply dot_S10000x64_S64x40_S10000x40_1_0_0_1_n_n rfl rfl rfl rfl rfl rfl none _ _ p q).trans ?_
  refine Finset.sum_congr rfl fun d _ => ?_
  show eluK (shapeCast S10000x64 x0 shapeCasts_S10000x64_S10000x64) (ix2 p d) * x1 (ix2 d q) = _
  rw [shapeCast_self]

/-- A block of rows of (ELU of the array) · weights is (ELU of that block of rows) · weights: ELU acts entry by entry. -/
theorem pay1_1_block (x0 : Vec Ideal S10000x64 .f32) (x1 : Vec Ideal S64x40 .f32)
    (A : FVec Ideal S100000x64 .f32) (B : S64x40.Idx → EReal) (p : Fin 10000) (q : Fin 40) (r : Fin 100000)
    (hx0 : ∀ d : Fin 64, x0 (ix2 p d) = A (ix2 r d)) (hx1 : ∀ d : Fin 64, x1 (ix2 d q) = B (ix2 d q)) :
    k1_pay1 x0 x1 (ix2 p q) = mm (M := 100000) (K := 64) (N := 40) (eluK A) B (ix2 r q) := by
  refine (pay1_1_apply x0 x1 p q).trans ?_
  rw [mm_apply]
  exact Finset.sum_congr rfl fun d _ => by
    rw [eluK_congr x0 A (ix2 p d) (ix2 r d) (hx0 d), hx1 d]

/-- Window 5's block at an index: row p of the projected block against the one column of the attention vector. -/
theorem pay1_3_apply (x0 : Vec Ideal S10000x64 .f32) (x1 : Vec Ideal S64x40 .f32) (x2 : Vec Ideal S40x1 .f32)
    (p : Fin 10000) (q : Fin 1) :
    k1_pay3 x0 x1 x2 (ix2 p q) = ∑ e : Fin 40, k1_pay1 x0 x1 (ix2 p e) * x2 (ix2 e q) := by
  unfold k1_pay3
  refine (Cert.LibMatmulNN.matmul_nn_apply dot_S10000x40_S40x1_S10000x1_1_0_0_1_n_n rfl rfl rfl rfl rfl rfl none _ _ p q).trans ?_
  refine Finset.sum_congr rfl fun e _ => ?_
  show k1_pay1 x0 x1 (ix2 p e) * (shapeCast S40x1 x2 shapeCasts_S40x1_S40x1) (ix2 e q) = _
  rw [shapeCast_self]

/-- A block of rows of the twofold product is the twofold product of that block of rows. -/
theorem pay1_3_block (x0 : Vec Ideal S10000x64 .f32) (x1 : Vec Ideal S64x40 .f32) (x2 : Vec Ideal S40x1 .f32)
    (A : FVec Ideal S100000x64 .f32) (B : S64x40.Idx → EReal) (C : S40x1.Idx → EReal)
    (p : Fin 10000) (q : Fin 1) (r : Fin 100000)
    (hx0 : ∀ d : Fin 64, x0 (ix2 p d) = A (ix2 r d))
    (hx1 : ∀ (d : Fin 64) (e : Fin 40), x1 (ix2 d e) = B (ix2 d e))
    (hx2 : ∀ e : Fin 40, x2 (ix2 e q) = C (ix2 e q)) :
    k1_pay3 x0 x1 x2 (ix2 p q)
      = mm (M := 100000) (K := 40) (N := 1) (mm (M := 100000) (K := 64) (N := 40) (eluK A) B) C (ix2 r q) := by
  refine (pay1_3_apply x0 x1 x2 p q).trans ?_
  rw [mm_apply]
  exact Finset.sum_congr rfl fun e _ => by
    rw [pay1_1_block x0 x1 A B p e r hx0 (fun d => hx1 d e), hx2 e]

/-- Window 6's block at an index: row p of the projected block against the one column of the attention vector. -/
theorem pay1_4_apply (x0 : Vec Ideal S10000x64 .f32) (x1 : Vec Ideal S64x40 .f32) (x2 : Vec Ideal S40x1 .f32)
    (p : Fin 10000) (q : Fin 1) :
    k1_pay4 x0 x1 x2 (ix2 p q) = ∑ e : Fin 40, k1_pay1 x0 x1 (ix2 p e) * x2 (ix2 e q) := by
  unfold k1_pay4
  refine (Cert.LibMatmulNN.matmul_nn_apply dot_S10000x40_S40x1_S10000x1_1_0_0_1_n_n rfl rfl rfl rfl rfl rfl none _ _ p q).trans ?_
  refine Finset.sum_congr rfl fun e _ => ?_
  show k1_pay1 x0 x1 (ix2 p e) * (shapeCast S40x1 x2 shapeCasts_S40x1_S40x1) (ix2 e q) = _
  rw [shapeCast_self]

/-- A block of rows of the twofold product is the twofold product of that block of rows. -/
theorem pay1_4_block (x0 : Vec Ideal S10000x64 .f32) (x1 : Vec Ideal S64x40 .f32) (x2 : Vec Ideal S40x1 .f32)
    (A : FVec Ideal S100000x64 .f32) (B : S64x40.Idx → EReal) (C : S40x1.Idx → EReal)
    (p : Fin 10000) (q : Fin 1) (r : Fin 100000)
    (hx0 : ∀ d : Fin 64, x0 (ix2 p d) = A (ix2 r d))
    (hx1 : ∀ (d : Fin 64) (e : Fin 40), x1 (ix2 d e) = B (ix2 d e))
    (hx2 : ∀ e : Fin 40, x2 (ix2 e q) = C (ix2 e q)) :
    k1_pay4 x0 x1 x2 (ix2 p q)
      = mm (M := 100000) (K := 40) (N := 1) (mm (M := 100000) (K := 64) (N := 40) (eluK A) B) C (ix2 r q) := by
  refine (pay1_4_apply x0 x1 x2 p q).trans ?_
  rw [mm_apply]
  exact Finset.sum_congr rfl fun e _ => by
    rw [pay1_1_block x0 x1 A B p e r hx0 (fun d => hx1 d e), hx2 e]

variable (V : (c : Dev nD) → (b : Ref sig .tc) → Buf (Elt Ideal) ((c : Thread nD τ).loc b))

theorem hz1 : (![0, 0] : Fin 2 → Nat) = fun _ => 0 := funext fun a => by fin_cases a <;> rfl

/-- The index maps over the ten grid points: the row-blocked windows (0, 4, 5, 6) all sit at the same row block,
    which is at most 9, and at column block 0; the weight windows (1, 2, 3) sit at block (0, 0). -/
theorem idx_facts1 : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9
    ∧ win1_5.index t (0 : Fin 2) = win1_4.index t (0 : Fin 2) ∧ win1_5.index t (1 : Fin 2) = 0
    ∧ win1_6.index t (0 : Fin 2) = win1_4.index t (0 : Fin 2) ∧ win1_6.index t (1 : Fin 2) = 0 :=
  (by decide +kernel : ∀ t : Fin grid1.N, _)

/-- Every row block 0 … 9 is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- What point t writes back to window 4's array is block t of (ELU of the aggregated features) · the second layer's weights. -/
theorem flushed1_4_eq (c : Dev nD) (t : Fin cfg1.N) :
    (dat1 V c).flushed 4 t = ((cfg1.win 4).blk t).view.read (Elt Ideal)
      (mm (M := 100000) (K := 64) (N := 40) (eluK (V c main_v82)) (V c main_arg4)) := by
  show (cfg1.win 4).cut (grid1.coords t) ((dat1 V c).after 4 t) = _
  rw [after1_4]
  unfold out1_4
  rw [View.canon_unit_zero hz1]
  simp only [View.ld_unit_zero (S := S10000x64) hz1, View.ld_unit_zero (S := S64x40) hz1]
  obtain ⟨e00, e01, e10, e11, e20, e21, e30, e31, e41, e4le, e50, e51, e60, e61⟩ := idx_facts1 t
  funext j
  have hj0 : (j 0).val < 10000 := (j 0).isLt
  have hj1 : (j 1).val < 40 := (j 1).isLt
  let p : Fin 10000 := ⟨(j 0).val, hj0⟩
  let q : Fin 40 := ⟨(j 1).val, hj1⟩
  let r : Fin 100000 := ⟨win1_4.index t (0 : Fin 2) * 10000 + (j 0).val, by omega⟩
  show k1_pay1 (iblk1 V c 0 t) (iblk1 V c 1 t) j
    = mm (M := 100000) (K := 64) (N := 40) (eluK (V c main_v82)) (V c main_arg4) (((cfg1.win 4).blk t).view.emb j)
  have ej : j = ix2 p q := by
    funext a
    match a with
    | ⟨0, _⟩ => rfl
    | ⟨1, _⟩ => rfl
  have ei : ((cfg1.win 4).blk t).view.emb j = ix2 r q := by
    funext a; apply Fin.ext
    match a with
    | ⟨0, _⟩ => show win1_4.index t (0 : Fin 2) * 10000 + 1 * (j 0).val = win1_4.index t (0 : Fin 2) * 10000 + (j 0).val; omega
    | ⟨1, _⟩ => show win1_4.index t (1 : Fin 2) * 40 + 1 * (j 1).val = (j 1).val; omega
  have h0 : ∀ d : Fin 64, (iblk1 V c 0 t : Vec Ideal S10000x64 .f32) (ix2 p d) = V c main_v82 (ix2 r d) := by
    intro d
    show V c main_v82 (((cfg1.win 0).blk t).view.emb (ix2 p d)) = V c main_v82 (ix2 r d)
    refine congrArg (V c main_v82) ?_
    funext a; apply Fin.ext
    match a with
    | ⟨0, _⟩ => show win1_0.index t (0 : Fin 2) * 10000 + 1 * (j 0).val = win1_4.index t (0 : Fin 2) * 10000 + (j 0).val; omega
    | ⟨1, _⟩ => show win1_0.index t (1 : Fin 2) * 64 + 1 * d.val = d.val; omega
  have h1 : ∀ d : Fin 64, (iblk1 V c 1 t : Vec Ideal S64x40 .f32) (ix2 d q) = V c main_arg4 (ix2 d q) := by
    intro d
    show V c main_arg4 (((cfg1.win 1).blk t).view.emb (ix2 d q)) = V c main_arg4 (ix2 d q)
    refine congrArg (V c main_arg4) ?_
    funext a; apply Fin.ext
    match a with
    | ⟨0, _⟩ => show win1_1.index t (0 : Fin 2) * 64 + 1 * d.val = d.val; omega
    | ⟨1, _⟩ => show win1_1.index t (1 : Fin 2) * 40 + 1 * (j 1).val = (j 1).val; omega
  exact (congrArg (k1_pay1 (iblk1 V c 0 t) (iblk1 V c 1 t)) ej).trans
    ((pay1_1_block (iblk1 V c 0 t) (iblk1 V c 1 t) (V c main_v82) (V c main_arg4) p q r h0 h1).trans
      (congrArg (mm (M := 100000) (K := 64) (N := 40) (eluK (V c main_v82)) (V c main_arg4)) ei.symm))

/-- An index of window 4's array is in point t's block iff each coordinate is in the block's range on its axis. -/
theorem mem_blk1_4 (t : Fin cfg1.N) (i : S100000x40.Idx) :
    i ∈ ((cfg1.win 4).blk t).view.set ↔ ∀ a : Fin 2, win1_4.index t a * S10000x40.size a ≤ (i a).val
      ∧ (i a).val < win1_4.index t a * S10000x40.size a + S10000x40.size a := by
  show i ∈ ((View.whole main_v89_0).slice (win1_4.rect t)).set ↔ _
  rw [View.set_slice_whole, Rect.mem_set_unit]
  exact Iff.rfl

/-- Row r of window 4's array lies in the block of the point whose row block is r / 10000: the ten blocks of 10000
    rows tile the 100000 rows. -/
theorem rows_cover1_4 (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  obtain ⟨t, ht⟩ := idx_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1_4]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 40 ≤ (i 1).val ∧ (i 1).val < win1_4.index t (1 : Fin 2) * 40 + 40
    omega

/-- After region 1, window 4's array is (ELU of the aggregated features) times the second layer's weights. -/
theorem arr1_4 (c : Dev nD) :
    (dat1 V c).arrAt 4 cfg1.N = mm (M := 100000) (K := 64) (N := 40) (eluK (V c main_v82)) (V c main_arg4) :=
  (dat1 V c).arrAt_eq_of_cover 4 _ (fun t _ => flushed1_4_eq V c t) rows_cover1_4

/-- What point t writes back to window 5's array is block t of the second projection times the first attention vector. -/
theorem flushed1_5_eq (c : Dev nD) (t : Fin cfg1.N) :
    (dat1 V c).flushed 5 t = ((cfg1.win 5).blk t).view.read (Elt Ideal)
      (mm (M := 100000) (K := 40) (N := 1)
        (mm (M := 100000) (K := 64) (N := 40) (eluK (V c main_v82)) (V c main_arg4)) (V c main_v85)) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S64x40) hz1, View.ld_unit_zero (S := S40x1) hz1]
  obtain ⟨e00, e01, e10, e11, e20, e21, e30, e31, e41, e4le, e50, e51, e60, e61⟩ := idx_facts1 t
  funext j
  have hj0 : (j 0).val < 10000 := (j 0).isLt
  have hj1 : (j 1).val < 1 := (j 1).isLt
  let p : Fin 10000 := ⟨(j 0).val, hj0⟩
  let q : Fin 1 := ⟨(j 1).val, hj1⟩
  let r : Fin 100000 := ⟨win1_4.index t (0 : Fin 2) * 10000 + (j 0).val, by omega⟩
  show k1_pay3 (iblk1 V c 0 t) (iblk1 V c 1 t) (iblk1 V c 2 t) j
    = mm (M := 100000) (K := 40) (N := 1)
        (mm (M := 100000) (K := 64) (N := 40) (eluK (V c main_v82)) (V c main_arg4)) (V c main_v85)
        (((cfg1.win 5).blk t).view.emb j)
  have ej : j = ix2 p q := by
    funext a
    match a with
    | ⟨0, _⟩ => rfl
    | ⟨1, _⟩ => rfl
  have ei : ((cfg1.win 5).blk t).view.emb j = ix2 r q := by
    funext a; apply Fin.ext
    match a with
    | ⟨0, _⟩ => show win1_5.index t (0 : Fin 2) * 10000 + 1 * (j 0).val = win1_4.index t (0 : Fin 2) * 10000 + (j 0).val; omega
    | ⟨1, _⟩ => show win1_5.index t (1 : Fin 2) * 1 + 1 * (j 1).val = (j 1).val; omega
  have h0 : ∀ d : Fin 64, (iblk1 V c 0 t : Vec Ideal S10000x64 .f32) (ix2 p d) = V c main_v82 (ix2 r d) := by
    intro d
    show V c main_v82 (((cfg1.win 0).blk t).view.emb (ix2 p d)) = V c main_v82 (ix2 r d)
    refine congrArg (V c main_v82) ?_
    funext a; apply Fin.ext
    match a with
    | ⟨0, _⟩ => show win1_0.index t (0 : Fin 2) * 10000 + 1 * (j 0).val = win1_4.index t (0 : Fin 2) * 10000 + (j 0).val; omega
    | ⟨1, _⟩ => show win1_0.index t (1 : Fin 2) * 64 + 1 * d.val = d.val; omega
  have h1 : ∀ (d : Fin 64) (e : Fin 40), (iblk1 V c 1 t : Vec Ideal S64x40 .f32) (ix2 d e) = V c main_arg4 (ix2 d e) := by
    intro d e
    show V c main_arg4 (((cfg1.win 1).blk t).view.emb (ix2 d e)) = V c main_arg4 (ix2 d e)
    refine congrArg (V c main_arg4) ?_
    funext a; apply Fin.ext
    match a with
    | ⟨0, _⟩ => show win1_1.index t (0 : Fin 2) * 64 + 1 * d.val = d.val; omega
    | ⟨1, _⟩ => show win1_1.index t (1 : Fin 2) * 40 + 1 * e.val = e.val; omega
  have h2 : ∀ e : Fin 40, (iblk1 V c 2 t : Vec Ideal S40x1 .f32) (ix2 e q) = V c main_v85 (ix2 e q) := by
    intro e
    show V c main_v85 (((cfg1.win 2).blk t).view.emb (ix2 e q)) = V c main_v85 (ix2 e q)
    refine congrArg (V c main_v85) ?_
    funext a; apply Fin.ext
    match a with
    | ⟨0, _⟩ => show win1_2.index t (0 : Fin 2) * 40 + 1 * e.val = e.val; omega
    | ⟨1, _⟩ => show win1_2.index t (1 : Fin 2) * 1 + 1 * (j 1).val = (j 1).val; omega
  exact (congrArg (k1_pay3 (iblk1 V c 0 t) (iblk1 V c 1 t) (iblk1 V c 2 t)) ej).trans
    ((pay1_3_block (iblk1 V c 0 t) (iblk1 V c 1 t) (iblk1 V c 2 t) (V c main_v82) (V c main_arg4) (V c main_v85)
        p q r h0 h1 h2).trans
      (congrArg (mm (M := 100000) (K := 40) (N := 1)
        (mm (M := 100000) (K := 64) (N := 40) (eluK (V c main_v82)) (V c main_arg4)) (V c main_v85)) ei.symm))

/-- An index of window 5's array is in point t's block iff each coordinate is in the block's range on its axis. -/
theorem mem_blk1_5 (t : Fin cfg1.N) (i : S100000x1.Idx) :
    i ∈ ((cfg1.win 5).blk t).view.set ↔ ∀ a : Fin 2, win1_5.index t a * S10000x1.size a ≤ (i a).val
      ∧ (i a).val < win1_5.index t a * S10000x1.size a + S10000x1.size a := by
  show i ∈ ((View.whole main_v89_1).slice (win1_5.rect t)).set ↔ _
  rw [View.set_slice_whole, Rect.mem_set_unit]
  exact Iff.rfl

/-- Row r of window 5's array lies in the block of the point whose row block is r / 10000. -/
theorem rows_cover1_5 (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  obtain ⟨t, ht⟩ := idx_onto1 ⟨(i 0).val / 10000, by omega⟩
  have q0 : win1_4.index t (0 : Fin 2) = (i 0).val / 10000 := congrFun ht 0
  obtain ⟨e00, e01, e10, e11, e20, e21, e30, e31, e41, e4le, e50, e51, e60, e61⟩ := idx_facts1 t
  refine ⟨t, flush1_5 t, ?_⟩
  rw [mem_blk1_5]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 1 ≤ (i 1).val ∧ (i 1).val < win1_5.index t (1 : Fin 2) * 1 + 1
    omega

/-- After region 1, window 5's array is the second projection times the first attention vector. -/
theorem arr1_5 (c : Dev nD) :
    (dat1 V c).arrAt 5 cfg1.N = mm (M := 100000) (K := 40) (N := 1)
      (mm (M := 100000) (K := 64) (N := 40) (eluK (V c main_v82)) (V c main_arg4)) (V c main_v85) :=
  (dat1 V c).arrAt_eq_of_cover 5 _ (fun t _ => flushed1_5_eq V c t) rows_cover1_5

/-- What point t writes back to window 6's array is block t of the second projection times the second attention vector. -/
theorem flushed1_6_eq (c : Dev nD) (t : Fin cfg1.N) :
    (dat1 V c).flushed 6 t = ((cfg1.win 6).blk t).view.read (Elt Ideal)
      (mm (M := 100000) (K := 40) (N := 1)
        (mm (M := 100000) (K := 64) (N := 40) (eluK (V c main_v82)) (V c main_arg4)) (V c main_v88)) := by
  show (cfg1.win 6).cut (grid1.coords t) ((dat1 V c).after 6 t) = _
  rw [after1_6]
  unfold out1_6
  rw [View.canon_unit_zero hz1]
  simp only [View.ld_unit_zero (S := S10000x64) hz1, View.ld_unit_zero (S := S64x40) hz1, View.ld_unit_zero (S := S40x1) hz1]
  obtain ⟨e00, e01, e10, e11, e20, e21, e30, e31, e41, e4le, e50, e51, e60, e61⟩ := idx_facts1 t
  funext j
  have hj0 : (j 0).val < 10000 := (j 0).isLt
  have hj1 : (j 1).val < 1 := (j 1).isLt
  let p : Fin 10000 := ⟨(j 0).val, hj0⟩
  let q : Fin 1 := ⟨(j 1).val, hj1⟩
  let r : Fin 100000 := ⟨win1_4.index t (0 : Fin 2) * 10000 + (j 0).val, by omega⟩
  show k1_pay4 (iblk1 V c 0 t) (iblk1 V c 1 t) (iblk1 V c 3 t) j
    = mm (M := 100000) (K := 40) (N := 1)
        (mm (M := 100000) (K := 64) (N := 40) (eluK (V c main_v82)) (V c main_arg4)) (V c main_v88)
        (((cfg1.win 6).blk t).view.emb j)
  have ej : j = ix2 p q := by
    funext a
    match a with
    | ⟨0, _⟩ => rfl
    | ⟨1, _⟩ => rfl
  have ei : ((cfg1.win 6).blk t).view.emb j = ix2 r q := by
    funext a; apply Fin.ext
    match a with
    | ⟨0, _⟩ => show win1_6.index t (0 : Fin 2) * 10000 + 1 * (j 0).val = win1_4.index t (0 : Fin 2) * 10000 + (j 0).val; omega
    | ⟨1, _⟩ => show win1_6.index t (1 : Fin 2) * 1 + 1 * (j 1).val = (j 1).val; omega
  have h0 : ∀ d : Fin 64, (iblk1 V c 0 t : Vec Ideal S10000x64 .f32) (ix2 p d) = V c main_v82 (ix2 r d) := by
    intro d
    show V c main_v82 (((cfg1.win 0).blk t).view.emb (ix2 p d)) = V c main_v82 (ix2 r d)
    refine congrArg (V c main_v82) ?_
    funext a; apply Fin.ext
    match a with
    | ⟨0, _⟩ => show win1_0.index t (0 : Fin 2) * 10000 + 1 * (j 0).val = win1_4.index t (0 : Fin 2) * 10000 + (j 0).val; omega
    | ⟨1, _⟩ => show win1_0.index t (1 : Fin 2) * 64 + 1 * d.val = d.val; omega
  have h1 : ∀ (d : Fin 64) (e : Fin 40), (iblk1 V c 1 t : Vec Ideal S64x40 .f32) (ix2 d e) = V c main_arg4 (ix2 d e) := by
    intro d e
    show V c main_arg4 (((cfg1.win 1).blk t).view.emb (ix2 d e)) = V c main_arg4 (ix2 d e)
    refine congrArg (V c main_arg4) ?_
    funext a; apply Fin.ext
    match a with
    | ⟨0, _⟩ => show win1_1.index t (0 : Fin 2) * 64 + 1 * d.val = d.val; omega
    | ⟨1, _⟩ => show win1_1.index t (1 : Fin 2) * 40 + 1 * e.val = e.val; omega
  have h2 : ∀ e : Fin 40, (iblk1 V c 3 t : Vec Ideal S40x1 .f32) (ix2 e q) = V c main_v88 (ix2 e q) := by
    intro e
    show V c main_v88 (((cfg1.win 3).blk t).view.emb (ix2 e q)) = V c main_v88 (ix2 e q)
    refine congrArg (V c main_v88) ?_
    funext a; apply Fin.ext
    match a with
    | ⟨0, _⟩ => show win1_3.index t (0 : Fin 2) * 40 + 1 * e.val = e.val; omega
    | ⟨1, _⟩ => show win1_3.index t (1 : Fin 2) * 1 + 1 * (j 1).val = (j 1).val; omega
  exact (congrArg (k1_pay4 (iblk1 V c 0 t) (iblk1 V c 1 t) (iblk1 V c 3 t)) ej).trans
    ((pay1_4_block (iblk1 V c 0 t) (iblk1 V c 1 t) (iblk1 V c 3 t) (V c main_v82) (V c main_arg4) (V c main_v88)
        p q r h0 h1 h2).trans
      (congrArg (mm (M := 100000) (K := 40) (N := 1)
        (mm (M := 100000) (K := 64) (N := 40) (eluK (V c main_v82)) (V c main_arg4)) (V c main_v88)) ei.symm))

/-- An index of window 6's array is in point t's block iff each coordinate is in the block's range on its axis. -/
theorem mem_blk1_6 (t : Fin cfg1.N) (i : S100000x1.Idx) :
    i ∈ ((cfg1.win 6).blk t).view.set ↔ ∀ a : Fin 2, win1_6.index t a * S10000x1.size a ≤ (i a).val
      ∧ (i a).val < win1_6.index t a * S10000x1.size a + S10000x1.size a := by
  show i ∈ ((View.whole main_v89_2).slice (win1_6.rect t)).set ↔ _
  rw [View.set_slice_whole, Rect.mem_set_unit]
  exact Iff.rfl

/-- Row r of window 6's array lies in the block of the point whose row block is r / 10000. -/
theorem rows_cover1_6 (i : S100000x1.Idx) :
    ∃ t : Fin cfg1.N, (cfg1.win 6).flush t = true ∧ i ∈ ((cfg1.win 6).blk t).view.set := by
  have hi0 : (i 0).val < 100000 := (i 0).isLt
  have hi1 : (i 1).val < 1 := (i 1).isLt
  obtain ⟨t, ht⟩ := idx_onto1 ⟨(i 0).val / 10000, by omega⟩
  have q0 : win1_4.index t (0 : Fin 2) = (i 0).val / 10000 := congrFun ht 0
  obtain ⟨e00, e01, e10, e11, e20, e21, e30, e31, e41, e4le, e50, e51, e60, e61⟩ := idx_facts1 t
  refine ⟨t, flush1_6 t, ?_⟩
  rw [mem_blk1_6]
  intro a
  match a with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 1 ≤ (i 1).val ∧ (i 1).val < win1_6.index t (1 : Fin 2) * 1 + 1
    omega

/-- After region 1, window 6's array is the second projection times the second attention vector. -/
theorem arr1_6 (c : Dev nD) :
    (dat1 V c).arrAt 6 cfg1.N = mm (M := 100000) (K := 40) (N := 1)
      (mm (M := 100000) (K := 64) (N := 40) (eluK (V c main_v82)) (V c main_arg4)) (V c main_v88) :=
  (dat1 V c).arrAt_eq_of_cover 6 _ (fun t _ => flushed1_6_eq V c t) rows_cover1_6

end Cert.KernelIdeal.RegValue

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_rank0_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibLogSoftmaxTile.lean ====
/-
  The row-wise log-softmax inside a kernel body, read at an index on the extended reals.

  A body that holds a block `z : [a, b]` of logits computes `z - max_row(z) - log Σ_row exp(z - max_row(z))` with lane
  reductions to a vector `[a]`, a cast of that vector to a column `[a, 1]` (the kept axis), and a broadcast of the
  column back along the lanes. This module reads those layout steps at an index (`[a] → [a, 1]` by a cast, `[a, 1] →
  [a, b]` by a broadcast), the lane sum as the sum over the row, and the whole nine-operation tail at `(p, q)`:
  `(z(p, q) - M(p)) - log Σ_k exp (z(p, k) - M(p))` with `M(p)` the fold of `max` over row `p` from the pattern of `-∞`
  (`Cert.Gcn.rowMax`). Stated for any extents and any evidence of the shape facts; imports only the Idealize library
  and this directory's general modules.
-/
import proofs.«160089_j1881195675933_1_alg».proof.Proof.LibHostKeepdims
import proofs.«160089_j1881195675933_1_alg».proof.Proof.LibGcnLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLogSoftmaxTile

open Idealize.ShloMosaic Idealize.ShloMosaic.ValueIdx

/-! ## Layouts of a kept axis inside a body -/

/-- A vector `[a]` cast to the column `[a, 1]` reads, at `(p, 0)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    rw [Shape.rowMajor_val_two, Shape.rowMajor_val_one]
    show p.val = p.val * 1 + u.val
    have := u.isLt
    omega)

/-- A column `[a, 1]` broadcast along the lanes to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions and the tail -/

/-- A kernel's lane sum of an `[a, b]` matrix along its rows, read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Subtract each row's maximum, then the logarithm of the row's sum of exponentials: the body's last nine
    operations on a matrix `z`, read at `(p, q)`. The maximum and the sum are lane reductions to a vector, cast to a
    column and broadcast back along the lanes. -/
theorem logSoftmax_tile {a b : ℕ} (z : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf z (broadcastTo ⟨2, ![a, b]⟩ (shapeCast ⟨2, ![a, 1]⟩
        (multiReduction .maximumf [1] ⟨1, ![a]⟩ z 0xFF800000#32 hr hφ hmax) hc) hb))
      (broadcastTo ⟨2, ![a, b]⟩ (log (shapeCast ⟨2, ![a, 1]⟩
        (multiReduction .add [1] ⟨1, ![a]⟩ (exp (subf z (broadcastTo ⟨2, ![a, b]⟩ (shapeCast ⟨2, ![a, 1]⟩
          (multiReduction .maximumf [1] ⟨1, ![a]⟩ z 0xFF800000#32 hr hφ hmax) hc) hb))) 0x00000000#32 hr hφ hadd) hc)) hb)
      (ix2 p q)
    = (z (ix2 p q) - Cert.Gcn.rowMax z p) - Ideal.log (∑ k : Fin b, Ideal.exp (z (ix2 p k) - Cert.Gcn.rowMax z p)) := by
  have hm : ∀ c : Fin b, broadcastTo ⟨2, ![a, b]⟩ (shapeCast ⟨2, ![a, 1]⟩
      (multiReduction .maximumf [1] ⟨1, ![a]⟩ z 0xFF800000#32 hr hφ hmax) hc) hb (ix2 p c) = Cert.Gcn.rowMax z p := by
    intro c
    rw [broadcastTo_a1_ab_apply, shapeCast_a_a1_apply, multiReduction_maximumf_rows_apply]
    rfl
  show (z (ix2 p q) - broadcastTo ⟨2, ![a, b]⟩ _ hb (ix2 p q)) - broadcastTo ⟨2, ![a, b]⟩ _ hb (ix2 p q) = _
  rw [hm q, broadcastTo_a1_ab_apply]
  show _ - Ideal.log (shapeCast ⟨2, ![a, 1]⟩ _ hc (ix2 p (0 : Fin 1))) = _
  rw [shapeCast_a_a1_apply, multiReduction_add_rows_apply]
  refine congrArg (fun s => (z (ix2 p q) - Cert.Gcn.rowMax z p) - Ideal.log s) (Finset.sum_congr rfl fun k _ => ?_)
  show Ideal.exp (z (ix2 p k) - broadcastTo ⟨2, ![a, b]⟩ _ hb (ix2 p k)) = _
  rw [hm k]

end Cert.LibLogSoftmaxTile

end
-- ==== Proof.Reg2Value.lean ====
/-
  The third kernel region: each row of its output array is the log-softmax of the same row of the array it reads.

  The region walks ten blocks of 10000 rows of a `[100000, 40]` array. On a block `z` its body forms the lane maxima
  `m(p) = max_k z(p, k)`, the shifted block `z - m`, the lane sums `s(p) = Σ_k exp (z(p, k) - m(p))` and stores
  `(z - m) - log s`. Row `p` of block `t` is row `10000·t + p` of the array, and the formula at a row involves that row
  only, so the ten blocks written back are the ten row-blocks of ONE function of the whole array: the row-wise
  log-softmax `Cert.Gat.logSoftmaxRows`. The blocks tile the array (row `r` lies in block `r / 10000`), hence the array
  after the region is that function of the array before it.
-/
import proofs.«160089_j1881195675933_1_alg».proof.Proof.Gen.KernelIdeal.Frame
import proofs.«160089_j1881195675933_1_alg».proof.Proof.LibLogSoftmaxTile
import proofs.«160089_j1881195675933_1_alg».proof.Proof.LogSoftmaxSpec
import Idealize.ShloMosaic.Lib.Pipeline.Value

noncomputable section

open scoped BigOperators

namespace Cert.KernelIdeal.RegValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The body's stored value at `(p, q)`: the block's entry less its row maximum, less the logarithm of the row's sum of
    shifted exponentials. The leading cast is between equal shapes. -/
theorem k2_pay1_apply (x0 : Vec Ideal S10000x40 .f32) (p : Fin 10000) (q : Fin 40) :
    k2_pay1 (F := Ideal) x0 (ix2 p q)
      = (x0 (ix2 p q) - Cert.Gcn.rowMax x0 p) - Ideal.log (∑ k : Fin 40, Ideal.exp (x0 (ix2 p k) - Cert.Gcn.rowMax x0 p)) := by
  unfold k2_pay1
  rw [shapeCast_self]
  exact Cert.LibLogSoftmaxTile.logSoftmax_tile (a := 10000) (b := 40) x0 reduces_S10000x40_S10000 (.inl rfl) rfl rfl
    shapeCasts_S10000_S10000x1 broadcasts_S10000x1_S10000x40 p q

/-! ## From the blocks to the array -/

variable (V : (c : Dev nD) → (b : Ref sig .tc) → Buf (Elt Ideal) ((c : Thread nD τ).loc b))

theorem zeroOff2 : (![0, 0] : Fin 2 → Nat) = fun _ => 0 := funext fun a => by fin_cases a <;> rfl

/-- The printed index maps over the ten points: the input block and the output block of a point sit at the same block
    row, which is at most 9, and at block column 0. -/
theorem idx_facts2 : ∀ t : Fin cfg2.N, win2_0.index t (0 : Fin 2) = win2_1.index t (0 : Fin 2)
    ∧ win2_0.index t (1 : Fin 2) = 0 ∧ win2_1.index t (1 : Fin 2) = 0 ∧ win2_1.index t (0 : Fin 2) ≤ 9 :=
  (by decide +kernel : ∀ t : Fin grid2.N, _)

/-- Every block row is some point's. -/
theorem idx_onto2 : ∀ q0 : Fin 10, ∃ t : Fin cfg2.N, win2_1.index t = ![q0.val, 0] :=
  (by decide +kernel : ∀ q0 : Fin 10, ∃ t : Fin grid2.N, win2_1.index t = ![q0.val, 0])

/-- What point `t` writes back is block `t` of the row-wise log-softmax of the array the region reads. -/
theorem flushed2_1_eq (c : Dev nD) (t : Fin cfg2.N) :
    (dat2 V c).flushed 1 t = ((cfg2.win 1).blk t).view.read (Elt Ideal) (Cert.Gat.logSoftmaxRows (V c main_v133)) := by
  show (cfg2.win 1).cut (grid2.coords t) ((dat2 V c).after 1 t) = _
  rw [after2_1]
  unfold out2_1
  rw [View.canon_unit_zero zeroOff2]
  simp only [View.ld_unit_zero (S := S10000x40) zeroOff2]
  obtain ⟨e0, e1, e2, e3⟩ := idx_facts2 t
  funext j
  obtain ⟨p, q, rfl⟩ : ∃ (p : Fin 10000) (q : Fin 40), j = ix2 p q := ⟨j 0, j 1, eq_ix2 j⟩
  have hr : win2_1.index t (0 : Fin 2) * 10000 + p.val < 100000 := by have := p.isLt; omega
  have hemb1 : ((cfg2.win 1).blk t).view.emb (ix2 p q) = ix2 (⟨win2_1.index t (0 : Fin 2) * 10000 + p.val, hr⟩ : Fin 100000) q := by
    funext a; apply Fin.ext
    match a with
    | ⟨0, _⟩ => show win2_1.index t (0 : Fin 2) * 10000 + 1 * p.val = win2_1.index t (0 : Fin 2) * 10000 + p.val; omega
    | ⟨1, _⟩ => show win2_1.index t (1 : Fin 2) * 40 + 1 * q.val = q.val; omega
  have hrow : ∀ k : Fin 40, iblk2 V c 0 t (ix2 p k)
      = V c main_v133 (ix2 (⟨win2_1.index t (0 : Fin 2) * 10000 + p.val, hr⟩ : Fin 100000) k) := by
    intro k
    show V c main_v133 (((cfg2.win 0).blk t).view.emb (ix2 p k)) = _
    refine congrArg (V c main_v133) (funext fun a => Fin.ext ?_)
    match a with
    | ⟨0, _⟩ => show win2_0.index t (0 : Fin 2) * 10000 + 1 * p.val = win2_1.index t (0 : Fin 2) * 10000 + p.val; omega
    | ⟨1, _⟩ => show win2_0.index t (1 : Fin 2) * 40 + 1 * k.val = k.val; omega
  show k2_pay1 (F := Ideal) (iblk2 V c 0 t) (ix2 p q)
    = Cert.Gat.logSoftmaxRows (V c main_v133) (((cfg2.win 1).blk t).view.emb (ix2 p q))
  rw [hemb1]
  refine (k2_pay1_apply (iblk2 V c 0 t) p q).trans ?_
  exact Cert.Gat.logSoftmaxRows_of_row (iblk2 V c 0 t) (V c main_v133) p _ hrow q

/-- An index of the array is in point `t`'s block iff each coordinate is in the block's range on its axis. -/
theorem mem_blk2_1 (t : Fin cfg2.N) (i : S100000x40.Idx) :
    i ∈ ((cfg2.win 1).blk t).view.set ↔ ∀ a : Fin 2, win2_1.index t a * S10000x40.size a ≤ (i a).val ∧ (i a).val < win2_1.index t a * S10000x40.size a + S10000x40.size a := by
  show i ∈ ((View.whole main_v134).slice (win2_1.rect t)).set ↔ _
  rw [View.set_slice_whole, Rect.mem_set_unit]
  exact Iff.rfl

/-- The ten blocks tile the array: row `r` lies in the block of the point at block row `r / 10000`. -/
theorem cover2_1_arr (i : S100000x40.Idx) :
    ∃ t : Fin cfg2.N, (cfg2.win 1).flush t = true ∧ i ∈ ((cfg2.win 1).blk t).view.set := by
  have hi0 : (i 0).val < 100000 := (i 0).isLt
  have hi1 : (i 1).val < 40 := (i 1).isLt
  obtain ⟨t, ht⟩ := idx_onto2 ⟨(i 0).val / 10000, by omega⟩
  have q0 : win2_1.index t (0 : Fin 2) = (i 0).val / 10000 := congrFun ht 0
  have q1 : win2_1.index t (1 : Fin 2) = 0 := congrFun ht 1
  refine ⟨t, flush2_1 t, ?_⟩
  rw [mem_blk2_1]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 40 ≤ (i 1).val ∧ (i 1).val < win2_1.index t (1 : Fin 2) * 40 + 40; omega

/-- THE ARRAY after the region: the row-wise log-softmax of the array the region reads. -/
theorem arr2_1 (c : Dev nD) : (dat2 V c).arrAt 1 cfg2.N = Cert.Gat.logSoftmaxRows (V c main_v133) :=
  (dat2 V c).arrAt_eq_of_cover 1 (Cert.Gat.logSoftmaxRows (V c main_v133)) (fun t _ => flushed2_1_eq V c t) cover2_1_arr

end Cert.KernelIdeal.RegValue

end
-- ==== Proof.KValue.lean ====
/-
  The kernel program's result as one function of its six arguments: the last region's output array read back through
  the three regions' whole-array values and the host stages between them.
-/
import proofs.«160089_j1881195675933_1_alg».proof.Proof.KRun
import proofs.«160089_j1881195675933_1_alg».proof.Proof.KHost2
import proofs.«160089_j1881195675933_1_alg».proof.Proof.KOutSpec
import proofs.«160089_j1881195675933_1_alg».proof.Proof.Reg0Value
import proofs.«160089_j1881195675933_1_alg».proof.Proof.Reg1Value
import proofs.«160089_j1881195675933_1_alg».proof.Proof.Reg2Value

set_option maxRecDepth 16384

noncomputable section

namespace Cert.KernelIdeal.KRun

open Idealize.ShloMosaic Idealize.ShloMosaic.TcCoe Idealize.SL.Sem
open Cert.KernelIdeal.Gen Cert.KernelIdeal.RegValue

variable (m : (ℓ : Loc nD τ sig) → Buf (Elt Ideal) ℓ) (ρ : Dev nD → PrngReg)

/-- The result buffer holds the row-wise log-softmax of layer 2 applied to layer 1 of the six arguments. -/
theorem out_value (c : Dev nD) :
    out (F := Ideal) m ρ c = Cert.Gat.Bridge.outK (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  rw [out_eq m ρ c, arr2_1 (V16 m ρ) c, V16_v133 m ρ c]
  rw [arr1_4 (V12 m ρ) c, arr1_5 (V12 m ρ) c, arr1_6 (V12 m ρ) c]
  rw [V12_v82 m ρ c, V12_arg4 m ρ c, V12_v85 m ρ c, V12_v88 m ρ c]
  rw [arr0_4 (V8 m ρ) c, arr0_5 (V8 m ρ) c, arr0_6 (V8 m ρ) c]
  rw [V8_arg0 m ρ c, V8_arg2 m ρ c, V8_v23 m ρ c, V8_v36 m ρ c]
  unfold Cert.Gat.Bridge.outK Cert.Gat.Bridge.layer2K Cert.Gat.Bridge.layer1K
  with_reducible rfl

end Cert.KernelIdeal.KRun

end
-- ==== Proof.RefOps.lean ====
/-
  The reference program's host operations, stage by stage.

  The reference is a straight line of 174 array operations once its four calls (leaky_relu twice, elu, log_softmax, and
  the selects nested in them) are replaced by the callee's own operations at the call's buffers.  The line is cut here
  at the boundaries of the mathematical stages — edge endpoints; per layer: features, attention logits, attention
  weights, aggregation; elu between the layers; log-softmax at the end — into eleven consecutive lists.  For each list:
  the buffers it writes, and the fact that any other buffer keeps its contents through it.  `valK V` is the contents of
  all buffers after stages 0 … K, from contents `V`.
-/
import proofs.«160089_j1881195675933_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 0. The edge endpoints: the two rows of the edge table, each followed by the node numbers (one self-loop per node). -/
abbrev ops0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The buffers stage 0 writes. -/
abbrev ops0_W : List (Ref sig .tc) := [main_v0, main_v1, main_v2, main_v3, main_v4, main_v5, main_v6]

set_option maxRecDepth 4096 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 0, from contents `V`. -/
def val0 (V : Valuation τ sig (Elt F)) : Valuation τ sig (Elt F) := after ops0 (V)

/-- A buffer stage 0 does not write keeps its contents through it. -/
theorem val0_keep (V : Valuation τ sig (Elt F)) (r : Ref sig .tc) (h : r ∉ ops0_W) :
    val0 V (Proc.devRef .tc r) = V (Proc.devRef .tc r) :=
  after_of_writes_sub ops0 _ ops0_writes h

/-- Stage 1. Layer 1's features: the product of the node features with the first weight matrix, viewed [N, 8, 8]. -/
abbrev ops1 : List (HloOp τ sig (Elt F)) :=
  [ binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    reshape main_v7 main_v8 rfl shapeCasts_S100000x64_S100000x8x8 ]

/-- The buffers stage 1 writes. -/
abbrev ops1_W : List (Ref sig .tc) := [main_v7, main_v8]

set_option maxRecDepth 4096 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 1, from contents `V`. -/
def val1 (V : Valuation τ sig (Elt F)) : Valuation τ sig (Elt F) := after ops1 (val0 V)

/-- A buffer stage 1 does not write keeps its contents through it. -/
theorem val1_keep (V : Valuation τ sig (Elt F)) (r : Ref sig .tc) (h : r ∉ ops1_W) :
    val1 V (Proc.devRef .tc r) = val0 V (Proc.devRef .tc r) :=
  after_of_writes_sub ops1 _ ops1_writes h

/-- Stage 2. Layer 1's attention logits: the destination and source rows of the features, each contracted over channels with its half of the attention vector, and their sum. -/
abbrev ops2 : List (HloOp τ sig (Elt F)) :=
  [ nullary main_c (constantI S_ 32 0#32),
    unary main_c main_v9 (broadcastInDim S1700000 ![] bcast_S_S1700000 : (⟨S_, .i32⟩ : BufTy).Contents (Elt F) → (⟨S1700000, .i32⟩ : BufTy).Contents (Elt F)),
    binary main_v6 main_v9 main_v10 (cmpi .slt : (⟨S1700000, .i32⟩ : BufTy).Contents (Elt F) → (⟨S1700000, .i32⟩ : BufTy).Contents (Elt F) → (⟨S1700000, .i1⟩ : BufTy).Contents (Elt F)),
    nullary main_c_0 (constantI S_ 32 100000#32),
    unary main_c_0 main_v11 (broadcastInDim S1700000 ![] bcast_S_S1700000 : (⟨S_, .i32⟩ : BufTy).Contents (Elt F) → (⟨S1700000, .i32⟩ : BufTy).Contents (Elt F)),
    binary main_v6 main_v11 main_v12 (addi : (⟨S1700000, .i32⟩ : BufTy).Contents (Elt F) → (⟨S1700000, .i32⟩ : BufTy).Contents (Elt F) → (⟨S1700000, .i32⟩ : BufTy).Contents (Elt F)),
    ternary main_v10 main_v12 main_v6 main_v13 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v13 main_v14 (broadcastInDim S1700000x1 ![0] bcast_S1700000_S1700000x1_0 : (⟨S1700000, .i32⟩ : BufTy).Contents (Elt F) → (⟨S1700000x1, .i32⟩ : BufTy).Contents (Elt F)),
    binary main_v8 main_v14 main_v15 ((fun x i => Host.gather gather_S100000x8x8_S1700000x1_S1700000x8x8_12_0_n_n_0_1_188 x i) : (⟨S100000x8x8, .f32⟩ : BufTy).Contents (Elt F) → (⟨S1700000x1, .i32⟩ : BufTy).Contents (Elt F) → (⟨S1700000x8x8, .f32⟩ : BufTy).Contents (Elt F)),
    nullary main_c_1 (constantI S_ 32 0#32),
    unary main_c_1 main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v8 main_v21 main_v22 ((fun x i => Host.gather gather_S100000x8x8_S1700000x1_S1700000x8x8_12_0_n_n_0_1_188 x i) : (⟨S100000x8x8, .f32⟩ : BufTy).Contents (Elt F) → (⟨S1700000x1, .i32⟩ : BufTy).Contents (Elt F) → (⟨S1700000x8x8, .f32⟩ : BufTy).Contents (Elt F)),
    unary main_arg3 main_v23 ((extractStridedSlice S1x8x8 ![0, 0, 0] · slices_S1x8x16_S1x8x8_0_0_0) : (⟨S1x8x16, .f32⟩ : BufTy).Contents (Elt F) → (⟨S1x8x8, .f32⟩ : BufTy).Contents (Elt F)),
    unary main_arg3 main_v24 ((extractStridedSlice S1x8x8 ![0, 0, 8] · slices_S1x8x16_S1x8x8_0_0_8) : (⟨S1x8x16, .f32⟩ : BufTy).Contents (Elt F) → (⟨S1x8x8, .f32⟩ : BufTy).Contents (Elt F)),
    unary main_v23 main_v25 (broadcastInDim S1700000x8x8 ![0, 1, 2] bcast_S1x8x8_S1700000x8x8_0_1_2 : (⟨S1x8x8, .f32⟩ : BufTy).Contents (Elt F) → (⟨S1700000x8x8, .f32⟩ : BufTy).Contents (Elt F)),
    binary main_v15 main_v25 main_v26 (mulf : (⟨S1700000x8x8, .f32⟩ : BufTy).Contents (Elt F) → (⟨S1700000x8x8, .f32⟩ : BufTy).Contents (Elt F) → (⟨S1700000x8x8, .f32⟩ : BufTy).Contents (Elt F)),
    nullary main_cst (constant S_ .f32 0x00000000#32),
    binary main_v26 main_cst main_v27 ((fun x v => Host.reduceAdd x v reducesTo_S1700000x8x8_S1700000x8_d2 h_S_) : (⟨S1700000x8x8, .f32⟩ : BufTy).Contents (Elt F) → (⟨S_, .f32⟩ : BufTy).Contents (Elt F) → (⟨S1700000x8, .f32⟩ : BufTy).Contents (Elt F)),
    unary main_v24 main_v28 (broadcastInDim S1700000x8x8 ![0, 1, 2] bcast_S1x8x8_S1700000x8x8_0_1_2 : (⟨S1x8x8, .f32⟩ : BufTy).Contents (Elt F) → (⟨S1700000x8x8, .f32⟩ : BufTy).Contents (Elt F)),
    binary main_v22 main_v28 main_v29 (mulf : (⟨S1700000x8x8, .f32⟩ : BufTy).Contents (Elt F) → (⟨S1700000x8x8, .f32⟩ : BufTy).Contents (Elt F) → (⟨S1700000x8x8, .f32⟩ : BufTy).Contents (Elt F)),
    nullary main_cst_3 (constant S_ .f32 0x00000000#32),
    binary main_v29 main_cst_3 main_v30 ((fun x v => Host.reduceAdd x v reducesTo_S1700000x8x8_S1700000x8_d2 h_S_) : (⟨S1700000x8x8, .f32⟩ : BufTy).Contents (Elt F) → (⟨S_, .f32⟩ : BufTy).Contents (Elt F) → (⟨S1700000x8, .f32⟩ : BufTy).Contents (Elt F)),
    binary main_v27 main_v30 main_v31 (addf : (⟨S1700000x8, .f32⟩ : BufTy).Contents (Elt F) → (⟨S1700000x8, .f32⟩ : BufTy).Contents (Elt F) → (⟨S1700000x8, .f32⟩ : BufTy).Contents (Elt F)) ]

/-- The buffers stage 2 writes. -/
abbrev ops2_W : List (Ref sig .tc) := [main_c, main_v9, main_v10, main_c_0, main_v11, main_v12, main_v13, main_v14, main_v15, main_c_1, main_v16, main_v17, main_c_2, main_v18, main_v19, main_v20, main_v21, main_v22, main_v23, main_v24, main_v25, main_v26, main_cst, main_v27, main_v28, main_v29, main_cst_3, main_v30, main_v31]

set_option maxRecDepth 4096 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 2, from contents `V`. -/
def val2 (V : Valuation τ sig (Elt F)) : Valuation τ sig (Elt F) := after ops2 (val1 V)

/-- A buffer stage 2 does not write keeps its contents through it. -/
theorem val2_keep (V : Valuation τ sig (Elt F)) (r : Ref sig .tc) (h : r ∉ ops2_W) :
    val2 V (Proc.devRef .tc r) = val1 V (Proc.devRef .tc r) :=
  after_of_writes_sub ops2 _ ops2_writes h

/-- Stage 3. Layer 1's attention weights: leaky_relu with slope 0.2, minus the row maximum, the exponential, divided by its sum over the edges sharing a destination. -/
abbrev ops3 : List (HloOp τ sig (Elt F)) :=
  [ nullary main_cst_4 (constant S_ .f32 0x3E4CCCCD#32),
    nullary main_call0_cst (constant S_ .f32 0x00000000#32),
    unary main_call0_cst main_call0_v0 ((broadcastInDim S1700000x8 ![] bcast_S_S1700000x8) : (⟨S_, .f32⟩ : BufTy).Contents (Elt F) → (⟨S1700000x8, .f32⟩ : BufTy).Contents (Elt F)),
    binary main_v31 main_call0_v0 main_call0_v1 ((cmpf .oge) : (⟨S1700000x8, .f32⟩ : BufTy).Contents (Elt F) → (⟨S1700000x8, .f32⟩ : BufTy).Contents (Elt F) → (⟨S1700000x8, .i1⟩ : BufTy).Contents (Elt F)),
    unary main_cst_4 main_call0_v2 (id : (⟨S_, .f32⟩ : BufTy).Contents (Elt F) → (⟨S_, .f32⟩ : BufTy).Contents (Elt F)),
    unary main_call0_v2 main_call0_v3 ((broadcastInDim S1700000x8 ![] bcast_S_S1700000x8) : (⟨S_, .f32⟩ : BufTy).Contents (Elt F) → (⟨S1700000x8, .f32⟩ : BufTy).Contents (Elt F)),
    binary main_call0_v3 main_v31 main_call0_v4 (mulf : (⟨S1700000x8, .f32⟩ : BufTy).Contents (Elt F) → (⟨S1700000x8, .f32⟩ : BufTy).Contents (Elt F) → (⟨S1700000x8, .f32⟩ : BufTy).Contents (Elt F)),
    ternary main_call0_v1 main_v31 main_call0_v4 main_v32 (select : (⟨S1700000x8, .i1⟩ : BufTy).Contents (Elt F) → (⟨S1700000x8, .f32⟩ : BufTy).Contents (Elt F) → (⟨S1700000x8, .f32⟩ : BufTy).Contents (Elt F) → (⟨S1700000x8, .f32⟩ : BufTy).Contents (Elt F)),
    nullary main_cst_5 (constant S_ .f32 0xFF800000#32),
    binary main_v32 main_cst_5 main_v33 ((fun x v => Host.reduce FloatOps.maximumf x v reducesTo_S1700000x8_S1700000_d1 h_S_) : (⟨S1700000x8, .f32⟩ : BufTy).Contents (Elt F) → (⟨S_, .f32⟩ : BufTy).Contents (Elt F) → (⟨S1700000, .f32⟩ : BufTy).Contents (Elt F)),
    unary main_v33 main_v34 (broadcastInDim S1700000x1 ![0] bcast_S1700000_S1700000x1_0 : (⟨S1700000, .f32⟩ : BufTy).Contents (Elt F) → (⟨S1700000x1, .f32⟩ : BufTy).Contents (Elt F)),
    unary main_v34 main_v35 (broadcastInDim S1700000x8 ![0, 1] bcast_S1700000x1_S1700000x8_0_1 : (⟨S1700000x1, .f32⟩ : BufTy).Contents (Elt F) → (⟨S1700000x8, .f32⟩ : BufTy).Contents (Elt F)),
    binary main_v32 main_v35 main_v36 (subf : (⟨S1700000x8, .f32⟩ : BufTy).Contents (Elt F) → (⟨S1700000x8, .f32⟩ : BufTy).Contents (Elt F) → (⟨S1700000x8, .f32⟩ : BufTy).Contents (Elt F)),
    unary main_v36 main_v37 (Host.exp : (⟨S1700000x8, .f32⟩ : BufTy).Contents (Elt F) → (⟨S1700000x8, .f32⟩ : BufTy).Contents (Elt F)),
    nullary main_cst_6 (constant S_ .f32 0x00000000#32),
    unary main_cst_6 main_v38 (broadcastInDim S100000x8 ![] bcast_S_S100000x8 : (⟨S_, .f32⟩ : BufTy).Contents (Elt F) → (⟨S100000x8, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x8_S1700000x1_S1700000x8_1_0_0_1 x i u) : (⟨S100000x8, .f32⟩ : BufTy).Contents (Elt F) → (⟨S1700000x1, .i32⟩ : BufTy).Contents (Elt F) → (⟨S1700000x8, .f32⟩ : BufTy).Contents (Elt F) → (⟨S100000x8, .f32⟩ : BufTy).Contents (Elt F)),
    nullary main_c_7 (constantI S_ 32 0#32),
    unary main_c_7 main_v41 (broadcastInDim S1700000 ![] bcast_S_S1700000 : (⟨S_, .i32⟩ : BufTy).Contents (Elt F) → (⟨S1700000, .i32⟩ : BufTy).Contents (Elt F)),
    binary main_v6 main_v41 main_v42 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v43 (broadcastInDim S1700000 ![] bcast_S_S1700000 : (⟨S_, .i32⟩ : BufTy).Contents (Elt F) → (⟨S1700000, .i32⟩ : BufTy).Contents (Elt F)),
    binary main_v6 main_v43 main_v44 (addi : (⟨S1700000, .i32⟩ : BufTy).Contents (Elt F) → (⟨S1700000, .i32⟩ : BufTy).Contents (Elt F) → (⟨S1700000, .i32⟩ : BufTy).Contents (Elt F)),
    ternary main_v42 main_v44 main_v6 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v45 main_v46 (broadcastInDim S1700000x1 ![0] bcast_S1700000_S1700000x1_0 : (⟨S1700000, .i32⟩ : BufTy).Contents (Elt F) → (⟨S1700000x1, .i32⟩ : BufTy).Contents (Elt F)),
    binary main_v40 main_v46 main_v47 ((fun x i => Host.gather gather_S100000x8_S1700000x1_S1700000x8_1_0_n_n_0_1_18 x i) : (⟨S100000x8, .f32⟩ : BufTy).Contents (Elt F) → (⟨S1700000x1, .i32⟩ : BufTy).Contents (Elt F) → (⟨S1700000x8, .f32⟩ : BufTy).Contents (Elt F)),
    binary main_v37 main_v47 main_v48 (Host.divf : (⟨S1700000x8, .f32⟩ : BufTy).Contents (Elt F) → (⟨S1700000x8, .f32⟩ : BufTy).Contents (Elt F) → (⟨S1700000x8, .f32⟩ : BufTy).Contents (Elt F)) ]

/-- The buffers stage 3 writes. -/
abbrev ops3_W : List (Ref sig .tc) := [main_cst_4, main_call0_cst, main_call0_v0, main_call0_v1, main_call0_v2, main_call0_v3, main_call0_v4, main_v32, main_cst_5, main_v33, main_v34, main_v35, main_v36, main_v37, main_cst_6, main_v38, main_v39, main_v40, main_c_7, main_v41, main_v42, main_c_8, main_v43, main_v44, main_v45, main_v46, main_v47, main_v48]

set_option maxRecDepth 4096 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 3, from contents `V`. -/
def val3 (V : Valuation τ sig (Elt F)) : Valuation τ sig (Elt F) := after ops3 (val2 V)

/-- A buffer stage 3 does not write keeps its contents through it. -/
theorem val3_keep (V : Valuation τ sig (Elt F)) (r : Ref sig .tc) (h : r ∉ ops3_W) :
    val3 V (Proc.devRef .tc r) = val2 V (Proc.devRef .tc r) :=
  after_of_writes_sub ops3 _ ops3_writes h

/-- Stage 4. Layer 1's aggregation: per node the sum over incoming edges of weight times source row, viewed [N, 64]. -/
abbrev ops4 : List (HloOp τ sig (Elt F)) :=
  [ unary main_v48 main_v49 (broadcastInDim S1700000x8x1 ![0, 1] bcast_S1700000x8_S1700000x8x1_0_1 : (⟨S1700000x8, .f32⟩ : BufTy).Contents (Elt F) → (⟨S1700000x8x1, .f32⟩ : BufTy).Contents (Elt F)),
    unary main_v49 main_v50 (broadcastInDim S1700000x8x8 ![0, 1, 2] bcast_S1700000x8x1_S1700000x8x8_0_1_2 : (⟨S1700000x8x1, .f32⟩ : BufTy).Contents (Elt F) → (⟨S1700000x8x8, .f32⟩ : BufTy).Contents (Elt F)),
    binary main_v22 main_v50 main_v51 (mulf : (⟨S1700000x8x8, .f32⟩ : BufTy).Contents (Elt F) → (⟨S1700000x8x8, .f32⟩ : BufTy).Contents (Elt F) → (⟨S1700000x8x8, .f32⟩ : BufTy).Contents (Elt F)),
    nullary main_cst_9 (constant S_ .f32 0x00000000#32),
    unary main_cst_9 main_v52 (broadcastInDim S100000x8x8 ![] bcast_S_S100000x8x8 : (⟨S_, .f32⟩ : BufTy).Contents (Elt F) → (⟨S100000x8x8, .f32⟩ : BufTy).Contents (Elt F)),
    unary main_v6 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x8x8_S1700000x1_S1700000x8x8_12_0_0_1 x i u) : (⟨S100000x8x8, .f32⟩ : BufTy).Contents (Elt F) → (⟨S1700000x1, .i32⟩ : BufTy).Contents (Elt F) → (⟨S1700000x8x8, .f32⟩ : BufTy).Contents (Elt F) → (⟨S100000x8x8, .f32⟩ : BufTy).Contents (Elt F)),
    reshape main_v54 main_v55 rfl shapeCasts_S100000x8x8_S100000x64 ]

/-- The buffers stage 4 writes. -/
abbrev ops4_W : List (Ref sig .tc) := [main_v49, main_v50, main_v51, main_cst_9, main_v52, main_v53, main_v54, main_v55]

set_option maxRecDepth 4096 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 4, from contents `V`. -/
def val4 (V : Valuation τ sig (Elt F)) : Valuation τ sig (Elt F) := after ops4 (val3 V)

/-- A buffer stage 4 does not write keeps its contents through it. -/
theorem val4_keep (V : Valuation τ sig (Elt F)) (r : Ref sig .tc) (h : r ∉ ops4_W) :
    val4 V (Proc.devRef .tc r) = val3 V (Proc.devRef .tc r) :=
  after_of_writes_sub ops4 _ ops4_writes h

/-- Stage 5. elu between the layers. -/
abbrev ops5 : List (HloOp τ sig (Elt F)) :=
  [ nullary main_call1_cst (constant S_ .f32 0x00000000#32),
    unary main_call1_cst main_call1_v0 ((broadcastInDim S100000x64 ![] bcast_S_S100000x64) : (⟨S_, .f32⟩ : BufTy).Contents (Elt F) → (⟨S100000x64, .f32⟩ : BufTy).Contents (Elt F)),
    binary main_v55 main_call1_v0 main_call1_v1 ((cmpf .ogt) : (⟨S100000x64, .f32⟩ : BufTy).Contents (Elt F) → (⟨S100000x64, .f32⟩ : BufTy).Contents (Elt F) → (⟨S100000x64, .i1⟩ : BufTy).Contents (Elt F)),
    nullary main_call1_cst_0 (constant S_ .f32 0x00000000#32),
    unary main_call1_cst_0 main_call1_v2 ((broadcastInDim S100000x64 ![] bcast_S_S100000x64) : (⟨S_, .f32⟩ : BufTy).Contents (Elt F) → (⟨S100000x64, .f32⟩ : BufTy).Contents (Elt F)),
    binary main_v55 main_call1_v2 main_call1_v3 ((cmpf .ogt) : (⟨S100000x64, .f32⟩ : BufTy).Contents (Elt F) → (⟨S100000x64, .f32⟩ : BufTy).Contents (Elt F) → (⟨S100000x64, .i1⟩ : BufTy).Contents (Elt F)),
    nullary main_call1_cst_1 (constant S_ .f32 0x00000000#32),
    unary main_call1_cst_1 main_call1_call0_v0 (id : (⟨S_, .f32⟩ : BufTy).Contents (Elt F) → (⟨S_, .f32⟩ : BufTy).Contents (Elt F)),
    unary main_call1_call0_v0 main_call1_call0_v1 ((broadcastInDim S100000x64 ![] bcast_S_S100000x64) : (⟨S_, .f32⟩ : BufTy).Contents (Elt F) → (⟨S100000x64, .f32⟩ : BufTy).Contents (Elt F)),
    ternary main_call1_v3 main_call1_call0_v1 main_v55 main_call1_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    unary main_call1_v4 main_call1_v5 (Host.expm1 : (⟨S100000x64, .f32⟩ : BufTy).Contents (Elt F) → (⟨S100000x64, .f32⟩ : BufTy).Contents (Elt F)),
    nullary main_call1_cst_2 (constant S_ .f32 0x3F800000#32),
    unary main_call1_cst_2 main_call1_v6 ((broadcastInDim S100000x64 ![] bcast_S_S100000x64) : (⟨S_, .f32⟩ : BufTy).Contents (Elt F) → (⟨S100000x64, .f32⟩ : BufTy).Contents (Elt F)),
    binary main_call1_v6 main_call1_v5 main_call1_v7 (mulf : (⟨S100000x64, .f32⟩ : BufTy).Contents (Elt F) → (⟨S100000x64, .f32⟩ : BufTy).Contents (Elt F) → (⟨S100000x64, .f32⟩ : BufTy).Contents (Elt F)),
    ternary main_call1_v1 main_v55 main_call1_v7 main_v56 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- The buffers stage 5 writes. -/
abbrev ops5_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v56]

set_option maxRecDepth 4096 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 5, from contents `V`. -/
def val5 (V : Valuation τ sig (Elt F)) : Valuation τ sig (Elt F) := after ops5 (val4 V)

/-- A buffer stage 5 does not write keeps its contents through it. -/
theorem val5_keep (V : Valuation τ sig (Elt F)) (r : Ref sig .tc) (h : r ∉ ops5_W) :
    val5 V (Proc.devRef .tc r) = val4 V (Proc.devRef .tc r) :=
  after_of_writes_sub ops5 _ ops5_writes h

/-- Stage 6. Layer 2's features: the product with the second weight matrix, viewed [N, 1, 40]. -/
abbrev ops6 : List (HloOp τ sig (Elt F)) :=
  [ binary main_v56 main_arg4 main_v57 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    reshape main_v57 main_v58 rfl shapeCasts_S100000x40_S100000x1x40 ]

/-- The buffers stage 6 writes. -/
abbrev ops6_W : List (Ref sig .tc) := [main_v57, main_v58]

set_option maxRecDepth 4096 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 6, from contents `V`. -/
def val6 (V : Valuation τ sig (Elt F)) : Valuation τ sig (Elt F) := after ops6 (val5 V)

/-- A buffer stage 6 does not write keeps its contents through it. -/
theorem val6_keep (V : Valuation τ sig (Elt F)) (r : Ref sig .tc) (h : r ∉ ops6_W) :
    val6 V (Proc.devRef .tc r) = val5 V (Proc.devRef .tc r) :=
  after_of_writes_sub ops6 _ ops6_writes h

/-- Stage 7. Layer 2's attention logits. -/
abbrev ops7 : List (HloOp τ sig (Elt F)) :=
  [ nullary main_c_10 (constantI S_ 32 0#32),
    unary main_c_10 main_v59 (broadcastInDim S1700000 ![] bcast_S_S1700000 : (⟨S_, .i32⟩ : BufTy).Contents (Elt F) → (⟨S1700000, .i32⟩ : BufTy).Contents (Elt F)),
    binary main_v6 main_v59 main_v60 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v61 (broadcastInDim S1700000 ![] bcast_S_S1700000 : (⟨S_, .i32⟩ : BufTy).Contents (Elt F) → (⟨S1700000, .i32⟩ : BufTy).Contents (Elt F)),
    binary main_v6 main_v61 main_v62 (addi : (⟨S1700000, .i32⟩ : BufTy).Contents (Elt F) → (⟨S1700000, .i32⟩ : BufTy).Contents (Elt F) → (⟨S1700000, .i32⟩ : BufTy).Contents (Elt F)),
    ternary main_v60 main_v62 main_v6 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v63 main_v64 (broadcastInDim S1700000x1 ![0] bcast_S1700000_S1700000x1_0 : (⟨S1700000, .i32⟩ : BufTy).Contents (Elt F) → (⟨S1700000x1, .i32⟩ : BufTy).Contents (Elt F)),
    binary main_v58 main_v64 main_v65 ((fun x i => Host.gather gather_S100000x1x40_S1700000x1_S1700000x1x40_12_0_n_n_0_1_1140 x i) : (⟨S100000x1x40, .f32⟩ : BufTy).Contents (Elt F) → (⟨S1700000x1, .i32⟩ : BufTy).Contents (Elt F) → (⟨S1700000x1x40, .f32⟩ : BufTy).Contents (Elt F)),
    nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v58 main_v71 main_v72 ((fun x i => Host.gather gather_S100000x1x40_S1700000x1_S1700000x1x40_12_0_n_n_0_1_1140 x i) : (⟨S100000x1x40, .f32⟩ : BufTy).Contents (Elt F) → (⟨S1700000x1, .i32⟩ : BufTy).Contents (Elt F) → (⟨S1700000x1x40, .f32⟩ : BufTy).Contents (Elt F)),
    unary main_arg5 main_v73 ((extractStridedSlice S1x1x40 ![0, 0, 0] · slices_S1x1x80_S1x1x40_0_0_0) : (⟨S1x1x80, .f32⟩ : BufTy).Contents (Elt F) → (⟨S1x1x40, .f32⟩ : BufTy).Contents (Elt F)),
    unary main_arg5 main_v74 ((extractStridedSlice S1x1x40 ![0, 0, 40] · slices_S1x1x80_S1x1x40_0_0_40) : (⟨S1x1x80, .f32⟩ : BufTy).Contents (Elt F) → (⟨S1x1x40, .f32⟩ : BufTy).Contents (Elt F)),
    unary main_v73 main_v75 (broadcastInDim S1700000x1x40 ![0, 1, 2] bcast_S1x1x40_S1700000x1x40_0_1_2 : (⟨S1x1x40, .f32⟩ : BufTy).Contents (Elt F) → (⟨S1700000x1x40, .f32⟩ : BufTy).Contents (Elt F)),
    binary main_v65 main_v75 main_v76 (mulf : (⟨S1700000x1x40, .f32⟩ : BufTy).Contents (Elt F) → (⟨S1700000x1x40, .f32⟩ : BufTy).Contents (Elt F) → (⟨S1700000x1x40, .f32⟩ : BufTy).Contents (Elt F)),
    nullary main_cst_14 (constant S_ .f32 0x00000000#32),
    binary main_v76 main_cst_14 main_v77 ((fun x v => Host.reduceAdd x v reducesTo_S1700000x1x40_S1700000x1_d2 h_S_) : (⟨S1700000x1x40, .f32⟩ : BufTy).Contents (Elt F) → (⟨S_, .f32⟩ : BufTy).Contents (Elt F) → (⟨S1700000x1, .f32⟩ : BufTy).Contents (Elt F)),
    unary main_v74 main_v78 (broadcastInDim S1700000x1x40 ![0, 1, 2] bcast_S1x1x40_S1700000x1x40_0_1_2 : (⟨S1x1x40, .f32⟩ : BufTy).Contents (Elt F) → (⟨S1700000x1x40, .f32⟩ : BufTy).Contents (Elt F)),
    binary main_v72 main_v78 main_v79 (mulf : (⟨S1700000x1x40, .f32⟩ : BufTy).Contents (Elt F) → (⟨S1700000x1x40, .f32⟩ : BufTy).Contents (Elt F) → (⟨S1700000x1x40, .f32⟩ : BufTy).Contents (Elt F)),
    nullary main_cst_15 (constant S_ .f32 0x00000000#32),
    binary main_v79 main_cst_15 main_v80 ((fun x v => Host.reduceAdd x v reducesTo_S1700000x1x40_S1700000x1_d2 h_S_) : (⟨S1700000x1x40, .f32⟩ : BufTy).Contents (Elt F) → (⟨S_, .f32⟩ : BufTy).Contents (Elt F) → (⟨S1700000x1, .f32⟩ : BufTy).Contents (Elt F)),
    binary main_v77 main_v80 main_v81 (addf : (⟨S1700000x1, .f32⟩ : BufTy).Contents (Elt F) → (⟨S1700000x1, .f32⟩ : BufTy).Contents (Elt F) → (⟨S1700000x1, .f32⟩ : BufTy).Contents (Elt F)) ]

/-- The buffers stage 7 writes. -/
abbrev ops7_W : List (Ref sig .tc) := [main_c_10, main_v59, main_v60, main_c_11, main_v61, main_v62, main_v63, main_v64, main_v65, main_c_12, main_v66, main_v67, main_c_13, main_v68, main_v69, main_v70, main_v71, main_v72, main_v73, main_v74, main_v75, main_v76, main_cst_14, main_v77, main_v78, main_v79, main_cst_15, main_v80, main_v81]

set_option maxRecDepth 4096 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 7, from contents `V`. -/
def val7 (V : Valuation τ sig (Elt F)) : Valuation τ sig (Elt F) := after ops7 (val6 V)

/-- A buffer stage 7 does not write keeps its contents through it. -/
theorem val7_keep (V : Valuation τ sig (Elt F)) (r : Ref sig .tc) (h : r ∉ ops7_W) :
    val7 V (Proc.devRef .tc r) = val6 V (Proc.devRef .tc r) :=
  after_of_writes_sub ops7 _ ops7_writes h

/-- Stage 8. Layer 2's attention weights. -/
abbrev ops8 : List (HloOp τ sig (Elt F)) :=
  [ nullary main_cst_16 (constant S_ .f32 0x3E4CCCCD#32),
    nullary main_call2_cst (constant S_ .f32 0x00000000#32),
    unary main_call2_cst main_call2_v0 ((broadcastInDim S1700000x1 ![] bcast_S_S1700000x1) : (⟨S_, .f32⟩ : BufTy).Contents (Elt F) → (⟨S1700000x1, .f32⟩ : BufTy).Contents (Elt F)),
    binary main_v81 main_call2_v0 main_call2_v1 ((cmpf .oge) : (⟨S1700000x1, .f32⟩ : BufTy).Contents (Elt F) → (⟨S1700000x1, .f32⟩ : BufTy).Contents (Elt F) → (⟨S1700000x1, .i1⟩ : BufTy).Contents (Elt F)),
    unary main_cst_16 main_call2_v2 (id : (⟨S_, .f32⟩ : BufTy).Contents (Elt F) → (⟨S_, .f32⟩ : BufTy).Contents (Elt F)),
    unary main_call2_v2 main_call2_v3 ((broadcastInDim S1700000x1 ![] bcast_S_S1700000x1) : (⟨S_, .f32⟩ : BufTy).Contents (Elt F) → (⟨S1700000x1, .f32⟩ : BufTy).Contents (Elt F)),
    binary main_call2_v3 main_v81 main_call2_v4 (mulf : (⟨S1700000x1, .f32⟩ : BufTy).Contents (Elt F) → (⟨S1700000x1, .f32⟩ : BufTy).Contents (Elt F) → (⟨S1700000x1, .f32⟩ : BufTy).Contents (Elt F)),
    ternary main_call2_v1 main_v81 main_call2_v4 main_v82 (select : (⟨S1700000x1, .i1⟩ : BufTy).Contents (Elt F) → (⟨S1700000x1, .f32⟩ : BufTy).Contents (Elt F) → (⟨S1700000x1, .f32⟩ : BufTy).Contents (Elt F) → (⟨S1700000x1, .f32⟩ : BufTy).Contents (Elt F)),
    nullary main_cst_17 (constant S_ .f32 0xFF800000#32),
    binary main_v82 main_cst_17 main_v83 ((fun x v => Host.reduce FloatOps.maximumf x v reducesTo_S1700000x1_S1700000_d1 h_S_) : (⟨S1700000x1, .f32⟩ : BufTy).Contents (Elt F) → (⟨S_, .f32⟩ : BufTy).Contents (Elt F) → (⟨S1700000, .f32⟩ : BufTy).Contents (Elt F)),
    unary main_v83 main_v84 (broadcastInDim S1700000x1 ![0] bcast_S1700000_S1700000x1_0 : (⟨S1700000, .f32⟩ : BufTy).Contents (Elt F) → (⟨S1700000x1, .f32⟩ : BufTy).Contents (Elt F)),
    binary main_v82 main_v84 main_v85 (subf : (⟨S1700000x1, .f32⟩ : BufTy).Contents (Elt F) → (⟨S1700000x1, .f32⟩ : BufTy).Contents (Elt F) → (⟨S1700000x1, .f32⟩ : BufTy).Contents (Elt F)),
    unary main_v85 main_v86 (Host.exp : (⟨S1700000x1, .f32⟩ : BufTy).Contents (Elt F) → (⟨S1700000x1, .f32⟩ : BufTy).Contents (Elt F)),
    nullary main_cst_18 (constant S_ .f32 0x00000000#32),
    unary main_cst_18 main_v87 (broadcastInDim S100000x1 ![] bcast_S_S100000x1 : (⟨S_, .f32⟩ : BufTy).Contents (Elt F) → (⟨S100000x1, .f32⟩ : BufTy).Contents (Elt F)),
    unary main_v6 main_v88 (broadcastInDim S1700000x1 ![0] bcast_S1700000_S1700000x1_0 : (⟨S1700000, .i32⟩ : BufTy).Contents (Elt F) → (⟨S1700000x1, .i32⟩ : BufTy).Contents (Elt F)),
    ternary main_v87 main_v88 main_v86 main_v89 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    nullary main_c_19 (constantI S_ 32 0#32),
    unary main_c_19 main_v90 (broadcastInDim S1700000 ![] bcast_S_S1700000 : (⟨S_, .i32⟩ : BufTy).Contents (Elt F) → (⟨S1700000, .i32⟩ : BufTy).Contents (Elt F)),
    binary main_v6 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v92 (broadcastInDim S1700000 ![] bcast_S_S1700000 : (⟨S_, .i32⟩ : BufTy).Contents (Elt F) → (⟨S1700000, .i32⟩ : BufTy).Contents (Elt F)),
    binary main_v6 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v6 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v89 main_v95 main_v96 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    binary main_v86 main_v96 main_v97 (Host.divf : (⟨S1700000x1, .f32⟩ : BufTy).Contents (Elt F) → (⟨S1700000x1, .f32⟩ : BufTy).Contents (Elt F) → (⟨S1700000x1, .f32⟩ : BufTy).Contents (Elt F)) ]

/-- The buffers stage 8 writes. -/
abbrev ops8_W : List (Ref sig .tc) := [main_cst_16, main_call2_cst, main_call2_v0, main_call2_v1, main_call2_v2, main_call2_v3, main_call2_v4, main_v82, main_cst_17, main_v83, main_v84, main_v85, main_v86, main_cst_18, main_v87, main_v88, main_v89, main_c_19, main_v90, main_v91, main_c_20, main_v92, main_v93, main_v94, main_v95, main_v96, main_v97]

set_option maxRecDepth 4096 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 8, from contents `V`. -/
def val8 (V : Valuation τ sig (Elt F)) : Valuation τ sig (Elt F) := after ops8 (val7 V)

/-- A buffer stage 8 does not write keeps its contents through it. -/
theorem val8_keep (V : Valuation τ sig (Elt F)) (r : Ref sig .tc) (h : r ∉ ops8_W) :
    val8 V (Proc.devRef .tc r) = val7 V (Proc.devRef .tc r) :=
  after_of_writes_sub ops8 _ ops8_writes h

/-- Stage 9. Layer 2's aggregation, summed over the unit head axis and divided by the number of heads. -/
abbrev ops9 : List (HloOp τ sig (Elt F)) :=
  [ unary main_v97 main_v98 (broadcastInDim S1700000x1x1 ![0, 1] bcast_S1700000x1_S1700000x1x1_0_1 : (⟨S1700000x1, .f32⟩ : BufTy).Contents (Elt F) → (⟨S1700000x1x1, .f32⟩ : BufTy).Contents (Elt F)),
    unary main_v98 main_v99 (broadcastInDim S1700000x1x40 ![0, 1, 2] bcast_S1700000x1x1_S1700000x1x40_0_1_2 : (⟨S1700000x1x1, .f32⟩ : BufTy).Contents (Elt F) → (⟨S1700000x1x40, .f32⟩ : BufTy).Contents (Elt F)),
    binary main_v72 main_v99 main_v100 (mulf : (⟨S1700000x1x40, .f32⟩ : BufTy).Contents (Elt F) → (⟨S1700000x1x40, .f32⟩ : BufTy).Contents (Elt F) → (⟨S1700000x1x40, .f32⟩ : BufTy).Contents (Elt F)),
    nullary main_cst_21 (constant S_ .f32 0x00000000#32),
    unary main_cst_21 main_v101 (broadcastInDim S100000x1x40 ![] bcast_S_S100000x1x40 : (⟨S_, .f32⟩ : BufTy).Contents (Elt F) → (⟨S100000x1x40, .f32⟩ : BufTy).Contents (Elt F)),
    unary main_v6 main_v102 (broadcastInDim S1700000x1 ![0] bcast_S1700000_S1700000x1_0 : (⟨S1700000, .i32⟩ : BufTy).Contents (Elt F) → (⟨S1700000x1, .i32⟩ : BufTy).Contents (Elt F)),
    ternary main_v101 main_v102 main_v100 main_v103 ((fun x i u => Host.scatterAdd scatter_S100000x1x40_S1700000x1_S1700000x1x40_12_0_0_1 x i u) : (⟨S100000x1x40, .f32⟩ : BufTy).Contents (Elt F) → (⟨S1700000x1, .i32⟩ : BufTy).Contents (Elt F) → (⟨S1700000x1x40, .f32⟩ : BufTy).Contents (Elt F) → (⟨S100000x1x40, .f32⟩ : BufTy).Contents (Elt F)),
    nullary main_cst_22 (constant S_ .f32 0x00000000#32),
    binary main_v103 main_cst_22 main_v104 ((fun x v => Host.reduceAdd x v reducesTo_S100000x1x40_S100000x40_d1 h_S_) : (⟨S100000x1x40, .f32⟩ : BufTy).Contents (Elt F) → (⟨S_, .f32⟩ : BufTy).Contents (Elt F) → (⟨S100000x40, .f32⟩ : BufTy).Contents (Elt F)),
    nullary main_cst_23 (constant S_ .f32 0x3F800000#32),
    unary main_cst_23 main_v105 (broadcastInDim S100000x40 ![] bcast_S_S100000x40 : (⟨S_, .f32⟩ : BufTy).Contents (Elt F) → (⟨S100000x40, .f32⟩ : BufTy).Contents (Elt F)),
    binary main_v104 main_v105 main_v106 (Host.divf : (⟨S100000x40, .f32⟩ : BufTy).Contents (Elt F) → (⟨S100000x40, .f32⟩ : BufTy).Contents (Elt F) → (⟨S100000x40, .f32⟩ : BufTy).Contents (Elt F)) ]

/-- The buffers stage 9 writes. -/
abbrev ops9_W : List (Ref sig .tc) := [main_v98, main_v99, main_v100, main_cst_21, main_v101, main_v102, main_v103, main_cst_22, main_v104, main_cst_23, main_v105, main_v106]

set_option maxRecDepth 4096 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 9, from contents `V`. -/
def val9 (V : Valuation τ sig (Elt F)) : Valuation τ sig (Elt F) := after ops9 (val8 V)

/-- A buffer stage 9 does not write keeps its contents through it. -/
theorem val9_keep (V : Valuation τ sig (Elt F)) (r : Ref sig .tc) (h : r ∉ ops9_W) :
    val9 V (Proc.devRef .tc r) = val8 V (Proc.devRef .tc r) :=
  after_of_writes_sub ops9 _ ops9_writes h

/-- Stage 10. The row-wise log-softmax. -/
abbrev ops10 : List (HloOp τ sig (Elt F)) :=
  [ nullary main_call3_cst (constant S_ .f32 0xFF800000#32),
    binary main_v106 main_call3_cst main_call3_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call3_cst_0 (constant S_ .f32 0xFF800000#32),
    unary main_call3_cst_0 main_call3_v1 ((broadcastInDim S100000 ![] bcast_S_S100000) : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 ((broadcastInDim S100000x1 ![0] bcast_S100000_S100000x1_0) : (⟨S100000, .f32⟩ : BufTy).Contents (Elt F) → (⟨S100000x1, .f32⟩ : BufTy).Contents (Elt F)),
    unary main_call3_v3 main_call3_v4 ((broadcastInDim S100000x40 ![0, 1] bcast_S100000x1_S100000x40_0_1) : (⟨S100000x1, .f32⟩ : BufTy).Contents (Elt F) → (⟨S100000x40, .f32⟩ : BufTy).Contents (Elt F)),
    binary main_v106 main_call3_v4 main_call3_v5 (subf : (⟨S100000x40, .f32⟩ : BufTy).Contents (Elt F) → (⟨S100000x40, .f32⟩ : BufTy).Contents (Elt F) → (⟨S100000x40, .f32⟩ : BufTy).Contents (Elt F)),
    unary main_call3_v5 main_call3_v6 (Host.exp : (⟨S100000x40, .f32⟩ : BufTy).Contents (Elt F) → (⟨S100000x40, .f32⟩ : BufTy).Contents (Elt F)),
    nullary main_call3_cst_1 (constant S_ .f32 0x00000000#32),
    binary main_call3_v6 main_call3_cst_1 main_call3_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call3_v7 main_call3_v8 ((broadcastInDim S100000x1 ![0] bcast_S100000_S100000x1_0) : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 ((broadcastInDim S100000x40 ![0, 1] bcast_S100000x1_S100000x40_0_1) : (⟨S100000x1, .f32⟩ : BufTy).Contents (Elt F) → (⟨S100000x40, .f32⟩ : BufTy).Contents (Elt F)),
    binary main_call3_v5 main_call3_v10 main_v107 (subf : (⟨S100000x40, .f32⟩ : BufTy).Contents (Elt F) → (⟨S100000x40, .f32⟩ : BufTy).Contents (Elt F) → (⟨S100000x40, .f32⟩ : BufTy).Contents (Elt F)) ]

/-- The buffers stage 10 writes. -/
abbrev ops10_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v107]

set_option maxRecDepth 4096 in
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- All buffers' contents after stages 0 … 10, from contents `V`. -/
def val10 (V : Valuation τ sig (Elt F)) : Valuation τ sig (Elt F) := after ops10 (val9 V)

/-- A buffer stage 10 does not write keeps its contents through it. -/
theorem val10_keep (V : Valuation τ sig (Elt F)) (r : Ref sig .tc) (h : r ∉ ops10_W) :
    val10 V (Proc.devRef .tc r) = val9 V (Proc.devRef .tc r) :=
  after_of_writes_sub ops10 _ ops10_writes h

end Cert.ReferenceIdeal.RefRun

end
-- ==== Proof.LibTypedRef.lean ====
/-
  An inlined call's operations are the plain ones, no program in sight.

  A called function's host operations name their buffers by references that CARRY the tensor type of the value they hold,
  and move the operation's function to the buffers' own types along the equation "the buffer's type is the carried
  type". When that equation is the identity — which it is at every literal reference — the typed operation IS the plain
  builder's at the same buffers with the same function. The proof destructures each typed reference so that the carried
  type becomes, literally, the buffer's type: the transports are then along reflexivity and disappear. The function is
  given twice, at the two spellings of its type (over the carried types, over the buffers' types), and the two are
  related by heterogeneous equality; at literal references that relation is reflexivity, because the two types compute
  to the same one.

  Why bother: a fold of many operations read at a buffer contains one transport per typed operand, and comparing such a
  term with a transport-free one makes the checker recompute a buffer's type from the signature's tables at every
  transport, nested. Entry by entry the same facts cost one such computation per operand. So a list of operations is
  first rewritten, entry by entry, to its plain spelling (the tactic at the end), and only then folded.
-/
import Idealize.ShloMosaic.Lib.StableHlo

namespace Cert.LibTypedRef

open Idealize.ShloMosaic Idealize.ShloMosaic.StableHlo

variable {τ : Topo} {sig : RefSig} {Val : EltTy → Type} {Tx Ta Tb Tc Ty : BufTy}

/-- A typed constant-like operation is the plain one at its buffer, for the same value. -/
theorem tnullary_eq (y : TRef sig Ty) (v : Ty.Contents Val) (w : y.ref.ty.Contents Val) (h : HEq v w) :
    (TRef.nullary y v : HloOp τ sig Val) = StableHlo.nullary y.ref w y.dev := by
  obtain ⟨y, rfl, _, _⟩ := y
  cases h; rfl

/-- A typed one-operand operation is the plain one at its buffers, for the same function. -/
theorem tunary_eq (x : TRef sig Tx) (y : TRef sig Ty) (f : Tx.Contents Val → Ty.Contents Val)
    (g : x.ref.ty.Contents Val → y.ref.ty.Contents Val) (h : HEq f g) :
    (TRef.unary x y f : HloOp τ sig Val) = StableHlo.unary x.ref y.ref g x.dev y.dev := by
  obtain ⟨x, rfl, _, _⟩ := x
  obtain ⟨y, rfl, _, _⟩ := y
  cases h; rfl

/-- A typed two-operand operation is the plain one at its buffers, for the same function. -/
theorem tbinary_eq (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    (TRef.binary a b y f : HloOp τ sig Val) = StableHlo.binary a.ref b.ref y.ref g a.dev b.dev y.dev := by
  obtain ⟨a, rfl, _, _⟩ := a
  obtain ⟨b, rfl, _, _⟩ := b
  obtain ⟨y, rfl, _, _⟩ := y
  cases h; rfl

/-- A typed three-operand operation is the plain one at its buffers, for the same function. -/
theorem tternary_eq (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    (TRef.ternary c a b y f : HloOp τ sig Val)
      = StableHlo.ternary c.ref a.ref b.ref y.ref g c.dev a.dev b.dev y.dev := by
  obtain ⟨c, rfl, _, _⟩ := c
  obtain ⟨a, rfl, _, _⟩ := a
  obtain ⟨b, rfl, _, _⟩ := b
  obtain ⟨y, rfl, _, _⟩ := y
  cases h; rfl

/-- Two literal lists of operations are equal entry by entry: an entry spelt the same on both sides by reflexivity
    (at reducible transparency, so that a typed entry is never compared with a plain one by computation), a typed
    operation against its plain spelling by the four lemmas above. Closes `[e₁, …, eₙ] = [p₁, …, pₙ]`. -/
macro "ops_entries" : tactic =>
  `(tactic| repeat (first
      | refine congrArg₂ List.cons (by first
          | with_reducible rfl
          | exact Cert.LibTypedRef.tnullary_eq _ _ _ HEq.rfl
          | exact Cert.LibTypedRef.tunary_eq _ _ _ _ HEq.rfl
          | exact Cert.LibTypedRef.tbinary_eq _ _ _ _ _ HEq.rfl
          | exact Cert.LibTypedRef.tternary_eq _ _ _ _ _ _ HEq.rfl) ?_
      | exact rfl))

end Cert.LibTypedRef
-- ==== Proof.RefMain.lean ====
/-
  The reference program as ONE straight line of host operations, and that line cut into its stages.

  Replacing each call by the callee's operations at the call's own buffers (a callee's value lives in the buffer the
  call's record names for it; a returned value in the buffer of the result it becomes) turns the program into a line of
  174 operations.  `main_eq`: the program is that line.  `ops_split`: the line is the eleven stage lists in a row, each
  operation of a callee being the plain operation at its buffers with the same function.
-/
import proofs.«160089_j1881195675933_1_alg».proof.Proof.RefOps
import proofs.«160089_j1881195675933_1_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 174 operations, in order, each callee's at its call's buffers. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    reshape main_v7 main_v8 rfl shapeCasts_S100000x64_S100000x8x8,
    nullary main_c (constantI S_ 32 0#32),
    unary main_c main_v9 (broadcastInDim S1700000 ![] bcast_S_S1700000 : (⟨S_, .i32⟩ : BufTy).Contents (Elt F) → (⟨S1700000, .i32⟩ : BufTy).Contents (Elt F)),
    binary main_v6 main_v9 main_v10 (cmpi .slt : (⟨S1700000, .i32⟩ : BufTy).Contents (Elt F) → (⟨S1700000, .i32⟩ : BufTy).Contents (Elt F) → (⟨S1700000, .i1⟩ : BufTy).Contents (Elt F)),
    nullary main_c_0 (constantI S_ 32 100000#32),
    unary main_c_0 main_v11 (broadcastInDim S1700000 ![] bcast_S_S1700000 : (⟨S_, .i32⟩ : BufTy).Contents (Elt F) → (⟨S1700000, .i32⟩ : BufTy).Contents (Elt F)),
    binary main_v6 main_v11 main_v12 (addi : (⟨S1700000, .i32⟩ : BufTy).Contents (Elt F) → (⟨S1700000, .i32⟩ : BufTy).Contents (Elt F) → (⟨S1700000, .i32⟩ : BufTy).Contents (Elt F)),
    ternary main_v10 main_v12 main_v6 main_v13 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v13 main_v14 (broadcastInDim S1700000x1 ![0] bcast_S1700000_S1700000x1_0 : (⟨S1700000, .i32⟩ : BufTy).Contents (Elt F) → (⟨S1700000x1, .i32⟩ : BufTy).Contents (Elt F)),
    binary main_v8 main_v14 main_v15 ((fun x i => Host.gather gather_S100000x8x8_S1700000x1_S1700000x8x8_12_0_n_n_0_1_188 x i) : (⟨S100000x8x8, .f32⟩ : BufTy).Contents (Elt F) → (⟨S1700000x1, .i32⟩ : BufTy).Contents (Elt F) → (⟨S1700000x8x8, .f32⟩ : BufTy).Contents (Elt F)),
    nullary main_c_1 (constantI S_ 32 0#32),
    unary main_c_1 main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v8 main_v21 main_v22 ((fun x i => Host.gather gather_S100000x8x8_S1700000x1_S1700000x8x8_12_0_n_n_0_1_188 x i) : (⟨S100000x8x8, .f32⟩ : BufTy).Contents (Elt F) → (⟨S1700000x1, .i32⟩ : BufTy).Contents (Elt F) → (⟨S1700000x8x8, .f32⟩ : BufTy).Contents (Elt F)),
    unary main_arg3 main_v23 ((extractStridedSlice S1x8x8 ![0, 0, 0] · slices_S1x8x16_S1x8x8_0_0_0) : (⟨S1x8x16, .f32⟩ : BufTy).Contents (Elt F) → (⟨S1x8x8, .f32⟩ : BufTy).Contents (Elt F)),
    unary main_arg3 main_v24 ((extractStridedSlice S1x8x8 ![0, 0, 8] · slices_S1x8x16_S1x8x8_0_0_8) : (⟨S1x8x16, .f32⟩ : BufTy).Contents (Elt F) → (⟨S1x8x8, .f32⟩ : BufTy).Contents (Elt F)),
    unary main_v23 main_v25 (broadcastInDim S1700000x8x8 ![0, 1, 2] bcast_S1x8x8_S1700000x8x8_0_1_2 : (⟨S1x8x8, .f32⟩ : BufTy).Contents (Elt F) → (⟨S1700000x8x8, .f32⟩ : BufTy).Contents (Elt F)),
    binary main_v15 main_v25 main_v26 (mulf : (⟨S1700000x8x8, .f32⟩ : BufTy).Contents (Elt F) → (⟨S1700000x8x8, .f32⟩ : BufTy).Contents (Elt F) → (⟨S1700000x8x8, .f32⟩ : BufTy).Contents (Elt F)),
    nullary main_cst (constant S_ .f32 0x00000000#32),
    binary main_v26 main_cst main_v27 ((fun x v => Host.reduceAdd x v reducesTo_S1700000x8x8_S1700000x8_d2 h_S_) : (⟨S1700000x8x8, .f32⟩ : BufTy).Contents (Elt F) → (⟨S_, .f32⟩ : BufTy).Contents (Elt F) → (⟨S1700000x8, .f32⟩ : BufTy).Contents (Elt F)),
    unary main_v24 main_v28 (broadcastInDim S1700000x8x8 ![0, 1, 2] bcast_S1x8x8_S1700000x8x8_0_1_2 : (⟨S1x8x8, .f32⟩ : BufTy).Contents (Elt F) → (⟨S1700000x8x8, .f32⟩ : BufTy).Contents (Elt F)),
    binary main_v22 main_v28 main_v29 (mulf : (⟨S1700000x8x8, .f32⟩ : BufTy).Contents (Elt F) → (⟨S1700000x8x8, .f32⟩ : BufTy).Contents (Elt F) → (⟨S1700000x8x8, .f32⟩ : BufTy).Contents (Elt F)),
    nullary main_cst_3 (constant S_ .f32 0x00000000#32),
    binary main_v29 main_cst_3 main_v30 ((fun x v => Host.reduceAdd x v reducesTo_S1700000x8x8_S1700000x8_d2 h_S_) : (⟨S1700000x8x8, .f32⟩ : BufTy).Contents (Elt F) → (⟨S_, .f32⟩ : BufTy).Contents (Elt F) → (⟨S1700000x8, .f32⟩ : BufTy).Contents (Elt F)),
    binary main_v27 main_v30 main_v31 (addf : (⟨S1700000x8, .f32⟩ : BufTy).Contents (Elt F) → (⟨S1700000x8, .f32⟩ : BufTy).Contents (Elt F) → (⟨S1700000x8, .f32⟩ : BufTy).Contents (Elt F)),
    nullary main_cst_4 (constant S_ .f32 0x3E4CCCCD#32),
    TRef.nullary main_call0.cst (constant S_ .f32 0x00000000#32),
    TRef.unary main_call0.cst main_call0.v0 ((broadcastInDim S1700000x8 ![] bcast_S_S1700000x8) : (⟨S_, .f32⟩ : BufTy).Contents (Elt F) → (⟨S1700000x8, .f32⟩ : BufTy).Contents (Elt F)),
    TRef.binary (.of main_v31 : TRef sig ⟨S1700000x8, .f32⟩) main_call0.v0 main_call0.v1 ((cmpf .oge) : (⟨S1700000x8, .f32⟩ : BufTy).Contents (Elt F) → (⟨S1700000x8, .f32⟩ : BufTy).Contents (Elt F) → (⟨S1700000x8, .i1⟩ : BufTy).Contents (Elt F)),
    TRef.unary (.of main_cst_4 : TRef sig ⟨S_, .f32⟩) main_call0.v2 (id : (⟨S_, .f32⟩ : BufTy).Contents (Elt F) → (⟨S_, .f32⟩ : BufTy).Contents (Elt F)),
    TRef.unary main_call0.v2 main_call0.v3 ((broadcastInDim S1700000x8 ![] bcast_S_S1700000x8) : (⟨S_, .f32⟩ : BufTy).Contents (Elt F) → (⟨S1700000x8, .f32⟩ : BufTy).Contents (Elt F)),
    TRef.binary main_call0.v3 (.of main_v31 : TRef sig ⟨S1700000x8, .f32⟩) main_call0.v4 (mulf : (⟨S1700000x8, .f32⟩ : BufTy).Contents (Elt F) → (⟨S1700000x8, .f32⟩ : BufTy).Contents (Elt F) → (⟨S1700000x8, .f32⟩ : BufTy).Contents (Elt F)),
    TRef.ternary main_call0.v1 (.of main_v31 : TRef sig ⟨S1700000x8, .f32⟩) main_call0.v4 main_call0.call0.v0 (select : (⟨S1700000x8, .i1⟩ : BufTy).Contents (Elt F) → (⟨S1700000x8, .f32⟩ : BufTy).Contents (Elt F) → (⟨S1700000x8, .f32⟩ : BufTy).Contents (Elt F) → (⟨S1700000x8, .f32⟩ : BufTy).Contents (Elt F)),
    nullary main_cst_5 (constant S_ .f32 0xFF800000#32),
    binary main_v32 main_cst_5 main_v33 ((fun x v => Host.reduce FloatOps.maximumf x v reducesTo_S1700000x8_S1700000_d1 h_S_) : (⟨S1700000x8, .f32⟩ : BufTy).Contents (Elt F) → (⟨S_, .f32⟩ : BufTy).Contents (Elt F) → (⟨S1700000, .f32⟩ : BufTy).Contents (Elt F)),
    unary main_v33 main_v34 (broadcastInDim S1700000x1 ![0] bcast_S1700000_S1700000x1_0 : (⟨S1700000, .f32⟩ : BufTy).Contents (Elt F) → (⟨S1700000x1, .f32⟩ : BufTy).Contents (Elt F)),
    unary main_v34 main_v35 (broadcastInDim S1700000x8 ![0, 1] bcast_S1700000x1_S1700000x8_0_1 : (⟨S1700000x1, .f32⟩ : BufTy).Contents (Elt F) → (⟨S1700000x8, .f32⟩ : BufTy).Contents (Elt F)),
    binary main_v32 main_v35 main_v36 (subf : (⟨S1700000x8, .f32⟩ : BufTy).Contents (Elt F) → (⟨S1700000x8, .f32⟩ : BufTy).Contents (Elt F) → (⟨S1700000x8, .f32⟩ : BufTy).Contents (Elt F)),
    unary main_v36 main_v37 (Host.exp : (⟨S1700000x8, .f32⟩ : BufTy).Contents (Elt F) → (⟨S1700000x8, .f32⟩ : BufTy).Contents (Elt F)),
    nullary main_cst_6 (constant S_ .f32 0x00000000#32),
    unary main_cst_6 main_v38 (broadcastInDim S100000x8 ![] bcast_S_S100000x8 : (⟨S_, .f32⟩ : BufTy).Contents (Elt F) → (⟨S100000x8, .f32⟩ : BufTy).Contents (Elt F)),
    unary main_v6 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x8_S1700000x1_S1700000x8_1_0_0_1 x i u) : (⟨S100000x8, .f32⟩ : BufTy).Contents (Elt F) → (⟨S1700000x1, .i32⟩ : BufTy).Contents (Elt F) → (⟨S1700000x8, .f32⟩ : BufTy).Contents (Elt F) → (⟨S100000x8, .f32⟩ : BufTy).Contents (Elt F)),
    nullary main_c_7 (constantI S_ 32 0#32),
    unary main_c_7 main_v41 (broadcastInDim S1700000 ![] bcast_S_S1700000 : (⟨S_, .i32⟩ : BufTy).Contents (Elt F) → (⟨S1700000, .i32⟩ : BufTy).Contents (Elt F)),
    binary main_v6 main_v41 main_v42 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v43 (broadcastInDim S1700000 ![] bcast_S_S1700000 : (⟨S_, .i32⟩ : BufTy).Contents (Elt F) → (⟨S1700000, .i32⟩ : BufTy).Contents (Elt F)),
    binary main_v6 main_v43 main_v44 (addi : (⟨S1700000, .i32⟩ : BufTy).Contents (Elt F) → (⟨S1700000, .i32⟩ : BufTy).Contents (Elt F) → (⟨S1700000, .i32⟩ : BufTy).Contents (Elt F)),
    ternary main_v42 main_v44 main_v6 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v45 main_v46 (broadcastInDim S1700000x1 ![0] bcast_S1700000_S1700000x1_0 : (⟨S1700000, .i32⟩ : BufTy).Contents (Elt F) → (⟨S1700000x1, .i32⟩ : BufTy).Contents (Elt F)),
    binary main_v40 main_v46 main_v47 ((fun x i => Host.gather gather_S100000x8_S1700000x1_S1700000x8_1_0_n_n_0_1_18 x i) : (⟨S100000x8, .f32⟩ : BufTy).Contents (Elt F) → (⟨S1700000x1, .i32⟩ : BufTy).Contents (Elt F) → (⟨S1700000x8, .f32⟩ : BufTy).Contents (Elt F)),
    binary main_v37 main_v47 main_v48 (Host.divf : (⟨S1700000x8, .f32⟩ : BufTy).Contents (Elt F) → (⟨S1700000x8, .f32⟩ : BufTy).Contents (Elt F) → (⟨S1700000x8, .f32⟩ : BufTy).Contents (Elt F)),
    unary main_v48 main_v49 (broadcastInDim S1700000x8x1 ![0, 1] bcast_S1700000x8_S1700000x8x1_0_1 : (⟨S1700000x8, .f32⟩ : BufTy).Contents (Elt F) → (⟨S1700000x8x1, .f32⟩ : BufTy).Contents (Elt F)),
    unary main_v49 main_v50 (broadcastInDim S1700000x8x8 ![0, 1, 2] bcast_S1700000x8x1_S1700000x8x8_0_1_2 : (⟨S1700000x8x1, .f32⟩ : BufTy).Contents (Elt F) → (⟨S1700000x8x8, .f32⟩ : BufTy).Contents (Elt F)),
    binary main_v22 main_v50 main_v51 (mulf : (⟨S1700000x8x8, .f32⟩ : BufTy).Contents (Elt F) → (⟨S1700000x8x8, .f32⟩ : BufTy).Contents (Elt F) → (⟨S1700000x8x8, .f32⟩ : BufTy).Contents (Elt F)),
    nullary main_cst_9 (constant S_ .f32 0x00000000#32),
    unary main_cst_9 main_v52 (broadcastInDim S100000x8x8 ![] bcast_S_S100000x8x8 : (⟨S_, .f32⟩ : BufTy).Contents (Elt F) → (⟨S100000x8x8, .f32⟩ : BufTy).Contents (Elt F)),
    unary main_v6 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x8x8_S1700000x1_S1700000x8x8_12_0_0_1 x i u) : (⟨S100000x8x8, .f32⟩ : BufTy).Contents (Elt F) → (⟨S1700000x1, .i32⟩ : BufTy).Contents (Elt F) → (⟨S1700000x8x8, .f32⟩ : BufTy).Contents (Elt F) → (⟨S100000x8x8, .f32⟩ : BufTy).Contents (Elt F)),
    reshape main_v54 main_v55 rfl shapeCasts_S100000x8x8_S100000x64,
    TRef.nullary main_call1.cst (constant S_ .f32 0x00000000#32),
    TRef.unary main_call1.cst main_call1.v0 ((broadcastInDim S100000x64 ![] bcast_S_S100000x64) : (⟨S_, .f32⟩ : BufTy).Contents (Elt F) → (⟨S100000x64, .f32⟩ : BufTy).Contents (Elt F)),
    TRef.binary (.of main_v55 : TRef sig ⟨S100000x64, .f32⟩) main_call1.v0 main_call1.v1 ((cmpf .ogt) : (⟨S100000x64, .f32⟩ : BufTy).Contents (Elt F) → (⟨S100000x64, .f32⟩ : BufTy).Contents (Elt F) → (⟨S100000x64, .i1⟩ : BufTy).Contents (Elt F)),
    TRef.nullary main_call1.cst_0 (constant S_ .f32 0x00000000#32),
    TRef.unary main_call1.cst_0 main_call1.v2 ((broadcastInDim S100000x64 ![] bcast_S_S100000x64) : (⟨S_, .f32⟩ : BufTy).Contents (Elt F) → (⟨S100000x64, .f32⟩ : BufTy).Contents (Elt F)),
    TRef.binary (.of main_v55 : TRef sig ⟨S100000x64, .f32⟩) main_call1.v2 main_call1.v3 ((cmpf .ogt) : (⟨S100000x64, .f32⟩ : BufTy).Contents (Elt F) → (⟨S100000x64, .f32⟩ : BufTy).Contents (Elt F) → (⟨S100000x64, .i1⟩ : BufTy).Contents (Elt F)),
    TRef.nullary main_call1.cst_1 (constant S_ .f32 0x00000000#32),
    TRef.unary main_call1.cst_1 main_call1.call0.v0 (id : (⟨S_, .f32⟩ : BufTy).Contents (Elt F) → (⟨S_, .f32⟩ : BufTy).Contents (Elt F)),
    TRef.unary main_call1.call0.v0 main_call1.call0.v1 ((broadcastInDim S100000x64 ![] bcast_S_S100000x64) : (⟨S_, .f32⟩ : BufTy).Contents (Elt F) → (⟨S100000x64, .f32⟩ : BufTy).Contents (Elt F)),
    TRef.ternary main_call1.v3 main_call1.call0.v1 (.of main_v55 : TRef sig ⟨S100000x64, .f32⟩) main_call1.call0.v2 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    TRef.unary main_call1.call0.v2 main_call1.v5 (Host.expm1 : (⟨S100000x64, .f32⟩ : BufTy).Contents (Elt F) → (⟨S100000x64, .f32⟩ : BufTy).Contents (Elt F)),
    TRef.nullary main_call1.cst_2 (constant S_ .f32 0x3F800000#32),
    TRef.unary main_call1.cst_2 main_call1.v6 ((broadcastInDim S100000x64 ![] bcast_S_S100000x64) : (⟨S_, .f32⟩ : BufTy).Contents (Elt F) → (⟨S100000x64, .f32⟩ : BufTy).Contents (Elt F)),
    TRef.binary main_call1.v6 main_call1.v5 main_call1.v7 (mulf : (⟨S100000x64, .f32⟩ : BufTy).Contents (Elt F) → (⟨S100000x64, .f32⟩ : BufTy).Contents (Elt F) → (⟨S100000x64, .f32⟩ : BufTy).Contents (Elt F)),
    TRef.ternary main_call1.v1 (.of main_v55 : TRef sig ⟨S100000x64, .f32⟩) main_call1.v7 main_call1.call1.v0 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v56 main_arg4 main_v57 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    reshape main_v57 main_v58 rfl shapeCasts_S100000x40_S100000x1x40,
    nullary main_c_10 (constantI S_ 32 0#32),
    unary main_c_10 main_v59 (broadcastInDim S1700000 ![] bcast_S_S1700000 : (⟨S_, .i32⟩ : BufTy).Contents (Elt F) → (⟨S1700000, .i32⟩ : BufTy).Contents (Elt F)),
    binary main_v6 main_v59 main_v60 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v61 (broadcastInDim S1700000 ![] bcast_S_S1700000 : (⟨S_, .i32⟩ : BufTy).Contents (Elt F) → (⟨S1700000, .i32⟩ : BufTy).Contents (Elt F)),
    binary main_v6 main_v61 main_v62 (addi : (⟨S1700000, .i32⟩ : BufTy).Contents (Elt F) → (⟨S1700000, .i32⟩ : BufTy).Contents (Elt F) → (⟨S1700000, .i32⟩ : BufTy).Contents (Elt F)),
    ternary main_v60 main_v62 main_v6 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v63 main_v64 (broadcastInDim S1700000x1 ![0] bcast_S1700000_S1700000x1_0 : (⟨S1700000, .i32⟩ : BufTy).Contents (Elt F) → (⟨S1700000x1, .i32⟩ : BufTy).Contents (Elt F)),
    binary main_v58 main_v64 main_v65 ((fun x i => Host.gather gather_S100000x1x40_S1700000x1_S1700000x1x40_12_0_n_n_0_1_1140 x i) : (⟨S100000x1x40, .f32⟩ : BufTy).Contents (Elt F) → (⟨S1700000x1, .i32⟩ : BufTy).Contents (Elt F) → (⟨S1700000x1x40, .f32⟩ : BufTy).Contents (Elt F)),
    nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v58 main_v71 main_v72 ((fun x i => Host.gather gather_S100000x1x40_S1700000x1_S1700000x1x40_12_0_n_n_0_1_1140 x i) : (⟨S100000x1x40, .f32⟩ : BufTy).Contents (Elt F) → (⟨S1700000x1, .i32⟩ : BufTy).Contents (Elt F) → (⟨S1700000x1x40, .f32⟩ : BufTy).Contents (Elt F)),
    unary main_arg5 main_v73 ((extractStridedSlice S1x1x40 ![0, 0, 0] · slices_S1x1x80_S1x1x40_0_0_0) : (⟨S1x1x80, .f32⟩ : BufTy).Contents (Elt F) → (⟨S1x1x40, .f32⟩ : BufTy).Contents (Elt F)),
    unary main_arg5 main_v74 ((extractStridedSlice S1x1x40 ![0, 0, 40] · slices_S1x1x80_S1x1x40_0_0_40) : (⟨S1x1x80, .f32⟩ : BufTy).Contents (Elt F) → (⟨S1x1x40, .f32⟩ : BufTy).Contents (Elt F)),
    unary main_v73 main_v75 (broadcastInDim S1700000x1x40 ![0, 1, 2] bcast_S1x1x40_S1700000x1x40_0_1_2 : (⟨S1x1x40, .f32⟩ : BufTy).Contents (Elt F) → (⟨S1700000x1x40, .f32⟩ : BufTy).Contents (Elt F)),
    binary main_v65 main_v75 main_v76 (mulf : (⟨S1700000x1x40, .f32⟩ : BufTy).Contents (Elt F) → (⟨S1700000x1x40, .f32⟩ : BufTy).Contents (Elt F) → (⟨S1700000x1x40, .f32⟩ : BufTy).Contents (Elt F)),
    nullary main_cst_14 (constant S_ .f32 0x00000000#32),
    binary main_v76 main_cst_14 main_v77 ((fun x v => Host.reduceAdd x v reducesTo_S1700000x1x40_S1700000x1_d2 h_S_) : (⟨S1700000x1x40, .f32⟩ : BufTy).Contents (Elt F) → (⟨S_, .f32⟩ : BufTy).Contents (Elt F) → (⟨S1700000x1, .f32⟩ : BufTy).Contents (Elt F)),
    unary main_v74 main_v78 (broadcastInDim S1700000x1x40 ![0, 1, 2] bcast_S1x1x40_S1700000x1x40_0_1_2 : (⟨S1x1x40, .f32⟩ : BufTy).Contents (Elt F) → (⟨S1700000x1x40, .f32⟩ : BufTy).Contents (Elt F)),
    binary main_v72 main_v78 main_v79 (mulf : (⟨S1700000x1x40, .f32⟩ : BufTy).Contents (Elt F) → (⟨S1700000x1x40, .f32⟩ : BufTy).Contents (Elt F) → (⟨S1700000x1x40, .f32⟩ : BufTy).Contents (Elt F)),
    nullary main_cst_15 (constant S_ .f32 0x00000000#32),
    binary main_v79 main_cst_15 main_v80 ((fun x v => Host.reduceAdd x v reducesTo_S1700000x1x40_S1700000x1_d2 h_S_) : (⟨S1700000x1x40, .f32⟩ : BufTy).Contents (Elt F) → (⟨S_, .f32⟩ : BufTy).Contents (Elt F) → (⟨S1700000x1, .f32⟩ : BufTy).Contents (Elt F)),
    binary main_v77 main_v80 main_v81 (addf : (⟨S1700000x1, .f32⟩ : BufTy).Contents (Elt F) → (⟨S1700000x1, .f32⟩ : BufTy).Contents (Elt F) → (⟨S1700000x1, .f32⟩ : BufTy).Contents (Elt F)),
    nullary main_cst_16 (constant S_ .f32 0x3E4CCCCD#32),
    TRef.nullary main_call2.cst (constant S_ .f32 0x00000000#32),
    TRef.unary main_call2.cst main_call2.v0 ((broadcastInDim S1700000x1 ![] bcast_S_S1700000x1) : (⟨S_, .f32⟩ : BufTy).Contents (Elt F) → (⟨S1700000x1, .f32⟩ : BufTy).Contents (Elt F)),
    TRef.binary (.of main_v81 : TRef sig ⟨S1700000x1, .f32⟩) main_call2.v0 main_call2.v1 ((cmpf .oge) : (⟨S1700000x1, .f32⟩ : BufTy).Contents (Elt F) → (⟨S1700000x1, .f32⟩ : BufTy).Contents (Elt F) → (⟨S1700000x1, .i1⟩ : BufTy).Contents (Elt F)),
    TRef.unary (.of main_cst_16 : TRef sig ⟨S_, .f32⟩) main_call2.v2 (id : (⟨S_, .f32⟩ : BufTy).Contents (Elt F) → (⟨S_, .f32⟩ : BufTy).Contents (Elt F)),
    TRef.unary main_call2.v2 main_call2.v3 ((broadcastInDim S1700000x1 ![] bcast_S_S1700000x1) : (⟨S_, .f32⟩ : BufTy).Contents (Elt F) → (⟨S1700000x1, .f32⟩ : BufTy).Contents (Elt F)),
    TRef.binary main_call2.v3 (.of main_v81 : TRef sig ⟨S1700000x1, .f32⟩) main_call2.v4 (mulf : (⟨S1700000x1, .f32⟩ : BufTy).Contents (Elt F) → (⟨S1700000x1, .f32⟩ : BufTy).Contents (Elt F) → (⟨S1700000x1, .f32⟩ : BufTy).Contents (Elt F)),
    TRef.ternary main_call2.v1 (.of main_v81 : TRef sig ⟨S1700000x1, .f32⟩) main_call2.v4 main_call2.call0.v0 (select : (⟨S1700000x1, .i1⟩ : BufTy).Contents (Elt F) → (⟨S1700000x1, .f32⟩ : BufTy).Contents (Elt F) → (⟨S1700000x1, .f32⟩ : BufTy).Contents (Elt F) → (⟨S1700000x1, .f32⟩ : BufTy).Contents (Elt F)),
    nullary main_cst_17 (constant S_ .f32 0xFF800000#32),
    binary main_v82 main_cst_17 main_v83 ((fun x v => Host.reduce FloatOps.maximumf x v reducesTo_S1700000x1_S1700000_d1 h_S_) : (⟨S1700000x1, .f32⟩ : BufTy).Contents (Elt F) → (⟨S_, .f32⟩ : BufTy).Contents (Elt F) → (⟨S1700000, .f32⟩ : BufTy).Contents (Elt F)),
    unary main_v83 main_v84 (broadcastInDim S1700000x1 ![0] bcast_S1700000_S1700000x1_0 : (⟨S1700000, .f32⟩ : BufTy).Contents (Elt F) → (⟨S1700000x1, .f32⟩ : BufTy).Contents (Elt F)),
    binary main_v82 main_v84 main_v85 (subf : (⟨S1700000x1, .f32⟩ : BufTy).Contents (Elt F) → (⟨S1700000x1, .f32⟩ : BufTy).Contents (Elt F) → (⟨S1700000x1, .f32⟩ : BufTy).Contents (Elt F)),
    unary main_v85 main_v86 (Host.exp : (⟨S1700000x1, .f32⟩ : BufTy).Contents (Elt F) → (⟨S1700000x1, .f32⟩ : BufTy).Contents (Elt F)),
    nullary main_cst_18 (constant S_ .f32 0x00000000#32),
    unary main_cst_18 main_v87 (broadcastInDim S100000x1 ![] bcast_S_S100000x1 : (⟨S_, .f32⟩ : BufTy).Contents (Elt F) → (⟨S100000x1, .f32⟩ : BufTy).Contents (Elt F)),
    unary main_v6 main_v88 (broadcastInDim S1700000x1 ![0] bcast_S1700000_S1700000x1_0 : (⟨S1700000, .i32⟩ : BufTy).Contents (Elt F) → (⟨S1700000x1, .i32⟩ : BufTy).Contents (Elt F)),
    ternary main_v87 main_v88 main_v86 main_v89 ((fun x i u => Host.scatterAdd scatter_S100000x1_S1700000x1_S1700000x1_1_0_0_1 x i u) : (⟨S100000x1, .f32⟩ : BufTy).Contents (Elt F) → (⟨S1700000x1, .i32⟩ : BufTy).Contents (Elt F) → (⟨S1700000x1, .f32⟩ : BufTy).Contents (Elt F) → (⟨S100000x1, .f32⟩ : BufTy).Contents (Elt F)),
    nullary main_c_19 (constantI S_ 32 0#32),
    unary main_c_19 main_v90 (broadcastInDim S1700000 ![] bcast_S_S1700000 : (⟨S_, .i32⟩ : BufTy).Contents (Elt F) → (⟨S1700000, .i32⟩ : BufTy).Contents (Elt F)),
    binary main_v6 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v92 (broadcastInDim S1700000 ![] bcast_S_S1700000 : (⟨S_, .i32⟩ : BufTy).Contents (Elt F) → (⟨S1700000, .i32⟩ : BufTy).Contents (Elt F)),
    binary main_v6 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v6 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v89 main_v95 main_v96 ((fun x i => Host.gather gather_S100000x1_S1700000x1_S1700000x1_1_0_n_n_0_1_11 x i) : (⟨S100000x1, .f32⟩ : BufTy).Contents (Elt F) → (⟨S1700000x1, .i32⟩ : BufTy).Contents (Elt F) → (⟨S1700000x1, .f32⟩ : BufTy).Contents (Elt F)),
    binary main_v86 main_v96 main_v97 (Host.divf : (⟨S1700000x1, .f32⟩ : BufTy).Contents (Elt F) → (⟨S1700000x1, .f32⟩ : BufTy).Contents (Elt F) → (⟨S1700000x1, .f32⟩ : BufTy).Contents (Elt F)),
    unary main_v97 main_v98 (broadcastInDim S1700000x1x1 ![0, 1] bcast_S1700000x1_S1700000x1x1_0_1 : (⟨S1700000x1, .f32⟩ : BufTy).Contents (Elt F) → (⟨S1700000x1x1, .f32⟩ : BufTy).Contents (Elt F)),
    unary main_v98 main_v99 (broadcastInDim S1700000x1x40 ![0, 1, 2] bcast_S1700000x1x1_S1700000x1x40_0_1_2 : (⟨S1700000x1x1, .f32⟩ : BufTy).Contents (Elt F) → (⟨S1700000x1x40, .f32⟩ : BufTy).Contents (Elt F)),
    binary main_v72 main_v99 main_v100 (mulf : (⟨S1700000x1x40, .f32⟩ : BufTy).Contents (Elt F) → (⟨S1700000x1x40, .f32⟩ : BufTy).Contents (Elt F) → (⟨S1700000x1x40, .f32⟩ : BufTy).Contents (Elt F)),
    nullary main_cst_21 (constant S_ .f32 0x00000000#32),
    unary main_cst_21 main_v101 (broadcastInDim S100000x1x40 ![] bcast_S_S100000x1x40 : (⟨S_, .f32⟩ : BufTy).Contents (Elt F) → (⟨S100000x1x40, .f32⟩ : BufTy).Contents (Elt F)),
    unary main_v6 main_v102 (broadcastInDim S1700000x1 ![0] bcast_S1700000_S1700000x1_0 : (⟨S1700000, .i32⟩ : BufTy).Contents (Elt F) → (⟨S1700000x1, .i32⟩ : BufTy).Contents (Elt F)),
    ternary main_v101 main_v102 main_v100 main_v103 ((fun x i u => Host.scatterAdd scatter_S100000x1x40_S1700000x1_S1700000x1x40_12_0_0_1 x i u) : (⟨S100000x1x40, .f32⟩ : BufTy).Contents (Elt F) → (⟨S1700000x1, .i32⟩ : BufTy).Contents (Elt F) → (⟨S1700000x1x40, .f32⟩ : BufTy).Contents (Elt F) → (⟨S100000x1x40, .f32⟩ : BufTy).Contents (Elt F)),
    nullary main_cst_22 (constant S_ .f32 0x00000000#32),
    binary main_v103 main_cst_22 main_v104 ((fun x v => Host.reduceAdd x v reducesTo_S100000x1x40_S100000x40_d1 h_S_) : (⟨S100000x1x40, .f32⟩ : BufTy).Contents (Elt F) → (⟨S_, .f32⟩ : BufTy).Contents (Elt F) → (⟨S100000x40, .f32⟩ : BufTy).Contents (Elt F)),
    nullary main_cst_23 (constant S_ .f32 0x3F800000#32),
    unary main_cst_23 main_v105 (broadcastInDim S100000x40 ![] bcast_S_S100000x40 : (⟨S_, .f32⟩ : BufTy).Contents (Elt F) → (⟨S100000x40, .f32⟩ : BufTy).Contents (Elt F)),
    binary main_v104 main_v105 main_v106 (Host.divf : (⟨S100000x40, .f32⟩ : BufTy).Contents (Elt F) → (⟨S100000x40, .f32⟩ : BufTy).Contents (Elt F) → (⟨S100000x40, .f32⟩ : BufTy).Contents (Elt F)),
    TRef.nullary main_call3.cst (constant S_ .f32 0xFF800000#32),
    TRef.binary (.of main_v106 : TRef sig ⟨S100000x40, .f32⟩) main_call3.cst main_call3.v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    TRef.nullary main_call3.cst_0 (constant S_ .f32 0xFF800000#32),
    TRef.unary main_call3.cst_0 main_call3.v1 ((broadcastInDim S100000 ![] bcast_S_S100000) : (⟨S_, .f32⟩ : BufTy).Contents (Elt F) → (⟨S100000, .f32⟩ : BufTy).Contents (Elt F)),
    TRef.binary main_call3.v1 main_call3.v0 main_call3.v2 (maximumf : (⟨S100000, .f32⟩ : BufTy).Contents (Elt F) → (⟨S100000, .f32⟩ : BufTy).Contents (Elt F) → (⟨S100000, .f32⟩ : BufTy).Contents (Elt F)),
    TRef.unary main_call3.v2 main_call3.v3 ((broadcastInDim S100000x1 ![0] bcast_S100000_S100000x1_0) : (⟨S100000, .f32⟩ : BufTy).Contents (Elt F) → (⟨S100000x1, .f32⟩ : BufTy).Contents (Elt F)),
    TRef.unary main_call3.v3 main_call3.v4 ((broadcastInDim S100000x40 ![0, 1] bcast_S100000x1_S100000x40_0_1) : (⟨S100000x1, .f32⟩ : BufTy).Contents (Elt F) → (⟨S100000x40, .f32⟩ : BufTy).Contents (Elt F)),
    TRef.binary (.of main_v106 : TRef sig ⟨S100000x40, .f32⟩) main_call3.v4 main_call3.v5 (subf : (⟨S100000x40, .f32⟩ : BufTy).Contents (Elt F) → (⟨S100000x40, .f32⟩ : BufTy).Contents (Elt F) → (⟨S100000x40, .f32⟩ : BufTy).Contents (Elt F)),
    TRef.unary main_call3.v5 main_call3.v6 (Host.exp : (⟨S100000x40, .f32⟩ : BufTy).Contents (Elt F) → (⟨S100000x40, .f32⟩ : BufTy).Contents (Elt F)),
    TRef.nullary main_call3.cst_1 (constant S_ .f32 0x00000000#32),
    TRef.binary main_call3.v6 main_call3.cst_1 main_call3.v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    TRef.unary main_call3.v7 main_call3.v8 ((broadcastInDim S100000x1 ![0] bcast_S100000_S100000x1_0) : (⟨S100000, .f32⟩ : BufTy).Contents (Elt F) → (⟨S100000x1, .f32⟩ : BufTy).Contents (Elt F)),
    TRef.unary main_call3.v8 main_call3.v9 (Host.log : (⟨S100000x1, .f32⟩ : BufTy).Contents (Elt F) → (⟨S100000x1, .f32⟩ : BufTy).Contents (Elt F)),
    TRef.unary main_call3.v9 main_call3.v10 ((broadcastInDim S100000x40 ![0, 1] bcast_S100000x1_S100000x40_0_1) : (⟨S100000x1, .f32⟩ : BufTy).Contents (Elt F) → (⟨S100000x40, .f32⟩ : BufTy).Contents (Elt F)),
    TRef.binary main_call3.v5 main_call3.v10 main_call3.v11 (subf : (⟨S100000x40, .f32⟩ : BufTy).Contents (Elt F) → (⟨S100000x40, .f32⟩ : BufTy).Contents (Elt F) → (⟨S100000x40, .f32⟩ : BufTy).Contents (Elt F)) ]

-- 174 binds re-associated: the rewrite under the chain recurses once per statement
set_option maxRecDepth 16384 in
set_option maxHeartbeats 4000000 in
/-- The program is that line: the three windows in a row, the callees' definitions unfolded at their calls and the
    records at their fields; both sides are one chain of steps once sequencing is re-associated. -/
theorem main_eq (c : Dev nD) : main (F := F) c = seq ops := by
  simp only [main, main_part0, main_part1, main_part2, fn_leaky_relu.body, fn_where.body, fn_elu.body, fn_where_0.body, fn_where_1.body, fn_leaky_relu_2.body, fn_where_3.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., unary_bufs_sub ..,
    binary_bufs_sub .., nullary_bufs_sub .., binary_bufs_sub .., unary_bufs_sub .., binary_bufs_sub .., nullary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., binary_bufs_sub ..,
    unary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., unary_bufs_sub .., binary_bufs_sub .., nullary_bufs_sub .., unary_bufs_sub .., unary_bufs_sub ..,
    ternary_bufs_sub .., reshape_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., unary_bufs_sub .., binary_bufs_sub .., nullary_bufs_sub ..,
    binary_bufs_sub .., unary_bufs_sub .., binary_bufs_sub .., nullary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., binary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., unary_bufs_sub .., binary_bufs_sub ..,
    nullary_bufs_sub .., unary_bufs_sub .., unary_bufs_sub .., ternary_bufs_sub .., nullary_bufs_sub .., binary_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

set_option maxRecDepth 16384 in
set_option maxHeartbeats 4000000 in
/-- The line is the stage lists in a row. -/
theorem ops_split : (ops : List (HloOp τ sig (Elt F))) = ops0 ++ (ops1 ++ (ops2 ++ (ops3 ++ (ops4 ++ (ops5 ++ (ops6 ++ (ops7 ++ (ops8 ++ (ops9 ++ (ops10)))))))))) := by
  ops_entries

end Cert.ReferenceIdeal.RefRun

end
-- ==== Proof.RefStages.lean ====
/-
  The reference program's stages as pure functions of array contents.

  The reference computes a two-layer graph attention network over E = 1700000 directed edges
  (the 1600000 given ones followed by one self-loop per node) on N = 100000 nodes.  Each definition
  below is the composition of the elementwise, broadcast, gather, scatter-add and reduction
  operations that one stretch of the reference applies, written over the same shapes and the same
  side conditions as the reference's own lines, so that the contents a run of the reference leaves in
  a buffer are, by unfolding, the corresponding function of the argument contents.

  Layer k (k = 1: eight heads of eight channels; k = 2: one head of forty channels):
    h       = x · W                                      (`h1R`, `h2R`: the product, viewed [N, heads, channels])
    alpha e = Σ_c h[dst e, ·, c]·att_dst[·, c] + Σ_c h[src e, ·, c]·att_src[·, c]     (`alpha1R`, `alpha2R`)
    attn    = softmax of leaky_relu(alpha, 0.2) over the edges that share a destination     (`attn8`, `attn1`)
    agg n   = Σ_{e : dst e = n} attn e · h[src e]                                      (`agg1R`, `agg2R`)
  with elu between the layers (`eluR`) and a row-wise log-softmax at the end (`lsmR`).
-/
import proofs.«160089_j1881195675933_1_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-! ## Edge endpoints -/

/-- Sources: row 0 of the edge table, then the node numbers 0 … N-1 (the self-loops). -/
def edgeSrc (a1 : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] a1 slices_S2x1600000_S1x1600000_0_0) shapeCasts_S1x1600000_S1600000⟩,
     ⟨S100000, iotaInDim S100000 32 0⟩] concatenates_S1600000_S100000_S1700000_d0

/-- Destinations: row 1 of the edge table, then the node numbers 0 … N-1. -/
def edgeDst (a1 : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] a1 slices_S2x1600000_S1x1600000_1_0) shapeCasts_S1x1600000_S1600000⟩,
     ⟨S100000, iotaInDim S100000 32 0⟩] concatenates_S1600000_S100000_S1700000_d0

/-- An index vector made non-negative (a negative entry has N added) and turned into a column [E, 1]:
    the form in which a gather reads its row numbers. -/
def normCol (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- An index vector as a column [E, 1]: the form in which a scatter-add reads its row numbers. -/
def dstCol (v : (⟨S1700000, .i32⟩ : BufTy).Contents (Elt F)) : (⟨S1700000x1, .i32⟩ : BufTy).Contents (Elt F) :=
  broadcastInDim S1700000x1 ![0] bcast_S1700000_S1700000x1_0 v

/-! ## Layer 1: eight heads of eight channels -/

/-- h = x · W₁, viewed [N, 8, 8]. -/
def h1R (a0 : (⟨S100000x128, .f32⟩ : BufTy).Contents (Elt F)) (a2 : (⟨S128x64, .f32⟩ : BufTy).Contents (Elt F)) : (⟨S100000x8x8, .f32⟩ : BufTy).Contents (Elt F) :=
  shapeCast S100000x8x8
    (Host.dotGeneral dot_S100000x128_S128x64_S100000x64_1_0_0_1_n_n none a0 a2 : (⟨S100000x64, .f32⟩ : BufTy).Contents (Elt F))
    shapeCasts_S100000x64_S100000x8x8

/-- Row `ix e` of h for every edge e: [E, 8, 8]. -/
def rows8x8 (h : (⟨S100000x8x8, .f32⟩ : BufTy).Contents (Elt F)) (ix : (⟨S1700000, .i32⟩ : BufTy).Contents (Elt F)) : (⟨S1700000x8x8, .f32⟩ : BufTy).Contents (Elt F) :=
  Host.gather gather_S100000x8x8_S1700000x1_S1700000x8x8_12_0_n_n_0_1_188 h (normCol ix)

/-- Per edge and head, the sum over channels of g · w, w one weight per (head, channel). -/
def headDot8 (g : (⟨S1700000x8x8, .f32⟩ : BufTy).Contents (Elt F)) (w : (⟨S1x8x8, .f32⟩ : BufTy).Contents (Elt F)) : (⟨S1700000x8, .f32⟩ : BufTy).Contents (Elt F) :=
  Host.reduceAdd (mulf g (broadcastInDim S1700000x8x8 ![0, 1, 2] bcast_S1x8x8_S1700000x8x8_0_1_2 w))
    (constant S_ .f32 0x00000000#32) reducesTo_S1700000x8x8_S1700000x8_d2 h_S_

/-- The attention logits: the destination row against channels 0–7 of the attention vector plus the
    source row against channels 8–15. -/
def alpha1R (h : (⟨S100000x8x8, .f32⟩ : BufTy).Contents (Elt F)) (a3 : (⟨S1x8x16, .f32⟩ : BufTy).Contents (Elt F)) (src dst : (⟨S1700000, .i32⟩ : BufTy).Contents (Elt F)) : (⟨S1700000x8, .f32⟩ : BufTy).Contents (Elt F) :=
  addf
    (headDot8 (rows8x8 h dst) (extractStridedSlice S1x8x8 ![0, 0, 0] a3 slices_S1x8x16_S1x8x8_0_0_0))
    (headDot8 (rows8x8 h src) (extractStridedSlice S1x8x8 ![0, 0, 8] a3 slices_S1x8x16_S1x8x8_0_0_8))

/-- leaky_relu with slope 0.2: x where x ≥ 0, else 0.2 · x. -/
def leaky8 (x : (⟨S1700000x8, .f32⟩ : BufTy).Contents (Elt F)) : (⟨S1700000x8, .f32⟩ : BufTy).Contents (Elt F) :=
  select (cmpf .oge x (broadcastInDim S1700000x8 ![] bcast_S_S1700000x8 (constant S_ .f32 0x00000000#32)))
    x (mulf (broadcastInDim S1700000x8 ![] bcast_S_S1700000x8 (constant S_ .f32 0x3E4CCCCD#32)) x)

/-- The maximum over the eight heads of each edge's row, from −∞. -/
def rowMax8 (z : (⟨S1700000x8, .f32⟩ : BufTy).Contents (Elt F)) : (⟨S1700000, .f32⟩ : BufTy).Contents (Elt F) :=
  Host.reduce FloatOps.maximumf z (constant S_ .f32 0xFF800000#32) reducesTo_S1700000x8_S1700000_d1 h_S_

/-- exp (z − its row's maximum). -/
def shiftExp8 (z : (⟨S1700000x8, .f32⟩ : BufTy).Contents (Elt F)) : (⟨S1700000x8, .f32⟩ : BufTy).Contents (Elt F) :=
  Host.exp (subf z (broadcastInDim S1700000x8 ![0, 1] bcast_S1700000x1_S1700000x8_0_1
    (broadcastInDim S1700000x1 ![0] bcast_S1700000_S1700000x1_0 (rowMax8 z))))

/-- Per node, the sum of e over the edges that end there. -/
def segSum8 (e : (⟨S1700000x8, .f32⟩ : BufTy).Contents (Elt F)) (dst : (⟨S1700000, .i32⟩ : BufTy).Contents (Elt F)) : (⟨S100000x8, .f32⟩ : BufTy).Contents (Elt F) :=
  Host.scatterAdd scatter_S100000x8_S1700000x1_S1700000x8_1_0_0_1
    (broadcastInDim S100000x8 ![] bcast_S_S100000x8 (constant S_ .f32 0x00000000#32)) (dstCol dst) e

/-- e divided by its destination node's sum. -/
def normalize8 (e : (⟨S1700000x8, .f32⟩ : BufTy).Contents (Elt F)) (dst : (⟨S1700000, .i32⟩ : BufTy).Contents (Elt F)) : (⟨S1700000x8, .f32⟩ : BufTy).Contents (Elt F) :=
  Host.divf e (Host.gather gather_S100000x8_S1700000x1_S1700000x8_1_0_n_n_0_1_18 (segSum8 e dst) (normCol dst))

/-- The attention weights of layer 1 from its logits. -/
def attn8 (alpha : (⟨S1700000x8, .f32⟩ : BufTy).Contents (Elt F)) (dst : (⟨S1700000, .i32⟩ : BufTy).Contents (Elt F)) : (⟨S1700000x8, .f32⟩ : BufTy).Contents (Elt F) :=
  normalize8 (shiftExp8 (leaky8 alpha)) dst

/-- Per node, the sum over the edges that end there of weight · source row, viewed [N, 64]. -/
def agg1R (h : (⟨S100000x8x8, .f32⟩ : BufTy).Contents (Elt F)) (an : (⟨S1700000x8, .f32⟩ : BufTy).Contents (Elt F)) (src dst : (⟨S1700000, .i32⟩ : BufTy).Contents (Elt F)) : (⟨S100000x64, .f32⟩ : BufTy).Contents (Elt F) :=
  shapeCast S100000x64
    (Host.scatterAdd scatter_S100000x8x8_S1700000x1_S1700000x8x8_12_0_0_1
      (broadcastInDim S100000x8x8 ![] bcast_S_S100000x8x8 (constant S_ .f32 0x00000000#32)) (dstCol dst)
      (mulf (rows8x8 h src)
        (broadcastInDim S1700000x8x8 ![0, 1, 2] bcast_S1700000x8x1_S1700000x8x8_0_1_2
          (broadcastInDim S1700000x8x1 ![0, 1] bcast_S1700000x8_S1700000x8x1_0_1 an))) : (⟨S100000x8x8, .f32⟩ : BufTy).Contents (Elt F))
    shapeCasts_S100000x8x8_S100000x64

/-! ## Between the layers -/

/-- elu: x where x > 0, else 1 · expm1 (x where x ≤ 0, 0 elsewhere). -/
def eluR (x : (⟨S100000x64, .f32⟩ : BufTy).Contents (Elt F)) : (⟨S100000x64, .f32⟩ : BufTy).Contents (Elt F) :=
  select (cmpf .ogt x (broadcastInDim S100000x64 ![] bcast_S_S100000x64 (constant S_ .f32 0x00000000#32)))
    x
    (mulf (broadcastInDim S100000x64 ![] bcast_S_S100000x64 (constant S_ .f32 0x3F800000#32))
      (Host.expm1
        (select (cmpf .ogt x (broadcastInDim S100000x64 ![] bcast_S_S100000x64 (constant S_ .f32 0x00000000#32)))
          (broadcastInDim S100000x64 ![] bcast_S_S100000x64 (constant S_ .f32 0x00000000#32)) x)))

/-! ## Layer 2: one head of forty channels -/

/-- h = x · W₂, viewed [N, 1, 40]. -/
def h2R (x : (⟨S100000x64, .f32⟩ : BufTy).Contents (Elt F)) (a4 : (⟨S64x40, .f32⟩ : BufTy).Contents (Elt F)) : (⟨S100000x1x40, .f32⟩ : BufTy).Contents (Elt F) :=
  shapeCast S100000x1x40
    (Host.dotGeneral dot_S100000x64_S64x40_S100000x40_1_0_0_1_n_n none x a4 : (⟨S100000x40, .f32⟩ : BufTy).Contents (Elt F))
    shapeCasts_S100000x40_S100000x1x40

/-- Row `ix e` of h for every edge e: [E, 1, 40]. -/
def rows1x40 (h : (⟨S100000x1x40, .f32⟩ : BufTy).Contents (Elt F)) (ix : (⟨S1700000, .i32⟩ : BufTy).Contents (Elt F)) : (⟨S1700000x1x40, .f32⟩ : BufTy).Contents (Elt F) :=
  Host.gather gather_S100000x1x40_S1700000x1_S1700000x1x40_12_0_n_n_0_1_1140 h (normCol ix)

/-- Per edge, the sum over channels of g · w. -/
def headDot1 (g : (⟨S1700000x1x40, .f32⟩ : BufTy).Contents (Elt F)) (w : (⟨S1x1x40, .f32⟩ : BufTy).Contents (Elt F)) : (⟨S1700000x1, .f32⟩ : BufTy).Contents (Elt F) :=
  Host.reduceAdd (mulf g (broadcastInDim S1700000x1x40 ![0, 1, 2] bcast_S1x1x40_S1700000x1x40_0_1_2 w))
    (constant S_ .f32 0x00000000#32) reducesTo_S1700000x1x40_S1700000x1_d2 h_S_

/-- The attention logits: the destination row against channels 0–39 plus the source row against 40–79. -/
def alpha2R (h : (⟨S100000x1x40, .f32⟩ : BufTy).Contents (Elt F)) (a5 : (⟨S1x1x80, .f32⟩ : BufTy).Contents (Elt F)) (src dst : (⟨S1700000, .i32⟩ : BufTy).Contents (Elt F)) : (⟨S1700000x1, .f32⟩ : BufTy).Contents (Elt F) :=
  addf
    (headDot1 (rows1x40 h dst) (extractStridedSlice S1x1x40 ![0, 0, 0] a5 slices_S1x1x80_S1x1x40_0_0_0))
    (headDot1 (rows1x40 h src) (extractStridedSlice S1x1x40 ![0, 0, 40] a5 slices_S1x1x80_S1x1x40_0_0_40))

/-- leaky_relu with slope 0.2. -/
def leaky1 (x : (⟨S1700000x1, .f32⟩ : BufTy).Contents (Elt F)) : (⟨S1700000x1, .f32⟩ : BufTy).Contents (Elt F) :=
  select (cmpf .oge x (broadcastInDim S1700000x1 ![] bcast_S_S1700000x1 (constant S_ .f32 0x00000000#32)))
    x (mulf (broadcastInDim S1700000x1 ![] bcast_S_S1700000x1 (constant S_ .f32 0x3E4CCCCD#32)) x)

/-- The maximum over the single head of each edge's row, from −∞. -/
def rowMax1 (z : (⟨S1700000x1, .f32⟩ : BufTy).Contents (Elt F)) : (⟨S1700000, .f32⟩ : BufTy).Contents (Elt F) :=
  Host.reduce FloatOps.maximumf z (constant S_ .f32 0xFF800000#32) reducesTo_S1700000x1_S1700000_d1 h_S_

/-- exp (z − its row's maximum). -/
def shiftExp1 (z : (⟨S1700000x1, .f32⟩ : BufTy).Contents (Elt F)) : (⟨S1700000x1, .f32⟩ : BufTy).Contents (Elt F) :=
  Host.exp (subf z (broadcastInDim S1700000x1 ![0] bcast_S1700000_S1700000x1_0 (rowMax1 z)))

/-- Per node, the sum of e over the edges that end there. -/
def segSum1 (e : (⟨S1700000x1, .f32⟩ : BufTy).Contents (Elt F)) (dst : (⟨S1700000, .i32⟩ : BufTy).Contents (Elt F)) : (⟨S100000x1, .f32⟩ : BufTy).Contents (Elt F) :=
  Host.scatterAdd scatter_S100000x1_S1700000x1_S1700000x1_1_0_0_1
    (broadcastInDim S100000x1 ![] bcast_S_S100000x1 (constant S_ .f32 0x00000000#32)) (dstCol dst) e

/-- e divided by its destination node's sum. -/
def normalize1 (e : (⟨S1700000x1, .f32⟩ : BufTy).Contents (Elt F)) (dst : (⟨S1700000, .i32⟩ : BufTy).Contents (Elt F)) : (⟨S1700000x1, .f32⟩ : BufTy).Contents (Elt F) :=
  Host.divf e (Host.gather gather_S100000x1_S1700000x1_S1700000x1_1_0_n_n_0_1_11 (segSum1 e dst) (normCol dst))

/-- The attention weights of layer 2 from its logits. -/
def attn1 (alpha : (⟨S1700000x1, .f32⟩ : BufTy).Contents (Elt F)) (dst : (⟨S1700000, .i32⟩ : BufTy).Contents (Elt F)) : (⟨S1700000x1, .f32⟩ : BufTy).Contents (Elt F) :=
  normalize1 (shiftExp1 (leaky1 alpha)) dst

/-- Per node, the sum over the edges that end there of weight · source row, summed over the unit head
    axis and divided by the number of heads, 1. -/
def agg2R (h : (⟨S100000x1x40, .f32⟩ : BufTy).Contents (Elt F)) (an : (⟨S1700000x1, .f32⟩ : BufTy).Contents (Elt F)) (src dst : (⟨S1700000, .i32⟩ : BufTy).Contents (Elt F)) : (⟨S100000x40, .f32⟩ : BufTy).Contents (Elt F) :=
  Host.divf
    (Host.reduceAdd
      (Host.scatterAdd scatter_S100000x1x40_S1700000x1_S1700000x1x40_12_0_0_1
        (broadcastInDim S100000x1x40 ![] bcast_S_S100000x1x40 (constant S_ .f32 0x00000000#32)) (dstCol dst)
        (mulf (rows1x40 h src)
          (broadcastInDim S1700000x1x40 ![0, 1, 2] bcast_S1700000x1x1_S1700000x1x40_0_1_2
            (broadcastInDim S1700000x1x1 ![0, 1] bcast_S1700000x1_S1700000x1x1_0_1 an))) : (⟨S100000x1x40, .f32⟩ : BufTy).Contents (Elt F))
      (constant S_ .f32 0x00000000#32) reducesTo_S100000x1x40_S100000x40_d1 h_S_)
    (broadcastInDim S100000x40 ![] bcast_S_S100000x40 (constant S_ .f32 0x3F800000#32))

/-! ## The final log-softmax over each row of [N, 40] -/

/-- The row maximum from −∞, once more bounded below by −∞. -/
def lsmMax (x : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf x (constant S_ .f32 0xFF800000#32) reducesTo_S100000x40_S100000_d1 h_S_)

/-- x − its row's maximum. -/
def lsmShift (x : (⟨S100000x40, .f32⟩ : BufTy).Contents (Elt F)) : (⟨S100000x40, .f32⟩ : BufTy).Contents (Elt F) :=
  subf x (broadcastInDim S100000x40 ![0, 1] bcast_S100000x1_S100000x40_0_1
    (broadcastInDim S100000x1 ![0] bcast_S100000_S100000x1_0 (lsmMax x)))

/-- s − log of its row's sum of exponentials. -/
def lsmTail (s : (⟨S100000x40, .f32⟩ : BufTy).Contents (Elt F)) : (⟨S100000x40, .f32⟩ : BufTy).Contents (Elt F) :=
  subf s (broadcastInDim S100000x40 ![0, 1] bcast_S100000x1_S100000x40_0_1
    (Host.log (broadcastInDim S100000x1 ![0] bcast_S100000_S100000x1_0
      (Host.reduceAdd (Host.exp s) (constant S_ .f32 0x00000000#32) reducesTo_S100000x40_S100000_d1 h_S_))))

/-- Row-wise log-softmax. -/
def lsmR (x : (⟨S100000x40, .f32⟩ : BufTy).Contents (Elt F)) : (⟨S100000x40, .f32⟩ : BufTy).Contents (Elt F) :=
  lsmTail (lsmShift x)

/-! ## The whole reference -/

/-- Layer 1 before its activation: [N, 64]. -/
def layer1 (a0 : (⟨S100000x128, .f32⟩ : BufTy).Contents (Elt F)) (a1 : (⟨S2x1600000, .i32⟩ : BufTy).Contents (Elt F)) (a2 : (⟨S128x64, .f32⟩ : BufTy).Contents (Elt F)) (a3 : (⟨S1x8x16, .f32⟩ : BufTy).Contents (Elt F)) :
    (⟨S100000x64, .f32⟩ : BufTy).Contents (Elt F) :=
  agg1R (h1R a0 a2) (attn8 (alpha1R (h1R a0 a2) a3 (edgeSrc a1) (edgeDst a1)) (edgeDst a1)) (edgeSrc a1) (edgeDst a1)

/-- Layer 2 on activations x: [N, 40]. -/
def layer2 (x : (⟨S100000x64, .f32⟩ : BufTy).Contents (Elt F)) (a1 : (⟨S2x1600000, .i32⟩ : BufTy).Contents (Elt F)) (a4 : (⟨S64x40, .f32⟩ : BufTy).Contents (Elt F)) (a5 : (⟨S1x1x80, .f32⟩ : BufTy).Contents (Elt F)) :
    (⟨S100000x40, .f32⟩ : BufTy).Contents (Elt F) :=
  agg2R (h2R x a4) (attn1 (alpha2R (h2R x a4) a5 (edgeSrc a1) (edgeDst a1)) (edgeDst a1)) (edgeSrc a1) (edgeDst a1)

/-- The reference's result as a function of its six arguments. -/
def out (a0 : (⟨S100000x128, .f32⟩ : BufTy).Contents (Elt F)) (a1 : (⟨S2x1600000, .i32⟩ : BufTy).Contents (Elt F)) (a2 : (⟨S128x64, .f32⟩ : BufTy).Contents (Elt F)) (a3 : (⟨S1x8x16, .f32⟩ : BufTy).Contents (Elt F))
    (a4 : (⟨S64x40, .f32⟩ : BufTy).Contents (Elt F)) (a5 : (⟨S1x1x80, .f32⟩ : BufTy).Contents (Elt F)) : (⟨S100000x40, .f32⟩ : BufTy).Contents (Elt F) :=
  lsmR (layer2 (eluR (layer1 a0 a1 a2 a3)) a1 a4 a5)

end Cert.ReferenceIdeal.RefRun

end
-- ==== Proof.LibFinish.lean ====
/-
  Reading a fold of host operations at a buffer: the library's one-pass reading rewrites each operation's result at its
  own buffer and at any other buffer, but it does not enter the operands of a concatenation, which sit in a list of
  shape-indexed pairs. The tactic here finishes those by the same two kinds of rewrite, one at a time.
-/
import Idealize.ShloMosaic.Lib.StableHlo.Run

namespace Cert.LibFinish

open Idealize.ShloMosaic

/-- Rewrites every remaining `(op).result V b`: to the operation's function of its operands' contents when `b` is the
    buffer the operation writes, to `V b` otherwise (the buffers' inequality decided). -/
macro "finish_results" : tactic =>
  `(tactic| repeat (first
      | rw [StableHlo.nullary_result] | rw [StableHlo.unary_result] | rw [StableHlo.binary_result] | rw [StableHlo.ternary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

end Cert.LibFinish
-- ==== Proof.RefVals.lean ====
/-
  What each stage of the reference leaves in the buffers that later stages (or the caller) read, as a function of the
  six arguments' contents.

  Stage by stage: a buffer the stage computes holds the stage's function (the definitions of the stages' module) of what
  the earlier stages left in the buffers it reads — the stage's operations read off in order, each result buffer holding
  its operation's function of its operands' buffers, every other buffer what it held —, and a buffer the stage does not
  write holds what it held.  At the end the result buffer holds `out` of the arguments and the arguments are unchanged.
-/
import proofs.«160089_j1881195675933_1_alg».proof.Proof.RefOps
import proofs.«160089_j1881195675933_1_alg».proof.Proof.RefStages
import proofs.«160089_j1881195675933_1_alg».proof.Proof.LibFinish

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibFinish

variable {F : FTy → Type} [FloatOps F]

/-! ## Stage 0 -/

set_option maxRecDepth 8192 in
theorem val0_v3 (V : Valuation τ sig (Elt F)) :
    val0 V (no_index (Proc.devRef .tc main_v3)) = edgeSrc (V (Proc.devRef .tc main_arg1)) := by
  unfold val0
  simp only [ops0]
  after_results
  all_goals rfl

set_option maxRecDepth 8192 in
theorem val0_v6 (V : Valuation τ sig (Elt F)) :
    val0 V (no_index (Proc.devRef .tc main_v6)) = edgeDst (V (Proc.devRef .tc main_arg1)) := by
  unfold val0
  simp only [ops0]
  after_results
  all_goals rfl

theorem val0_arg0 (V : Valuation τ sig (Elt F)) :
    val0 V (no_index (Proc.devRef .tc main_arg0)) = V (Proc.devRef .tc main_arg0) :=
  val0_keep V main_arg0 (by decide)

theorem val0_arg1 (V : Valuation τ sig (Elt F)) :
    val0 V (no_index (Proc.devRef .tc main_arg1)) = V (Proc.devRef .tc main_arg1) :=
  val0_keep V main_arg1 (by decide)

theorem val0_arg2 (V : Valuation τ sig (Elt F)) :
    val0 V (no_index (Proc.devRef .tc main_arg2)) = V (Proc.devRef .tc main_arg2) :=
  val0_keep V main_arg2 (by decide)

theorem val0_arg3 (V : Valuation τ sig (Elt F)) :
    val0 V (no_index (Proc.devRef .tc main_arg3)) = V (Proc.devRef .tc main_arg3) :=
  val0_keep V main_arg3 (by decide)

theorem val0_arg4 (V : Valuation τ sig (Elt F)) :
    val0 V (no_index (Proc.devRef .tc main_arg4)) = V (Proc.devRef .tc main_arg4) :=
  val0_keep V main_arg4 (by decide)

theorem val0_arg5 (V : Valuation τ sig (Elt F)) :
    val0 V (no_index (Proc.devRef .tc main_arg5)) = V (Proc.devRef .tc main_arg5) :=
  val0_keep V main_arg5 (by decide)

/-! ## Stage 1 -/

set_option maxRecDepth 8192 in
theorem val1_v8 (V : Valuation τ sig (Elt F)) :
    val1 V (no_index (Proc.devRef .tc main_v8)) = h1R (V (Proc.devRef .tc main_arg0)) (V (Proc.devRef .tc main_arg2)) := by
  unfold val1
  simp only [ops1]
  after_results_simp
  simp only [val0_arg0, val0_arg2] <;> rfl

theorem val1_v3 (V : Valuation τ sig (Elt F)) :
    val1 V (no_index (Proc.devRef .tc main_v3)) = edgeSrc (V (Proc.devRef .tc main_arg1)) :=
  (val1_keep V main_v3 (by decide)).trans (val0_v3 V)

theorem val1_v6 (V : Valuation τ sig (Elt F)) :
    val1 V (no_index (Proc.devRef .tc main_v6)) = edgeDst (V (Proc.devRef .tc main_arg1)) :=
  (val1_keep V main_v6 (by decide)).trans (val0_v6 V)

theorem val1_arg0 (V : Valuation τ sig (Elt F)) :
    val1 V (no_index (Proc.devRef .tc main_arg0)) = V (Proc.devRef .tc main_arg0) :=
  (val1_keep V main_arg0 (by decide)).trans (val0_arg0 V)

theorem val1_arg1 (V : Valuation τ sig (Elt F)) :
    val1 V (no_index (Proc.devRef .tc main_arg1)) = V (Proc.devRef .tc main_arg1) :=
  (val1_keep V main_arg1 (by decide)).trans (val0_arg1 V)

theorem val1_arg2 (V : Valuation τ sig (Elt F)) :
    val1 V (no_index (Proc.devRef .tc main_arg2)) = V (Proc.devRef .tc main_arg2) :=
  (val1_keep V main_arg2 (by decide)).trans (val0_arg2 V)

theorem val1_arg3 (V : Valuation τ sig (Elt F)) :
    val1 V (no_index (Proc.devRef .tc main_arg3)) = V (Proc.devRef .tc main_arg3) :=
  (val1_keep V main_arg3 (by decide)).trans (val0_arg3 V)

theorem val1_arg4 (V : Valuation τ sig (Elt F)) :
    val1 V (no_index (Proc.devRef .tc main_arg4)) = V (Proc.devRef .tc main_arg4) :=
  (val1_keep V main_arg4 (by decide)).trans (val0_arg4 V)

theorem val1_arg5 (V : Valuation τ sig (Elt F)) :
    val1 V (no_index (Proc.devRef .tc main_arg5)) = V (Proc.devRef .tc main_arg5) :=
  (val1_keep V main_arg5 (by decide)).trans (val0_arg5 V)

/-! ## Stage 2 -/

set_option maxRecDepth 8192 in
set_option maxHeartbeats 2000000 in
theorem val2_v31 (V : Valuation τ sig (Elt F)) :
    val2 V (no_index (Proc.devRef .tc main_v31)) = alpha1R (h1R (V (Proc.devRef .tc main_arg0)) (V (Proc.devRef .tc main_arg2))) (V (Proc.devRef .tc main_arg3)) (edgeSrc (V (Proc.devRef .tc main_arg1))) (edgeDst (V (Proc.devRef .tc main_arg1))) := by
  unfold val2
  simp only [ops2]
  after_results_simp
  simp only [val1_v8, val1_v6, val1_arg3, val1_v3] <;> rfl

set_option maxRecDepth 8192 in
set_option maxHeartbeats 2000000 in
theorem val2_v22 (V : Valuation τ sig (Elt F)) :
    val2 V (no_index (Proc.devRef .tc main_v22)) = rows8x8 (h1R (V (Proc.devRef .tc main_arg0)) (V (Proc.devRef .tc main_arg2))) (edgeSrc (V (Proc.devRef .tc main_arg1))) := by
  unfold val2
  simp only [ops2]
  after_results_simp
  simp only [val1_v8, val1_v3] <;> rfl

theorem val2_v3 (V : Valuation τ sig (Elt F)) :
    val2 V (no_index (Proc.devRef .tc main_v3)) = edgeSrc (V (Proc.devRef .tc main_arg1)) :=
  (val2_keep V main_v3 (by decide)).trans (val1_v3 V)

theorem val2_v6 (V : Valuation τ sig (Elt F)) :
    val2 V (no_index (Proc.devRef .tc main_v6)) = edgeDst (V (Proc.devRef .tc main_arg1)) :=
  (val2_keep V main_v6 (by decide)).trans (val1_v6 V)

theorem val2_arg0 (V : Valuation τ sig (Elt F)) :
    val2 V (no_index (Proc.devRef .tc main_arg0)) = V (Proc.devRef .tc main_arg0) :=
  (val2_keep V main_arg0 (by decide)).trans (val1_arg0 V)

theorem val2_arg1 (V : Valuation τ sig (Elt F)) :
    val2 V (no_index (Proc.devRef .tc main_arg1)) = V (Proc.devRef .tc main_arg1) :=
  (val2_keep V main_arg1 (by decide)).trans (val1_arg1 V)

theorem val2_arg2 (V : Valuation τ sig (Elt F)) :
    val2 V (no_index (Proc.devRef .tc main_arg2)) = V (Proc.devRef .tc main_arg2) :=
  (val2_keep V main_arg2 (by decide)).trans (val1_arg2 V)

theorem val2_arg3 (V : Valuation τ sig (Elt F)) :
    val2 V (no_index (Proc.devRef .tc main_arg3)) = V (Proc.devRef .tc main_arg3) :=
  (val2_keep V main_arg3 (by decide)).trans (val1_arg3 V)

theorem val2_arg4 (V : Valuation τ sig (Elt F)) :
    val2 V (no_index (Proc.devRef .tc main_arg4)) = V (Proc.devRef .tc main_arg4) :=
  (val2_keep V main_arg4 (by decide)).trans (val1_arg4 V)

theorem val2_arg5 (V : Valuation τ sig (Elt F)) :
    val2 V (no_index (Proc.devRef .tc main_arg5)) = V (Proc.devRef .tc main_arg5) :=
  (val2_keep V main_arg5 (by decide)).trans (val1_arg5 V)

/-! ## Stage 3 -/

set_option maxRecDepth 8192 in
set_option maxHeartbeats 2000000 in
theorem val3_v48 (V : Valuation τ sig (Elt F)) :
    val3 V (no_index (Proc.devRef .tc main_v48)) = attn8 (alpha1R (h1R (V (Proc.devRef .tc main_arg0)) (V (Proc.devRef .tc main_arg2))) (V (Proc.devRef .tc main_arg3)) (edgeSrc (V (Proc.devRef .tc main_arg1))) (edgeDst (V (Proc.devRef .tc main_arg1)))) (edgeDst (V (Proc.devRef .tc main_arg1))) := by
  unfold val3
  simp only [ops3]
  after_results_simp
  simp only [val2_v31, val2_v6] <;> rfl

theorem val3_v22 (V : Valuation τ sig (Elt F)) :
    val3 V (no_index (Proc.devRef .tc main_v22)) = rows8x8 (h1R (V (Proc.devRef .tc main_arg0)) (V (Proc.devRef .tc main_arg2))) (edgeSrc (V (Proc.devRef .tc main_arg1))) :=
  (val3_keep V main_v22 (by decide)).trans (val2_v22 V)

theorem val3_v3 (V : Valuation τ sig (Elt F)) :
    val3 V (no_index (Proc.devRef .tc main_v3)) = edgeSrc (V (Proc.devRef .tc main_arg1)) :=
  (val3_keep V main_v3 (by decide)).trans (val2_v3 V)

theorem val3_v6 (V : Valuation τ sig (Elt F)) :
    val3 V (no_index (Proc.devRef .tc main_v6)) = edgeDst (V (Proc.devRef .tc main_arg1)) :=
  (val3_keep V main_v6 (by decide)).trans (val2_v6 V)

theorem val3_arg0 (V : Valuation τ sig (Elt F)) :
    val3 V (no_index (Proc.devRef .tc main_arg0)) = V (Proc.devRef .tc main_arg0) :=
  (val3_keep V main_arg0 (by decide)).trans (val2_arg0 V)

theorem val3_arg1 (V : Valuation τ sig (Elt F)) :
    val3 V (no_index (Proc.devRef .tc main_arg1)) = V (Proc.devRef .tc main_arg1) :=
  (val3_keep V main_arg1 (by decide)).trans (val2_arg1 V)

theorem val3_arg2 (V : Valuation τ sig (Elt F)) :
    val3 V (no_index (Proc.devRef .tc main_arg2)) = V (Proc.devRef .tc main_arg2) :=
  (val3_keep V main_arg2 (by decide)).trans (val2_arg2 V)

theorem val3_arg3 (V : Valuation τ sig (Elt F)) :
    val3 V (no_index (Proc.devRef .tc main_arg3)) = V (Proc.devRef .tc main_arg3) :=
  (val3_keep V main_arg3 (by decide)).trans (val2_arg3 V)

theorem val3_arg4 (V : Valuation τ sig (Elt F)) :
    val3 V (no_index (Proc.devRef .tc main_arg4)) = V (Proc.devRef .tc main_arg4) :=
  (val3_keep V main_arg4 (by decide)).trans (val2_arg4 V)

theorem val3_arg5 (V : Valuation τ sig (Elt F)) :
    val3 V (no_index (Proc.devRef .tc main_arg5)) = V (Proc.devRef .tc main_arg5) :=
  (val3_keep V main_arg5 (by decide)).trans (val2_arg5 V)

/-! ## Stage 4 -/

set_option maxRecDepth 8192 in
theorem val4_v55 (V : Valuation τ sig (Elt F)) :
    val4 V (no_index (Proc.devRef .tc main_v55)) = layer1 (V (Proc.devRef .tc main_arg0)) (V (Proc.devRef .tc main_arg1)) (V (Proc.devRef .tc main_arg2)) (V (Proc.devRef .tc main_arg3)) := by
  unfold val4
  simp only [ops4]
  after_results_simp
  simp only [val3_v6, val3_v22, val3_v48] <;> rfl

theorem val4_v3 (V : Valuation τ sig (Elt F)) :
    val4 V (no_index (Proc.devRef .tc main_v3)) = edgeSrc (V (Proc.devRef .tc main_arg1)) :=
  (val4_keep V main_v3 (by decide)).trans (val3_v3 V)

theorem val4_v6 (V : Valuation τ sig (Elt F)) :
    val4 V (no_index (Proc.devRef .tc main_v6)) = edgeDst (V (Proc.devRef .tc main_arg1)) :=
  (val4_keep V main_v6 (by decide)).trans (val3_v6 V)

theorem val4_arg0 (V : Valuation τ sig (Elt F)) :
    val4 V (no_index (Proc.devRef .tc main_arg0)) = V (Proc.devRef .tc main_arg0) :=
  (val4_keep V main_arg0 (by decide)).trans (val3_arg0 V)

theorem val4_arg1 (V : Valuation τ sig (Elt F)) :
    val4 V (no_index (Proc.devRef .tc main_arg1)) = V (Proc.devRef .tc main_arg1) :=
  (val4_keep V main_arg1 (by decide)).trans (val3_arg1 V)

theorem val4_arg2 (V : Valuation τ sig (Elt F)) :
    val4 V (no_index (Proc.devRef .tc main_arg2)) = V (Proc.devRef .tc main_arg2) :=
  (val4_keep V main_arg2 (by decide)).trans (val3_arg2 V)

theorem val4_arg3 (V : Valuation τ sig (Elt F)) :
    val4 V (no_index (Proc.devRef .tc main_arg3)) = V (Proc.devRef .tc main_arg3) :=
  (val4_keep V main_arg3 (by decide)).trans (val3_arg3 V)

theorem val4_arg4 (V : Valuation τ sig (Elt F)) :
    val4 V (no_index (Proc.devRef .tc main_arg4)) = V (Proc.devRef .tc main_arg4) :=
  (val4_keep V main_arg4 (by decide)).trans (val3_arg4 V)

theorem val4_arg5 (V : Valuation τ sig (Elt F)) :
    val4 V (no_index (Proc.devRef .tc main_arg5)) = V (Proc.devRef .tc main_arg5) :=
  (val4_keep V main_arg5 (by decide)).trans (val3_arg5 V)

/-! ## Stage 5 -/

set_option maxRecDepth 8192 in
set_option maxHeartbeats 1500000 in
theorem val5_v56 (V : Valuation τ sig (Elt F)) :
    val5 V (no_index (Proc.devRef .tc main_v56)) = eluR (layer1 (V (Proc.devRef .tc main_arg0)) (V (Proc.devRef .tc main_arg1)) (V (Proc.devRef .tc main_arg2)) (V (Proc.devRef .tc main_arg3))) := by
  unfold val5
  simp only [ops5]
  after_results_simp
  simp only [val4_v55] <;> rfl

theorem val5_v3 (V : Valuation τ sig (Elt F)) :
    val5 V (no_index (Proc.devRef .tc main_v3)) = edgeSrc (V (Proc.devRef .tc main_arg1)) :=
  (val5_keep V main_v3 (by decide)).trans (val4_v3 V)

theorem val5_v6 (V : Valuation τ sig (Elt F)) :
    val5 V (no_index (Proc.devRef .tc main_v6)) = edgeDst (V (Proc.devRef .tc main_arg1)) :=
  (val5_keep V main_v6 (by decide)).trans (val4_v6 V)

theorem val5_arg0 (V : Valuation τ sig (Elt F)) :
    val5 V (no_index (Proc.devRef .tc main_arg0)) = V (Proc.devRef .tc main_arg0) :=
  (val5_keep V main_arg0 (by decide)).trans (val4_arg0 V)

theorem val5_arg1 (V : Valuation τ sig (Elt F)) :
    val5 V (no_index (Proc.devRef .tc main_arg1)) = V (Proc.devRef .tc main_arg1) :=
  (val5_keep V main_arg1 (by decide)).trans (val4_arg1 V)

theorem val5_arg2 (V : Valuation τ sig (Elt F)) :
    val5 V (no_index (Proc.devRef .tc main_arg2)) = V (Proc.devRef .tc main_arg2) :=
  (val5_keep V main_arg2 (by decide)).trans (val4_arg2 V)

theorem val5_arg3 (V : Valuation τ sig (Elt F)) :
    val5 V (no_index (Proc.devRef .tc main_arg3)) = V (Proc.devRef .tc main_arg3) :=
  (val5_keep V main_arg3 (by decide)).trans (val4_arg3 V)

theorem val5_arg4 (V : Valuation τ sig (Elt F)) :
    val5 V (no_index (Proc.devRef .tc main_arg4)) = V (Proc.devRef .tc main_arg4) :=
  (val5_keep V main_arg4 (by decide)).trans (val4_arg4 V)

theorem val5_arg5 (V : Valuation τ sig (Elt F)) :
    val5 V (no_index (Proc.devRef .tc main_arg5)) = V (Proc.devRef .tc main_arg5) :=
  (val5_keep V main_arg5 (by decide)).trans (val4_arg5 V)

/-! ## Stage 6 -/

set_option maxRecDepth 8192 in
theorem val6_v58 (V : Valuation τ sig (Elt F)) :
    val6 V (no_index (Proc.devRef .tc main_v58)) = h2R (eluR (layer1 (V (Proc.devRef .tc main_arg0)) (V (Proc.devRef .tc main_arg1)) (V (Proc.devRef .tc main_arg2)) (V (Proc.devRef .tc main_arg3)))) (V (Proc.devRef .tc main_arg4)) := by
  unfold val6
  simp only [ops6]
  after_results_simp
  simp only [val5_v56, val5_arg4] <;> rfl

theorem val6_v3 (V : Valuation τ sig (Elt F)) :
    val6 V (no_index (Proc.devRef .tc main_v3)) = edgeSrc (V (Proc.devRef .tc main_arg1)) :=
  (val6_keep V main_v3 (by decide)).trans (val5_v3 V)

theorem val6_v6 (V : Valuation τ sig (Elt F)) :
    val6 V (no_index (Proc.devRef .tc main_v6)) = edgeDst (V (Proc.devRef .tc main_arg1)) :=
  (val6_keep V main_v6 (by decide)).trans (val5_v6 V)

theorem val6_arg0 (V : Valuation τ sig (Elt F)) :
    val6 V (no_index (Proc.devRef .tc main_arg0)) = V (Proc.devRef .tc main_arg0) :=
  (val6_keep V main_arg0 (by decide)).trans (val5_arg0 V)

theorem val6_arg1 (V : Valuation τ sig (Elt F)) :
    val6 V (no_index (Proc.devRef .tc main_arg1)) = V (Proc.devRef .tc main_arg1) :=
  (val6_keep V main_arg1 (by decide)).trans (val5_arg1 V)

theorem val6_arg2 (V : Valuation τ sig (Elt F)) :
    val6 V (no_index (Proc.devRef .tc main_arg2)) = V (Proc.devRef .tc main_arg2) :=
  (val6_keep V main_arg2 (by decide)).trans (val5_arg2 V)

theorem val6_arg3 (V : Valuation τ sig (Elt F)) :
    val6 V (no_index (Proc.devRef .tc main_arg3)) = V (Proc.devRef .tc main_arg3) :=
  (val6_keep V main_arg3 (by decide)).trans (val5_arg3 V)

theorem val6_arg4 (V : Valuation τ sig (Elt F)) :
    val6 V (no_index (Proc.devRef .tc main_arg4)) = V (Proc.devRef .tc main_arg4) :=
  (val6_keep V main_arg4 (by decide)).trans (val5_arg4 V)

theorem val6_arg5 (V : Valuation τ sig (Elt F)) :
    val6 V (no_index (Proc.devRef .tc main_arg5)) = V (Proc.devRef .tc main_arg5) :=
  (val6_keep V main_arg5 (by decide)).trans (val5_arg5 V)

/-! ## Stage 7 -/

set_option maxRecDepth 8192 in
set_option maxHeartbeats 2000000 in
theorem val7_v81 (V : Valuation τ sig (Elt F)) :
    val7 V (no_index (Proc.devRef .tc main_v81)) = alpha2R (h2R (eluR (layer1 (V (Proc.devRef .tc main_arg0)) (V (Proc.devRef .tc main_arg1)) (V (Proc.devRef .tc main_arg2)) (V (Proc.devRef .tc main_arg3)))) (V (Proc.devRef .tc main_arg4))) (V (Proc.devRef .tc main_arg5)) (edgeSrc (V (Proc.devRef .tc main_arg1))) (edgeDst (V (Proc.devRef .tc main_arg1))) := by
  unfold val7
  simp only [ops7]
  after_results_simp
  simp only [val6_v58, val6_v6, val6_arg5, val6_v3] <;> rfl

set_option maxRecDepth 8192 in
set_option maxHeartbeats 2000000 in
theorem val7_v72 (V : Valuation τ sig (Elt F)) :
    val7 V (no_index (Proc.devRef .tc main_v72)) = rows1x40 (h2R (eluR (layer1 (V (Proc.devRef .tc main_arg0)) (V (Proc.devRef .tc main_arg1)) (V (Proc.devRef .tc main_arg2)) (V (Proc.devRef .tc main_arg3)))) (V (Proc.devRef .tc main_arg4))) (edgeSrc (V (Proc.devRef .tc main_arg1))) := by
  unfold val7
  simp only [ops7]
  after_results_simp
  simp only [val6_v58, val6_v3] <;> rfl

theorem val7_v6 (V : Valuation τ sig (Elt F)) :
    val7 V (no_index (Proc.devRef .tc main_v6)) = edgeDst (V (Proc.devRef .tc main_arg1)) :=
  (val7_keep V main_v6 (by decide)).trans (val6_v6 V)

theorem val7_arg0 (V : Valuation τ sig (Elt F)) :
    val7 V (no_index (Proc.devRef .tc main_arg0)) = V (Proc.devRef .tc main_arg0) :=
  (val7_keep V main_arg0 (by decide)).trans (val6_arg0 V)

theorem val7_arg1 (V : Valuation τ sig (Elt F)) :
    val7 V (no_index (Proc.devRef .tc main_arg1)) = V (Proc.devRef .tc main_arg1) :=
  (val7_keep V main_arg1 (by decide)).trans (val6_arg1 V)

theorem val7_arg2 (V : Valuation τ sig (Elt F)) :
    val7 V (no_index (Proc.devRef .tc main_arg2)) = V (Proc.devRef .tc main_arg2) :=
  (val7_keep V main_arg2 (by decide)).trans (val6_arg2 V)

theorem val7_arg3 (V : Valuation τ sig (Elt F)) :
    val7 V (no_index (Proc.devRef .tc main_arg3)) = V (Proc.devRef .tc main_arg3) :=
  (val7_keep V main_arg3 (by decide)).trans (val6_arg3 V)

theorem val7_arg4 (V : Valuation τ sig (Elt F)) :
    val7 V (no_index (Proc.devRef .tc main_arg4)) = V (Proc.devRef .tc main_arg4) :=
  (val7_keep V main_arg4 (by decide)).trans (val6_arg4 V)

theorem val7_arg5 (V : Valuation τ sig (Elt F)) :
    val7 V (no_index (Proc.devRef .tc main_arg5)) = V (Proc.devRef .tc main_arg5) :=
  (val7_keep V main_arg5 (by decide)).trans (val6_arg5 V)

/-! ## Stage 8 -/

set_option maxRecDepth 8192 in
set_option maxHeartbeats 2000000 in
theorem val8_v97 (V : Valuation τ sig (Elt F)) :
    val8 V (no_index (Proc.devRef .tc main_v97)) = attn1 (alpha2R (h2R (eluR (layer1 (V (Proc.devRef .tc main_arg0)) (V (Proc.devRef .tc main_arg1)) (V (Proc.devRef .tc main_arg2)) (V (Proc.devRef .tc main_arg3)))) (V (Proc.devRef .tc main_arg4))) (V (Proc.devRef .tc main_arg5)) (edgeSrc (V (Proc.devRef .tc main_arg1))) (edgeDst (V (Proc.devRef .tc main_arg1)))) (edgeDst (V (Proc.devRef .tc main_arg1))) := by
  unfold val8
  simp only [ops8]
  after_results_simp
  simp only [val7_v81, val7_v6] <;> rfl

theorem val8_v72 (V : Valuation τ sig (Elt F)) :
    val8 V (no_index (Proc.devRef .tc main_v72)) = rows1x40 (h2R (eluR (layer1 (V (Proc.devRef .tc main_arg0)) (V (Proc.devRef .tc main_arg1)) (V (Proc.devRef .tc main_arg2)) (V (Proc.devRef .tc main_arg3)))) (V (Proc.devRef .tc main_arg4))) (edgeSrc (V (Proc.devRef .tc main_arg1))) :=
  (val8_keep V main_v72 (by decide)).trans (val7_v72 V)

theorem val8_v6 (V : Valuation τ sig (Elt F)) :
    val8 V (no_index (Proc.devRef .tc main_v6)) = edgeDst (V (Proc.devRef .tc main_arg1)) :=
  (val8_keep V main_v6 (by decide)).trans (val7_v6 V)

theorem val8_arg0 (V : Valuation τ sig (Elt F)) :
    val8 V (no_index (Proc.devRef .tc main_arg0)) = V (Proc.devRef .tc main_arg0) :=
  (val8_keep V main_arg0 (by decide)).trans (val7_arg0 V)

theorem val8_arg1 (V : Valuation τ sig (Elt F)) :
    val8 V (no_index (Proc.devRef .tc main_arg1)) = V (Proc.devRef .tc main_arg1) :=
  (val8_keep V main_arg1 (by decide)).trans (val7_arg1 V)

theorem val8_arg2 (V : Valuation τ sig (Elt F)) :
    val8 V (no_index (Proc.devRef .tc main_arg2)) = V (Proc.devRef .tc main_arg2) :=
  (val8_keep V main_arg2 (by decide)).trans (val7_arg2 V)

theorem val8_arg3 (V : Valuation τ sig (Elt F)) :
    val8 V (no_index (Proc.devRef .tc main_arg3)) = V (Proc.devRef .tc main_arg3) :=
  (val8_keep V main_arg3 (by decide)).trans (val7_arg3 V)

theorem val8_arg4 (V : Valuation τ sig (Elt F)) :
    val8 V (no_index (Proc.devRef .tc main_arg4)) = V (Proc.devRef .tc main_arg4) :=
  (val8_keep V main_arg4 (by decide)).trans (val7_arg4 V)

theorem val8_arg5 (V : Valuation τ sig (Elt F)) :
    val8 V (no_index (Proc.devRef .tc main_arg5)) = V (Proc.devRef .tc main_arg5) :=
  (val8_keep V main_arg5 (by decide)).trans (val7_arg5 V)

/-! ## Stage 9 -/

set_option maxRecDepth 8192 in
set_option maxHeartbeats 1200000 in
theorem val9_v106 (V : Valuation τ sig (Elt F)) :
    val9 V (no_index (Proc.devRef .tc main_v106)) = layer2 (eluR (layer1 (V (Proc.devRef .tc main_arg0)) (V (Proc.devRef .tc main_arg1)) (V (Proc.devRef .tc main_arg2)) (V (Proc.devRef .tc main_arg3)))) (V (Proc.devRef .tc main_arg1)) (V (Proc.devRef .tc main_arg4)) (V (Proc.devRef .tc main_arg5)) := by
  unfold val9
  simp only [ops9]
  after_results_simp
  simp only [val8_v6, val8_v72, val8_v97] <;> rfl

theorem val9_arg0 (V : Valuation τ sig (Elt F)) :
    val9 V (no_index (Proc.devRef .tc main_arg0)) = V (Proc.devRef .tc main_arg0) :=
  (val9_keep V main_arg0 (by decide)).trans (val8_arg0 V)

theorem val9_arg1 (V : Valuation τ sig (Elt F)) :
    val9 V (no_index (Proc.devRef .tc main_arg1)) = V (Proc.devRef .tc main_arg1) :=
  (val9_keep V main_arg1 (by decide)).trans (val8_arg1 V)

theorem val9_arg2 (V : Valuation τ sig (Elt F)) :
    val9 V (no_index (Proc.devRef .tc main_arg2)) = V (Proc.devRef .tc main_arg2) :=
  (val9_keep V main_arg2 (by decide)).trans (val8_arg2 V)

theorem val9_arg3 (V : Valuation τ sig (Elt F)) :
    val9 V (no_index (Proc.devRef .tc main_arg3)) = V (Proc.devRef .tc main_arg3) :=
  (val9_keep V main_arg3 (by decide)).trans (val8_arg3 V)

theorem val9_arg4 (V : Valuation τ sig (Elt F)) :
    val9 V (no_index (Proc.devRef .tc main_arg4)) = V (Proc.devRef .tc main_arg4) :=
  (val9_keep V main_arg4 (by decide)).trans (val8_arg4 V)

theorem val9_arg5 (V : Valuation τ sig (Elt F)) :
    val9 V (no_index (Proc.devRef .tc main_arg5)) = V (Proc.devRef .tc main_arg5) :=
  (val9_keep V main_arg5 (by decide)).trans (val8_arg5 V)

/-! ## Stage 10 -/

set_option maxRecDepth 8192 in
set_option maxHeartbeats 1500000 in
theorem val10_v107 (V : Valuation τ sig (Elt F)) :
    val10 V (no_index (Proc.devRef .tc main_v107)) = out (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold val10
  simp only [ops10]
  after_results_simp
  simp only [val9_v106] <;> rfl

theorem val10_arg0 (V : Valuation τ sig (Elt F)) :
    val10 V (no_index (Proc.devRef .tc main_arg0)) = V (Proc.devRef .tc main_arg0) :=
  (val10_keep V main_arg0 (by decide)).trans (val9_arg0 V)

theorem val10_arg1 (V : Valuation τ sig (Elt F)) :
    val10 V (no_index (Proc.devRef .tc main_arg1)) = V (Proc.devRef .tc main_arg1) :=
  (val10_keep V main_arg1 (by decide)).trans (val9_arg1 V)

theorem val10_arg2 (V : Valuation τ sig (Elt F)) :
    val10 V (no_index (Proc.devRef .tc main_arg2)) = V (Proc.devRef .tc main_arg2) :=
  (val10_keep V main_arg2 (by decide)).trans (val9_arg2 V)

theorem val10_arg3 (V : Valuation τ sig (Elt F)) :
    val10 V (no_index (Proc.devRef .tc main_arg3)) = V (Proc.devRef .tc main_arg3) :=
  (val10_keep V main_arg3 (by decide)).trans (val9_arg3 V)

theorem val10_arg4 (V : Valuation τ sig (Elt F)) :
    val10 V (no_index (Proc.devRef .tc main_arg4)) = V (Proc.devRef .tc main_arg4) :=
  (val10_keep V main_arg4 (by decide)).trans (val9_arg4 V)

theorem val10_arg5 (V : Valuation τ sig (Elt F)) :
    val10 V (no_index (Proc.devRef .tc main_arg5)) = V (Proc.devRef .tc main_arg5) :=
  (val10_keep V main_arg5 (by decide)).trans (val9_arg5 V)

end Cert.ReferenceIdeal.RefRun

end
-- ==== Proof.RefRun.lean ====
/-
  The reference's run: from any memory with zero counters, every weakly fair execution of the reference terminates
  with the result buffer holding `out` of the six arguments' launch contents and the arguments unchanged.

  The program is a straight line of host operations (`main_eq`), so every execution ends with each buffer at the
  line's fold over the launch contents; the line is the eleven stages in a row (`ops_split`), so that fold is the
  stages' folds composed, and the stages' module-by-module reading gives the result buffer and the arguments.
-/
import proofs.«160089_j1881195675933_1_alg».proof.Proof.RefMain
import proofs.«160089_j1881195675933_1_alg».proof.Proof.RefVals
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Reading the whole line is reading the stages one after the other. -/
theorem after_ops (V : Valuation τ sig (Elt F)) : after ops V = val10 V := by
  rw [ops_split]
  simp only [after_append]
  rfl

/-- On every device, for any float values, from any memory with zero counters: every weakly fair execution of the
    reference terminates with the result at `out` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v107) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v107).trans ((congrFun (after_ops (launchContents m c)) _).trans (val10_v107 (launchContents m c))),
      (h c main_arg0).trans ((congrFun (after_ops (launchContents m c)) _).trans (val10_arg0 (launchContents m c))),
      (h c main_arg1).trans ((congrFun (after_ops (launchContents m c)) _).trans (val10_arg1 (launchContents m c))),
      (h c main_arg2).trans ((congrFun (after_ops (launchContents m c)) _).trans (val10_arg2 (launchContents m c))),
      (h c main_arg3).trans ((congrFun (after_ops (launchContents m c)) _).trans (val10_arg3 (launchContents m c))),
      (h c main_arg4).trans ((congrFun (after_ops (launchContents m c)) _).trans (val10_arg4 (launchContents m c))),
      (h c main_arg5).trans ((congrFun (after_ops (launchContents m c)) _).trans (val10_arg5 (launchContents m c)))⟩)
    (run_seq scopedRefs_eq scopedSems_eq defs main (fun _ => ops) main_eq (fun _ => ops_sub) m ρ)

end Cert.ReferenceIdeal.RefRun

end
-- ==== Proof.LibRowOps.lean ====
/-
  Rows gathered and rows accumulated, read at an index.

  A table `x : [N, C]` (or `[N, A, B]`) gathered at a column of start indices `idx : [E, 1]` — what `x[idx]` of a table of rows
  lowers to — has at `(e, j)` the entry `x (row e, j)`, where `row e` is the start index read signed and clamped into
  `[0, N − 1]`.  Dually, accumulating updates `u : [E, C]` into a table at a column of scatter indices gives at `(n, j)` the
  table's entry plus the sum of `u (e, j)` over the edges `e` whose index, read signed, is exactly `n` (an index outside
  `[0, N)` names no row and its update is dropped).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-- The row a start-index word names: read signed, clamped into `[0, N − 1]`. -/
def rowOf {w : Nat} (N : Nat) (hN : 0 < N) (v : BitVec w) : Fin N := ⟨min v.toInt.toNat (N - 1), by omega⟩

section Gather2
variable {α : Type}

/-- The dimension numbers of a row gather from `[N, C]` at `[E, 1]` start indices. -/
abbrev rowDims2 (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gathered table at `(e, j)` is the table at `(row e, j)`. -/
theorem gather_row2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims2 N C E wf) x idx (ix2 e j) = x (ix2 (rowOf N hN (idx (ix2 e 0))) j) := by
  unfold Host.gather
  congr 1
  funext a
  refine Fin.ext ?_
  show (rowDims2 N C E wf).start (ix2 e j) idx a + (rowDims2 N C E wf).batchCoord (ix2 e j) a
    + (rowDims2 N C E wf).offCoord (ix2 e j) a = _
  rw [GatherDims.batchCoord_eq_zero _ _ _ List.not_mem_nil]
  have ha : a = 0 ∨ a = 1 := by
    rcases a with ⟨v, hv⟩
    have hv2 : v < 2 := hv
    interval_cases v
    · exact Or.inl rfl
    · exact Or.inr rfl
  rcases ha with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C E wf).startIndexMap from List.mem_singleton.mpr rfl)]
    have hsi : (rowDims2 N C E wf).siIdx (ix2 e j) ⟨List.idxOf (0 : Fin 2) (rowDims2 N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ (rowDims2 N C E wf).startIndexMap from
      fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Gather2

section Gather3
variable {α : Type}

/-- The dimension numbers of a row gather from `[N, A, B]` at `[E, 1]` start indices. -/
abbrev rowDims3 (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The gathered table at `(e, a, b)` is the table at `(row e, a, b)`. -/
theorem gather_row3_apply {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (rowDims3 N A B E wf) x idx (ix3 e a b) = x (ix3 (rowOf N hN (idx (ix2 e 0))) a b) := by
  unfold Host.gather
  congr 1
  funext k
  refine Fin.ext ?_
  show (rowDims3 N A B E wf).start (ix3 e a b) idx k + (rowDims3 N A B E wf).batchCoord (ix3 e a b) k
    + (rowDims3 N A B E wf).offCoord (ix3 e a b) k = _
  rw [GatherDims.batchCoord_eq_zero _ _ _ List.not_mem_nil]
  have hk : k = 0 ∨ k = 1 ∨ k = 2 := by
    rcases k with ⟨v, hv⟩
    have hv3 : v < 3 := hv
    interval_cases v
    · exact Or.inl rfl
    · exact Or.inr (Or.inl rfl)
    · exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N A B E wf).startIndexMap from List.mem_singleton.mpr rfl)]
    have hsi : (rowDims3 N A B E wf).siIdx (ix3 e a b) ⟨List.idxOf (0 : Fin 3) (rowDims3 N A B E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  · unfold GatherDims.start
    rw [dif_neg (show (1 : Fin 3) ∉ (rowDims3 N A B E wf).startIndexMap from
      fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl
  · unfold GatherDims.start
    rw [dif_neg (show (2 : Fin 3) ∉ (rowDims3 N A B E wf).startIndexMap from
      fun h => absurd (congrArg Fin.val (List.mem_singleton.mp h)) (Nat.succ_ne_zero 1))]
    simp only [Nat.zero_add]
    unfold GatherDims.offCoord
    rw [dif_pos ((GatherDims.mem_sKept _ _).mpr
      ⟨fun h => absurd (congrArg Fin.val (List.mem_singleton.mp h)) (Nat.succ_ne_zero 1), List.not_mem_nil⟩)]
    rfl

end Gather3

section Scatter2

/-- The dimension numbers of a row accumulation into `[N, C]` at `[E, 1]` scatter indices. -/
abbrev rowScat2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)
  (idx : IVec ⟨2, ![E, 1]⟩ w)

theorem scat2_start0 (e : Fin E) (j : Fin C) :
    (rowScat2 N C E wf).start (ix2 e j) idx 0 = (idx (ix2 e 0)).toInt := by
  unfold ScatterDims.start
  rw [dif_pos (show (0 : Fin 2) ∈ (rowScat2 N C E wf).scatterDimsToOperandDims from List.mem_singleton.mpr rfl)]
  have hsi : (rowScat2 N C E wf).siIdx (ix2 e j) ⟨List.idxOf (0 : Fin 2) (rowScat2 N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scat2_start1 (e : Fin E) (j : Fin C) : (rowScat2 N C E wf).start (ix2 e j) idx 1 = 0 := by
  unfold ScatterDims.start
  rw [dif_neg (show (1 : Fin 2) ∉ (rowScat2 N C E wf).scatterDimsToOperandDims from
    fun h => absurd (congrArg Fin.val (List.mem_singleton.mp h)) Nat.one_ne_zero)]

theorem scat2_window0 (e : Fin E) (j : Fin C) : (rowScat2 N C E wf).window (ix2 e j) 0 = 0 := by
  unfold ScatterDims.window
  rw [dif_neg (show (0 : Fin 2) ∉ (rowScat2 N C E wf).sKept from by simp [ScatterDims.sKept, Shape.kept])]

theorem scat2_window1 (e : Fin E) (j : Fin C) : (rowScat2 N C E wf).window (ix2 e j) 1 = j.val := by
  unfold ScatterDims.window
  rw [dif_pos (show (1 : Fin 2) ∈ (rowScat2 N C E wf).sKept from by simp [ScatterDims.sKept, Shape.kept])]
  rfl

/-- Update `(e, j)` lands on table entry `(n, j')` exactly when edge `e`'s index, read signed, is `n` and `j = j'`. -/
theorem scat2_hit (e : Fin E) (j : Fin C) (n : Fin N) (j' : Fin C) :
    (rowScat2 N C E wf).resultIdx? (ix2 e j) idx = some (ix2 n j') ↔ (idx (ix2 e 0)).toInt = (n.val : ℤ) ∧ j = j' := by
  have hn : n.val < N := n.isLt
  have hj : j.val < C := j.isLt
  have hall_iff : ∀ a, (rowScat2 N C E wf).start (ix2 e j) idx a + ((rowScat2 N C E wf).window (ix2 e j) a : ℤ)
      = if a = 0 then (idx (ix2 e 0)).toInt else (j.val : ℤ) := by
    intro a
    have ha : a = 0 ∨ a = 1 := by
      rcases a with ⟨v, hv⟩
      have hv2 : v < 2 := hv
      interval_cases v
      · exact Or.inl rfl
      · exact Or.inr rfl
    rcases ha with rfl | rfl
    · rw [scat2_start0, scat2_window0, if_pos rfl]; simp
    · rw [scat2_start1, scat2_window1, if_neg (fun h => absurd (congrArg Fin.val h) Nat.one_ne_zero)]; simp
  unfold ScatterDims.resultIdx?
  constructor
  · intro h
    split at h
    · have hEq := Option.some.inj h
      have h0 := congrArg (fun f => (f 0).val) hEq
      have h1 := congrArg (fun f => (f 1).val) hEq
      rename_i hall
      have hb := (hall 0).1
      rw [hall_iff 0, if_pos rfl] at hb
      simp only [hall_iff, if_pos, if_neg (fun h : (1 : Fin 2) = 0 => absurd (congrArg Fin.val h) Nat.one_ne_zero)] at h0 h1
      have h0' : (idx (ix2 e 0)).toInt.toNat = n.val := h0
      have h1' : ((j.val : ℤ)).toNat = j'.val := h1
      refine ⟨by omega, Fin.ext (by omega)⟩
    · exact absurd h (by simp)
  · rintro ⟨hv, rfl⟩
    have hall : ∀ a, 0 ≤ (rowScat2 N C E wf).start (ix2 e j) idx a + ((rowScat2 N C E wf).window (ix2 e j) a : ℤ) ∧
        (rowScat2 N C E wf).start (ix2 e j) idx a + ((rowScat2 N C E wf).window (ix2 e j) a : ℤ)
          < ((⟨2, ![N, C]⟩ : Shape).size a : ℤ) := by
      intro a
      rw [hall_iff a]
      have ha : a = 0 ∨ a = 1 := by
        rcases a with ⟨v, hv⟩
        have hv2 : v < 2 := hv
        interval_cases v
        · exact Or.inl rfl
        · exact Or.inr rfl
      rcases ha with rfl | rfl
      · rw [if_pos rfl, hv]
        refine ⟨by omega, ?_⟩
        show (n.val : ℤ) < (N : ℤ)
        omega
      · rw [if_neg (fun h => absurd (congrArg Fin.val h) Nat.one_ne_zero)]
        refine ⟨by omega, ?_⟩
        show (j.val : ℤ) < (C : ℤ)
        omega
    rw [dif_pos hall]
    congr 1
    funext a
    refine Fin.ext ?_
    show ((rowScat2 N C E wf).start (ix2 e j) idx a + ((rowScat2 N C E wf).window (ix2 e j) a : ℤ)).toNat = _
    rw [hall_iff a]
    have ha : a = 0 ∨ a = 1 := by
      rcases a with ⟨v, hv⟩
      have hv2 : v < 2 := hv
      interval_cases v
      · exact Or.inl rfl
      · exact Or.inr rfl
    rcases ha with rfl | rfl
    · rw [if_pos rfl, hv]
      show ((n.val : ℤ)).toNat = n.val
      omega
    · rw [if_neg (fun h => absurd (congrArg Fin.val h) Nat.one_ne_zero)]
      show ((j.val : ℤ)).toNat = j.val
      omega

/-- The accumulated table at `(n, j)`: its entry plus the updates of the edges whose index is `n`. -/
theorem scatterAdd_row2_apply (x : FVec Ideal ⟨2, ![N, C]⟩ .f32) (upd : FVec Ideal ⟨2, ![E, C]⟩ .f32) (n : Fin N) (j : Fin C) :
    Host.scatterAdd (F := Ideal) (rowScat2 N C E wf) x idx upd (ix2 n j)
      = x (ix2 n j) + ∑ e : Fin E, if (idx (ix2 e 0)).toInt = (n.val : ℤ) then upd (ix2 e j) else 0 := by
  show x (ix2 n j) + ∑ u ∈ Finset.univ.filter (fun u => (rowScat2 N C E wf).resultIdx? u idx = some (ix2 n j)), upd u = _
  congr 1
  rw [Finset.sum_filter, sum_idx2]
  refine Finset.sum_congr rfl fun e _ => ?_
  by_cases he : (idx (ix2 e 0)).toInt = (n.val : ℤ)
  · rw [if_pos he]
    rw [Finset.sum_eq_single j]
    · rw [if_pos ((scat2_hit wf idx e j n j).mpr ⟨he, rfl⟩)]
    · intro j' _ hne
      rw [if_neg (fun h => hne ((scat2_hit wf idx e j' n j).mp h).2)]
    · intro h; exact absurd (Finset.mem_univ j) h
  · rw [if_neg he]
    refine Finset.sum_eq_zero fun j' _ => ?_
    rw [if_neg (fun h => he ((scat2_hit wf idx e j' n j).mp h).1)]

end Scatter2

section Scatter3

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a row accumulation into `[N, A, B]` at `[E, 1]` scatter indices. -/
abbrev rowScat3 (N A B E : Nat) (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N A B E w : Nat} (wf : ScatterDims.WF ⟨3, ![N, A, B]⟩ ⟨2, ![E, 1]⟩ ⟨3, ![E, A, B]⟩ [1, 2] [0] [0] 1)
  (idx : IVec ⟨2, ![E, 1]⟩ w)

theorem axis3_cases (k : Fin (⟨3, ![N, A, B]⟩ : Shape).rank) : k = 0 ∨ k = 1 ∨ k = 2 := by
  rcases k with ⟨v, hv⟩
  have hv3 : v < 3 := hv
  interval_cases v
  · exact Or.inl rfl
  · exact Or.inr (Or.inl rfl)
  · exact Or.inr (Or.inr rfl)

theorem scat3_sum (e : Fin E) (a : Fin A) (b : Fin B) (k : Fin (⟨3, ![N, A, B]⟩ : Shape).rank) :
    (rowScat3 N A B E wf).start (ix3 e a b) idx k + ((rowScat3 N A B E wf).window (ix3 e a b) k : ℤ)
      = if k = 0 then (idx (ix2 e 0)).toInt else if k = 1 then (a.val : ℤ) else (b.val : ℤ) := by
  rcases axis3_cases k with rfl | rfl | rfl
  · rw [if_pos rfl]
    unfold ScatterDims.start ScatterDims.window
    rw [dif_pos (show (0 : Fin 3) ∈ (rowScat3 N A B E wf).scatterDimsToOperandDims from List.mem_singleton.mpr rfl),
      dif_neg (show (0 : Fin 3) ∉ (rowScat3 N A B E wf).sKept from by simp [ScatterDims.sKept, Shape.kept])]
    have hsi : (rowScat3 N A B E wf).siIdx (ix3 e a b) ⟨List.idxOf (0 : Fin 3) (rowScat3 N A B E wf).scatterDimsToOperandDims,
        List.idxOf_lt_length_iff.2 (List.mem_singleton.mpr rfl)⟩ = ix2 e 0 := by
      funext c; refine Fin.ext ?_
      match c with
      | ⟨0, _⟩ => rfl
      | ⟨1, _⟩ => rfl
    rw [hsi]; simp
  · rw [if_neg (fun h => absurd (congrArg Fin.val h) Nat.one_ne_zero), if_pos rfl]
    unfold ScatterDims.start ScatterDims.window
    rw [dif_neg (show (1 : Fin 3) ∉ (rowScat3 N A B E wf).scatterDimsToOperandDims from
        fun h => absurd (congrArg Fin.val (List.mem_singleton.mp h)) Nat.one_ne_zero),
      dif_pos (show (1 : Fin 3) ∈ (rowScat3 N A B E wf).sKept from by simp [ScatterDims.sKept, Shape.kept])]
    simp only [Int.zero_add]
    rfl
  · rw [if_neg (fun h => absurd (congrArg Fin.val h) (Nat.succ_ne_zero 1)),
      if_neg (fun h => absurd (congrArg Fin.val h) (by decide : (2 : ℕ) ≠ 1))]
    unfold ScatterDims.start ScatterDims.window
    rw [dif_neg (show (2 : Fin 3) ∉ (rowScat3 N A B E wf).scatterDimsToOperandDims from
        fun h => absurd (congrArg Fin.val (List.mem_singleton.mp h)) (Nat.succ_ne_zero 1)),
      dif_pos (show (2 : Fin 3) ∈ (rowScat3 N A B E wf).sKept from by simp [ScatterDims.sKept, Shape.kept])]
    simp only [Int.zero_add]
    rfl

/-- Update `(e, a, b)` lands on table entry `(n, a', b')` exactly when edge `e`'s index, read signed, is `n`, `a = a'`, `b = b'`. -/
theorem scat3_hit (e : Fin E) (a : Fin A) (b : Fin B) (n : Fin N) (a' : Fin A) (b' : Fin B) :
    (rowScat3 N A B E wf).resultIdx? (ix3 e a b) idx = some (ix3 n a' b')
      ↔ (idx (ix2 e 0)).toInt = (n.val : ℤ) ∧ a = a' ∧ b = b' := by
  have hn : n.val < N := n.isLt
  have ha : a.val < A := a.isLt
  have hb : b.val < B := b.isLt
  have h10 : ¬ ((1 : Fin (⟨3, ![N, A, B]⟩ : Shape).rank) = 0) := fun h => absurd (congrArg Fin.val h) Nat.one_ne_zero
  have h20 : ¬ ((2 : Fin (⟨3, ![N, A, B]⟩ : Shape).rank) = 0) := fun h => absurd (congrArg Fin.val h) (Nat.succ_ne_zero 1)
  have h21 : ¬ ((2 : Fin (⟨3, ![N, A, B]⟩ : Shape).rank) = 1) := fun h => absurd (congrArg Fin.val h) (by decide : (2 : ℕ) ≠ 1)
  unfold ScatterDims.resultIdx?
  constructor
  · intro h
    split at h
    · rename_i hall
      have hEq := Option.some.inj h
      have h0 : ((rowScat3 N A B E wf).start (ix3 e a b) idx 0 + ((rowScat3 N A B E wf).window (ix3 e a b) 0 : ℤ)).toNat = n.val :=
        congrArg (fun f => (f 0).val) hEq
      have h1 : ((rowScat3 N A B E wf).start (ix3 e a b) idx 1 + ((rowScat3 N A B E wf).window (ix3 e a b) 1 : ℤ)).toNat = a'.val :=
        congrArg (fun f => (f 1).val) hEq
      have h2 : ((rowScat3 N A B E wf).start (ix3 e a b) idx 2 + ((rowScat3 N A B E wf).window (ix3 e a b) 2 : ℤ)).toNat = b'.val :=
        congrArg (fun f => (f 2).val) hEq
      have hb0 := (hall 0).1
      rw [scat3_sum, if_pos rfl] at hb0 h0
      rw [scat3_sum, if_neg h10, if_pos rfl] at h1
      rw [scat3_sum, if_neg h20, if_neg h21] at h2
      refine ⟨by omega, Fin.ext (by omega), Fin.ext (by omega)⟩
    · exact absurd h (by simp)
  · rintro ⟨hv, rfl, rfl⟩
    have hall : ∀ k, 0 ≤ (rowScat3 N A B E wf).start (ix3 e a b) idx k + ((rowScat3 N A B E wf).window (ix3 e a b) k : ℤ) ∧
        (rowScat3 N A B E wf).start (ix3 e a b) idx k + ((rowScat3 N A B E wf).window (ix3 e a b) k : ℤ)
          < ((⟨3, ![N, A, B]⟩ : Shape).size k : ℤ) := by
      intro k
      rw [scat3_sum]
      rcases axis3_cases k with rfl | rfl | rfl
      · rw [if_pos rfl, hv]
        refine ⟨by omega, ?_⟩
        show (n.val : ℤ) < (N : ℤ)
        omega
      · rw [if_neg h10, if_pos rfl]
        refine ⟨by omega, ?_⟩
        show (a.val : ℤ) < (A : ℤ)
        omega
      · rw [if_neg h20, if_neg h21]
        refine ⟨by omega, ?_⟩
        show (b.val : ℤ) < (B : ℤ)
        omega
    rw [dif_pos hall]
    congr 1
    funext k
    refine Fin.ext ?_
    show ((rowScat3 N A B E wf).start (ix3 e a b) idx k + ((rowScat3 N A B E wf).window (ix3 e a b) k : ℤ)).toNat = _
    rw [scat3_sum]
    rcases axis3_cases k with rfl | rfl | rfl
    · rw [if_pos rfl, hv]
      show ((n.val : ℤ)).toNat = n.val
      omega
    · rw [if_neg h10, if_pos rfl]
      show ((a.val : ℤ)).toNat = a.val
      omega
    · rw [if_neg h20, if_neg h21]
      show ((b.val : ℤ)).toNat = b.val
      omega

/-- The accumulated table at `(n, a, b)`: its entry plus the updates of the edges whose index is `n`. -/
theorem scatterAdd_row3_apply (x : FVec Ideal ⟨3, ![N, A, B]⟩ .f32) (upd : FVec Ideal ⟨3, ![E, A, B]⟩ .f32)
    (n : Fin N) (a : Fin A) (b : Fin B) :
    Host.scatterAdd (F := Ideal) (rowScat3 N A B E wf) x idx upd (ix3 n a b)
      = x (ix3 n a b) + ∑ e : Fin E, if (idx (ix2 e 0)).toInt = (n.val : ℤ) then upd (ix3 e a b) else 0 := by
  show x (ix3 n a b) + ∑ u ∈ Finset.univ.filter (fun u => (rowScat3 N A B E wf).resultIdx? u idx = some (ix3 n a b)), upd u = _
  congr 1
  rw [Finset.sum_filter, sum_idx3]
  refine Finset.sum_congr rfl fun e _ => ?_
  by_cases he : (idx (ix2 e 0)).toInt = (n.val : ℤ)
  · rw [if_pos he]
    rw [Finset.sum_eq_single a]
    · rw [Finset.sum_eq_single b]
      · rw [if_pos ((scat3_hit wf idx e a b n a b).mpr ⟨he, rfl, rfl⟩)]
      · intro b' _ hne
        rw [if_neg (fun h => hne ((scat3_hit wf idx e a b' n a b).mp h).2.2)]
      · intro h; exact absurd (Finset.mem_univ b) h
    · intro a' _ hne
      refine Finset.sum_eq_zero fun b' _ => ?_
      rw [if_neg (fun h => hne ((scat3_hit wf idx e a' b' n a b).mp h).2.1)]
    · intro h; exact absurd (Finset.mem_univ a) h
  · rw [if_neg he]
    refine Finset.sum_eq_zero fun a' _ => Finset.sum_eq_zero fun b' _ => ?_
    rw [if_neg (fun h => he ((scat3_hit wf idx e a' b' n a b).mp h).1)]

end Scatter3

end Idealize.ShloMosaic.RowOps

end
-- ==== Proof.LibGrouped.lean ====
/-
  A table of rows seen flat, `[N, A·B]`, and grouped, `[N, A, B]`: column `a·B + b` of the flat table is entry `(a, b)` of
  the grouped one.  A sum over the `A·B` columns is the double sum over groups and members; a reshape between the two
  forms moves an entry to the position with the same coordinates.
-/
import Idealize.ShloMosaic.Lib.Pipeline.Value
import Idealize.ShloMosaic.PureOps.Ideal.Laws
import proofs.«160089_j1881195675933_1_alg».proof.Proof.LibRowOps

noncomputable section

open scoped BigOperators

namespace Idealize.ShloMosaic.RowOps

open Idealize.ShloMosaic Idealize.ShloMosaic.ValueIdx

variable {N A B C E : Nat}

/-- The flat column of member `b` of group `a`. -/
def flat (hC : C = A * B) (a : Fin A) (b : Fin B) : Fin C :=
  ⟨a.val * B + b.val, by
    subst hC
    calc a.val * B + b.val < a.val * B + B := Nat.add_lt_add_left b.isLt _
      _ = (a.val + 1) * B := (Nat.succ_mul _ _).symm
      _ ≤ A * B := Nat.mul_le_mul_right _ a.isLt⟩

@[simp] theorem flat_val (hC : C = A * B) (a : Fin A) (b : Fin B) : (flat hC a b).val = a.val * B + b.val := rfl

/-- Every flat column is a member of a group. -/
theorem exists_flat (hC : C = A * B) (j : Fin C) : ∃ (a : Fin A) (b : Fin B), j = flat hC a b := by
  subst hC
  obtain ⟨jv, hj⟩ := j
  have hB : 0 < B := by
    rcases Nat.eq_zero_or_pos B with h | h
    · subst h; simp at hj
    · exact h
  refine ⟨⟨jv / B, (Nat.div_lt_iff_lt_mul hB).mpr hj⟩, ⟨jv % B, Nat.mod_lt _ hB⟩, Fin.ext ?_⟩
  show jv = jv / B * B + jv % B
  have := Nat.div_add_mod jv B
  rw [Nat.mul_comm] at this
  exact this.symm

/-- A sum over the flat columns is the double sum over groups and members. -/
theorem sum_flat {M : Type*} [AddCommMonoid M] (hC : C = A * B) (f : Fin C → M) :
    ∑ k : Fin C, f k = ∑ a : Fin A, ∑ b : Fin B, f (flat hC a b) := by
  subst hC
  rw [← Equiv.sum_comp finProdFinEquiv f, Fintype.sum_prod_type]
  refine Finset.sum_congr rfl fun a _ => Finset.sum_congr rfl fun b _ => congrArg f (Fin.ext ?_)
  show b.val + B * a.val = a.val * B + b.val
  rw [Nat.mul_comm, Nat.add_comm]

section Casts
variable {α : Type}

/-- The grouped form of a flat table at `(n, a, b)` is the flat table at column `a·B + b`. -/
theorem cast_grouped_apply (hC : C = A * B) (H : (⟨2, ![N, C]⟩ : Shape).Idx → α)
    (h : (⟨2, ![N, C]⟩ : Shape).ShapeCasts ⟨3, ![N, A, B]⟩) (n : Fin N) (a : Fin A) (b : Fin B) :
    shapeCast ⟨3, ![N, A, B]⟩ H h (ix3 n a b) = H (ix2 n (flat hC a b)) := by
  refine shapeCast_apply H h _ _ ?_
  rw [Shape.rowMajor_val_two, Shape.rowMajor_val_three]
  show n.val * C + (a.val * B + b.val) = (n.val * A + a.val) * B + b.val
  subst hC; ring

/-- The flat form of a grouped table at column `a·B + b` is the grouped table at `(n, a, b)`. -/
theorem cast_flat_apply (hC : C = A * B) (G : (⟨3, ![N, A, B]⟩ : Shape).Idx → α)
    (h : (⟨3, ![N, A, B]⟩ : Shape).ShapeCasts ⟨2, ![N, C]⟩) (n : Fin N) (a : Fin A) (b : Fin B) :
    shapeCast ⟨2, ![N, C]⟩ G h (ix2 n (flat hC a b)) = G (ix3 n a b) := by
  refine shapeCast_apply G h _ _ ?_
  rw [Shape.rowMajor_val_two, Shape.rowMajor_val_three]
  show (n.val * A + a.val) * B + b.val = n.val * C + (a.val * B + b.val)
  subst hC; ring

/-- A per-group weight `[E, A]` spread over the members, `[E, A, B]` (a broadcast along a new last axis). -/
theorem spread_apply (x : (⟨2, ![E, A]⟩ : Shape).Idx → α)
    (h : (⟨2, ![E, A]⟩ : Shape).BroadcastsInDim ⟨3, ![E, A, B]⟩ ![0, 1]) (e : Fin E) (a : Fin A) (b : Fin B) :
    broadcastInDim ⟨3, ![E, A, B]⟩ ![0, 1] h x (ix3 e a b) = x (ix2 e a) := by
  refine broadcastInDim_apply _ h x _ _ fun k => ?_
  have hk : k = 0 ∨ k = 1 := by
    rcases k with ⟨v, hv⟩
    have hv2 : v < 2 := hv
    interval_cases v
    · exact Or.inl rfl
    · exact Or.inr rfl
  rcases hk with rfl | rfl
  · show e.val = if E = 1 then 0 else e.val
    split
    · have := e.isLt; omega
    · rfl
  · show a.val = if A = 1 then 0 else a.val
    split
    · have := a.isLt; omega
    · rfl

/-- The same weight given a unit last axis first, `[E, A, 1]` … -/
theorem unit_apply (x : (⟨2, ![E, A]⟩ : Shape).Idx → α)
    (h : (⟨2, ![E, A]⟩ : Shape).BroadcastsInDim ⟨3, ![E, A, 1]⟩ ![0, 1]) (e : Fin E) (a : Fin A) (u : Fin 1) :
    broadcastInDim ⟨3, ![E, A, 1]⟩ ![0, 1] h x (ix3 e a u) = x (ix2 e a) := by
  refine broadcastInDim_apply _ h x _ _ fun k => ?_
  have hk : k = 0 ∨ k = 1 := by
    rcases k with ⟨v, hv⟩
    have hv2 : v < 2 := hv
    interval_cases v
    · exact Or.inl rfl
    · exact Or.inr rfl
  rcases hk with rfl | rfl
  · show e.val = if E = 1 then 0 else e.val
    split
    · have := e.isLt; omega
    · rfl
  · show a.val = if A = 1 then 0 else a.val
    split
    · have := a.isLt; omega
    · rfl

/-- … and then spread along it, `[E, A, 1] → [E, A, B]`. -/
theorem widen_apply (x : (⟨3, ![E, A, 1]⟩ : Shape).Idx → α)
    (h : (⟨3, ![E, A, 1]⟩ : Shape).BroadcastsInDim ⟨3, ![E, A, B]⟩ ![0, 1, 2]) (e : Fin E) (a : Fin A) (b : Fin B) :
    broadcastInDim ⟨3, ![E, A, B]⟩ ![0, 1, 2] h x (ix3 e a b) = x (ix3 e a 0) := by
  refine broadcastInDim_apply _ h x _ _ fun k => ?_
  rcases axis3_cases (N := E) (A := A) (B := 1) k with rfl | rfl | rfl
  · show e.val = if E = 1 then 0 else e.val
    split
    · have := e.isLt; omega
    · rfl
  · show a.val = if A = 1 then 0 else a.val
    split
    · have := a.isLt; omega
    · rfl
  · show (0 : ℕ) = if (1 : ℕ) = 1 then 0 else b.val
    rfl

end Casts

section Aggregate
variable {w : Nat}

/-- Weighted accumulation, flat against grouped.  Flat: each edge's source row of `H : [N, C]`, every column scaled by its
    GROUP's weight (the weights `[E, A]` spread to `[E, A, B]` and flattened), summed into the edge's target row.  Grouped:
    the same on `H` seen `[N, A, B]`, the weights spread through a unit axis, the result flattened.  Entry `(n, a·B + b)` of
    both is the table's entry plus `Σ_e [target e = n] · H (row e, a·B + b) · an (e, a)`. -/
theorem agg_flat_eq_grouped (hN : 0 < N) (hC : C = A * B)
    (wfG2 : GatherDims.WF ⟨2, ![N, C]⟩ ⟨2, ![E, 1]⟩ ⟨2, ![E, C]⟩ [1] [0] [] [0] [] 1 ![1, C])
    (wfG3 : GatherDims.WF ⟨3, ![N, A, B]⟩ ⟨2, ![E, 1]⟩ ⟨3, ![E, A, B]⟩ [1, 2] [0] [] [0] [] 1 ![1, A, B])
    (wfS2 : ScatterDims.WF ⟨2, ![N, C]⟩ ⟨2, ![E, 1]⟩ ⟨2, ![E, C]⟩ [1] [0] [0] 1)
    (wfS3 : ScatterDims.WF ⟨3, ![N, A, B]⟩ ⟨2, ![E, 1]⟩ ⟨3, ![E, A, B]⟩ [1, 2] [0] [0] 1)
    (hcN : (⟨2, ![N, C]⟩ : Shape).ShapeCasts ⟨3, ![N, A, B]⟩)
    (hcN' : (⟨3, ![N, A, B]⟩ : Shape).ShapeCasts ⟨2, ![N, C]⟩)
    (hcE' : (⟨3, ![E, A, B]⟩ : Shape).ShapeCasts ⟨2, ![E, C]⟩)
    (hb1 : (⟨2, ![E, A]⟩ : Shape).BroadcastsInDim ⟨3, ![E, A, B]⟩ ![0, 1])
    (hb2 : (⟨2, ![E, A]⟩ : Shape).BroadcastsInDim ⟨3, ![E, A, 1]⟩ ![0, 1])
    (hb3 : (⟨3, ![E, A, 1]⟩ : Shape).BroadcastsInDim ⟨3, ![E, A, B]⟩ ![0, 1, 2])
    (z2 : FVec Ideal ⟨2, ![N, C]⟩ .f32) (z3 : FVec Ideal ⟨3, ![N, A, B]⟩ .f32)
    (hz : ∀ n a b, z3 (ix3 n a b) = z2 (ix2 n (flat hC a b)))
    (H : FVec Ideal ⟨2, ![N, C]⟩ .f32) (an : FVec Ideal ⟨2, ![E, A]⟩ .f32) (colS colD : IVec ⟨2, ![E, 1]⟩ w) :
    Host.scatterAdd (F := Ideal) (rowScat2 N C E wfS2) z2 colD
        (mulf (Host.gather (rowDims2 N C E wfG2) H colS)
          (shapeCast ⟨2, ![E, C]⟩ (broadcastInDim ⟨3, ![E, A, B]⟩ ![0, 1] hb1 an) hcE'))
      = shapeCast ⟨2, ![N, C]⟩
          (Host.scatterAdd (F := Ideal) (rowScat3 N A B E wfS3) z3 colD
            (mulf (Host.gather (rowDims3 N A B E wfG3) (shapeCast ⟨3, ![N, A, B]⟩ H hcN) colS)
              (broadcastInDim ⟨3, ![E, A, B]⟩ ![0, 1, 2] hb3 (broadcastInDim ⟨3, ![E, A, 1]⟩ ![0, 1] hb2 an)))) hcN' := by
  funext i
  obtain ⟨n, j, rfl⟩ : ∃ (n : Fin N) (j : Fin C), i = ix2 n j := ⟨i 0, i 1, eq_ix2 i⟩
  obtain ⟨a, b, rfl⟩ := exists_flat hC j
  rw [scatterAdd_row2_apply, cast_flat_apply hC, scatterAdd_row3_apply, hz]
  congr 1
  refine Finset.sum_congr rfl fun e _ => ?_
  have key : mulf (Host.gather (rowDims2 N C E wfG2) H colS)
        (shapeCast ⟨2, ![E, C]⟩ (broadcastInDim ⟨3, ![E, A, B]⟩ ![0, 1] hb1 an) hcE') (ix2 e (flat hC a b))
      = mulf (Host.gather (rowDims3 N A B E wfG3) (shapeCast ⟨3, ![N, A, B]⟩ H hcN) colS)
        (broadcastInDim ⟨3, ![E, A, B]⟩ ![0, 1, 2] hb3 (broadcastInDim ⟨3, ![E, A, 1]⟩ ![0, 1] hb2 an)) (ix3 e a b) := by
    rw [mulf_apply, mulf_apply, gather_row2_apply hN, gather_row3_apply hN, cast_grouped_apply hC,
      cast_flat_apply hC, spread_apply, widen_apply, unit_apply]
  rw [key]

end Aggregate

section Logits
variable {w : Nat}

/-- The product of a table with a matrix that is block-diagonal over the groups, gathered by rows, is the grouped table
    gathered by rows, multiplied member by member with the weights and summed over the members:
    `Σ_k H (row e, k) · M (k, a') = Σ_b H (row e, a'·B + b) · W (0, a', b)` when `M (a·B + b, a')` is `W (0, a, b)` for
    `a = a'` and zero otherwise. -/
theorem logit_flat_eq_grouped (hN : 0 < N) (hC : C = A * B)
    (wfG2 : GatherDims.WF ⟨2, ![N, A]⟩ ⟨2, ![E, 1]⟩ ⟨2, ![E, A]⟩ [1] [0] [] [0] [] 1 ![1, A])
    (wfG3 : GatherDims.WF ⟨3, ![N, A, B]⟩ ⟨2, ![E, 1]⟩ ⟨3, ![E, A, B]⟩ [1, 2] [0] [] [0] [] 1 ![1, A, B])
    (hcN : (⟨2, ![N, C]⟩ : Shape).ShapeCasts ⟨3, ![N, A, B]⟩)
    (hbW : (⟨3, ![1, A, B]⟩ : Shape).BroadcastsInDim ⟨3, ![E, A, B]⟩ ![0, 1, 2])
    (hred' : (⟨3, ![E, A, B]⟩ : Shape).ReducesTo [2] ⟨2, ![E, A]⟩)
    (hred : (⟨3, ![E, A, B]⟩ : Shape).Reduces [2] ⟨2, ![E, A]⟩)
    (H : FVec Ideal ⟨2, ![N, C]⟩ .f32) (M : FVec Ideal ⟨2, ![C, A]⟩ .f32) (W : FVec Ideal ⟨3, ![1, A, B]⟩ .f32)
    (hM : ∀ (a : Fin A) (b : Fin B) (a' : Fin A), M (ix2 (flat hC a b) a') = if a = a' then W (ix3 0 a b) else 0)
    (col : IVec ⟨2, ![E, 1]⟩ w) (init : EReal) (hinit : init = 0) :
    Host.gather (rowDims2 N A E wfG2) (fun i => ∑ k : Fin C, H (ix2 (i 0) k) * M (ix2 k (i 1)) : FVec Ideal ⟨2, ![N, A]⟩ .f32) col
      = Ideal.hostReduceAdd hred' (mulf (Host.gather (rowDims3 N A B E wfG3) (shapeCast ⟨3, ![N, A, B]⟩ H hcN) col)
          (broadcastInDim ⟨3, ![E, A, B]⟩ ![0, 1, 2] hbW W)) init := by
  funext i
  obtain ⟨e, a', rfl⟩ : ∃ (e : Fin E) (a' : Fin A), i = ix2 e a' := ⟨i 0, i 1, eq_ix2 i⟩
  rw [gather_row2_apply hN, Ideal.hostReduceAdd_single hred' hred, hinit, zero_add]
  show ∑ k : Fin C, H (ix2 (rowOf N hN (col (ix2 e 0))) k) * M (ix2 k a') = _
  rw [sum_flat hC]
  rw [Finset.sum_eq_single a']
  · refine Finset.sum_congr rfl fun b _ => ?_
    have hl : hred.lift (ix2 e a') b = ix3 e a' b := by
      funext k
      rcases axis3_cases (N := E) (A := A) (B := B) k with rfl | rfl | rfl <;> rfl
    rw [hM, if_pos rfl, hl, mulf_apply, gather_row3_apply hN, cast_grouped_apply hC]
    congr 1
    refine (broadcastInDim_apply _ hbW W (ix3 e a' b) (ix3 0 a' b) fun k => ?_).symm
    rcases axis3_cases (N := 1) (A := A) (B := B) k with rfl | rfl | rfl
    · rfl
    · show a'.val = if A = 1 then 0 else a'.val
      split
      · have := a'.isLt; omega
      · rfl
    · show b.val = if B = 1 then 0 else b.val
      split
      · have := b.isLt; omega
      · rfl
  · intro a _ hne
    refine Finset.sum_eq_zero fun b _ => ?_
    rw [hM, if_neg hne, mul_zero]
  · intro h; exact absurd (Finset.mem_univ a') h

end Logits

end Idealize.ShloMosaic.RowOps

end
-- ==== Proof.BridgeAgg.lean ====
/-
  The two programs' weighted accumulations agree.  The kernel's program accumulates `[E, 64]` rows into `[N, 64]`; the
  reference accumulates `[E, 8, 8]` into `[N, 8, 8]` and flattens.  Both are the flat / grouped forms of one sum.
-/
import proofs.«160089_j1881195675933_1_alg».proof.Proof.KStages
import proofs.«160089_j1881195675933_1_alg».proof.Proof.RefStages
import proofs.«160089_j1881195675933_1_alg».proof.Proof.LibGrouped
import Idealize.ShloMosaic.Lib.IdealHost

noncomputable section

namespace Cert.Gat.Bridge

open Idealize.ShloMosaic Idealize.ShloMosaic.ValueIdx Idealize.ShloMosaic.RowOps

/-- Layer 1: the kernel program's accumulation over flat 64-channel rows is the reference's over 8 heads of 8 channels. -/
theorem agg1_eq (H : FVec Ideal ⟨2, ![100000, 64]⟩ .f32) (an : FVec Ideal ⟨2, ![1700000, 8]⟩ .f32)
    (src dst : IVec ⟨1, ![1700000]⟩ 32) :
    Cert.KernelIdeal.KRun.agg1K (F := Ideal) H an src dst
      = Cert.ReferenceIdeal.RefRun.agg1R (F := Ideal)
          (shapeCast ⟨3, ![100000, 8, 8]⟩ H Cert.ReferenceIdeal.Facts₀.shapeCasts_S100000x64_S100000x8x8) an src dst := by
  unfold Cert.KernelIdeal.KRun.agg1K Cert.ReferenceIdeal.RefRun.agg1R Cert.ReferenceIdeal.RefRun.rows8x8
  exact agg_flat_eq_grouped (N := 100000) (A := 8) (B := 8) (C := 64) (E := 1700000) (by decide) (by decide)
    _ _ _ _ _ _ _ _ _ _ _ _ (fun _ _ _ => rfl) H an _ _

/-- Division by one on the extended reals. -/
theorem div_one' (x : EReal) : Ideal.div x 1 = x := by
  have h := Ideal.div_coe (y := 1) one_ne_zero x
  rw [EReal.coe_one] at h
  rw [h]; simp

/-- A grouped table with a single group, summed over that group (from zero) and divided by one, is the table flattened. -/
theorem unit_mean_eq {N B : Nat} (hC : B = 1 * B) (G : FVec Ideal ⟨3, ![N, 1, B]⟩ .f32)
    (hred' : (⟨3, ![N, 1, B]⟩ : Shape).ReducesTo [1] ⟨2, ![N, B]⟩) (hred : (⟨3, ![N, 1, B]⟩ : Shape).Reduces [1] ⟨2, ![N, B]⟩)
    (hu : 0 < (⟨0, ![]⟩ : Shape).numel)
    (hb : (⟨0, ![]⟩ : Shape).BroadcastsInDim ⟨2, ![N, B]⟩ ![])
    (hc : (⟨3, ![N, 1, B]⟩ : Shape).ShapeCasts ⟨2, ![N, B]⟩)
    (c0 c1 : FVec Ideal ⟨0, ![]⟩ .f32) (hc0 : ∀ i, c0 i = 0) (hc1 : ∀ i, c1 i = 1) :
    Host.divf (F := Ideal) (Host.reduceAdd (F := Ideal) G c0 hred' hu) (broadcastInDim ⟨2, ![N, B]⟩ ![] hb c1)
      = shapeCast ⟨2, ![N, B]⟩ G hc := by
  funext i
  obtain ⟨n, b, rfl⟩ : ∃ (n : Fin N) (b : Fin B), i = ix2 n b := ⟨i 0, i 1, eq_ix2 i⟩
  show Ideal.div (Ideal.hostReduceAdd hred' G (c0 _) (ix2 n b)) (c1 _) = _
  rw [hc0, hc1, div_one', Ideal.hostReduceAdd_single hred' hred, zero_add]
  have hb' : ix2 n b = ix2 n (flat hC 0 b) := by
    congr 1; exact Fin.ext (by simp)
  rw [hb', cast_flat_apply hC]
  show ∑ k : Fin 1, G (hred.lift (ix2 n (flat hC 0 b)) k) = _
  rw [Fin.sum_univ_one]
  congr 1
  funext k
  rcases axis3_cases (N := N) (A := 1) (B := B) k with rfl | rfl | rfl
  · rfl
  · rfl
  · refine Fin.ext ?_
    show (flat hC 0 b).val = b.val
    simp

/-- Layer 2: the kernel program's accumulation over flat 40-channel rows is the reference's over one head of 40 channels,
    summed over the head and divided by the number of heads, one. -/
theorem agg2_eq (H : FVec Ideal ⟨2, ![100000, 40]⟩ .f32) (an : FVec Ideal ⟨2, ![1700000, 1]⟩ .f32)
    (src dst : IVec ⟨1, ![1700000]⟩ 32) :
    Cert.KernelIdeal.KRun.agg2K (F := Ideal) H an src dst
      = Cert.ReferenceIdeal.RefRun.agg2R (F := Ideal)
          (shapeCast ⟨3, ![100000, 1, 40]⟩ H Cert.ReferenceIdeal.Facts₀.shapeCasts_S100000x40_S100000x1x40) an src dst := by
  unfold Cert.KernelIdeal.KRun.agg2K Cert.ReferenceIdeal.RefRun.agg2R Cert.ReferenceIdeal.RefRun.rows1x40
  refine Eq.trans ?_ (unit_mean_eq (N := 100000) (B := 40) (by decide) _ _ (by decide) _ _ (by decide) _ _
    (fun _ => Ideal.ofBits_zero_f32) (fun _ => Ideal.ofBits_one_f32)).symm
  exact agg_flat_eq_grouped (N := 100000) (A := 1) (B := 40) (C := 40) (E := 1700000) (by decide) (by decide)
    _ _ _ _ _ _ _ _ _ _ _ _ (fun _ _ _ => rfl) H an _ _

end Cert.Gat.Bridge

end
-- ==== Proof.BridgeLogit.lean ====
/-
  The two programs' attention logits agree.  The kernel's program multiplies the node features by a matrix that is
  block-diagonal over the heads and gathers the products' rows; the reference gathers the features' rows, multiplies
  member by member with the attention weights and sums over each head's channels.
-/
import proofs.«160089_j1881195675933_1_alg».proof.Proof.KStages
import proofs.«160089_j1881195675933_1_alg».proof.Proof.RefStages
import proofs.«160089_j1881195675933_1_alg».proof.Proof.LibGrouped
import proofs.«160089_j1881195675933_1_alg».proof.Proof.LibGcnLayers

noncomputable section

namespace Cert.Gat.Bridge

open Idealize.ShloMosaic Idealize.ShloMosaic.ValueIdx Idealize.ShloMosaic.RowOps

/-- Layer 1 (eight heads of eight channels). -/
theorem alpha1_eq (H : FVec Ideal ⟨2, ![100000, 64]⟩ .f32) (Mi Mj : FVec Ideal ⟨2, ![64, 8]⟩ .f32)
    (a3 : FVec Ideal ⟨3, ![1, 8, 16]⟩ .f32)
    (hMi : ∀ (a b a' : Fin 8), Mi (ix2 (flat (by decide : 64 = 8 * 8) a b) a')
      = if a = a' then (extractStridedSlice Cert.ReferenceIdeal.S1x8x8 ![0, 0, 0] a3
          Cert.ReferenceIdeal.Facts₀.slices_S1x8x16_S1x8x8_0_0_0 : FVec Ideal ⟨3, ![1, 8, 8]⟩ .f32) (ix3 0 a b) else 0)
    (hMj : ∀ (a b a' : Fin 8), Mj (ix2 (flat (by decide : 64 = 8 * 8) a b) a')
      = if a = a' then (extractStridedSlice Cert.ReferenceIdeal.S1x8x8 ![0, 0, 8] a3
          Cert.ReferenceIdeal.Facts₀.slices_S1x8x16_S1x8x8_0_0_8 : FVec Ideal ⟨3, ![1, 8, 8]⟩ .f32) (ix3 0 a b) else 0)
    (src dst : IVec ⟨1, ![1700000]⟩ 32) :
    Cert.KernelIdeal.KRun.alpha1K (F := Ideal) (Cert.Gcn.mm (M := 100000) (K := 64) (N := 8) H Mi)
        (Cert.Gcn.mm (M := 100000) (K := 64) (N := 8) H Mj) src dst
      = Cert.ReferenceIdeal.RefRun.alpha1R (F := Ideal)
          (shapeCast ⟨3, ![100000, 8, 8]⟩ H Cert.ReferenceIdeal.Facts₀.shapeCasts_S100000x64_S100000x8x8) a3 src dst := by
  unfold Cert.KernelIdeal.KRun.alpha1K Cert.ReferenceIdeal.RefRun.alpha1R Cert.ReferenceIdeal.RefRun.headDot8
    Cert.ReferenceIdeal.RefRun.rows8x8
  exact congrArg₂ addf
    (logit_flat_eq_grouped (N := 100000) (A := 8) (B := 8) (C := 64) (E := 1700000) (by decide) (by decide)
      _ _ _ _ _ (by decide) H Mi _ hMi _ _ Ideal.ofBits_zero_f32)
    (logit_flat_eq_grouped (N := 100000) (A := 8) (B := 8) (C := 64) (E := 1700000) (by decide) (by decide)
      _ _ _ _ _ (by decide) H Mj _ hMj _ _ Ideal.ofBits_zero_f32)

/-- Layer 2 (one head of forty channels). -/
theorem alpha2_eq (H : FVec Ideal ⟨2, ![100000, 40]⟩ .f32) (Mi Mj : FVec Ideal ⟨2, ![40, 1]⟩ .f32)
    (a5 : FVec Ideal ⟨3, ![1, 1, 80]⟩ .f32)
    (hMi : ∀ (a : Fin 1) (b : Fin 40) (a' : Fin 1), Mi (ix2 (flat (by decide : 40 = 1 * 40) a b) a')
      = if a = a' then (extractStridedSlice Cert.ReferenceIdeal.S1x1x40 ![0, 0, 0] a5
          Cert.ReferenceIdeal.Facts₀.slices_S1x1x80_S1x1x40_0_0_0 : FVec Ideal ⟨3, ![1, 1, 40]⟩ .f32) (ix3 0 a b) else 0)
    (hMj : ∀ (a : Fin 1) (b : Fin 40) (a' : Fin 1), Mj (ix2 (flat (by decide : 40 = 1 * 40) a b) a')
      = if a = a' then (extractStridedSlice Cert.ReferenceIdeal.S1x1x40 ![0, 0, 40] a5
          Cert.ReferenceIdeal.Facts₀.slices_S1x1x80_S1x1x40_0_0_40 : FVec Ideal ⟨3, ![1, 1, 40]⟩ .f32) (ix3 0 a b) else 0)
    (src dst : IVec ⟨1, ![1700000]⟩ 32) :
    Cert.KernelIdeal.KRun.alpha2K (F := Ideal) (Cert.Gcn.mm (M := 100000) (K := 40) (N := 1) H Mi)
        (Cert.Gcn.mm (M := 100000) (K := 40) (N := 1) H Mj) src dst
      = Cert.ReferenceIdeal.RefRun.alpha2R (F := Ideal)
          (shapeCast ⟨3, ![100000, 1, 40]⟩ H Cert.ReferenceIdeal.Facts₀.shapeCasts_S100000x40_S100000x1x40) a5 src dst := by
  unfold Cert.KernelIdeal.KRun.alpha2K Cert.ReferenceIdeal.RefRun.alpha2R Cert.ReferenceIdeal.RefRun.headDot1
    Cert.ReferenceIdeal.RefRun.rows1x40
  exact congrArg₂ addf
    (logit_flat_eq_grouped (N := 100000) (A := 1) (B := 40) (C := 40) (E := 1700000) (by decide) (by decide)
      _ _ _ _ _ (by decide) H Mi _ hMi _ _ Ideal.ofBits_zero_f32)
    (logit_flat_eq_grouped (N := 100000) (A := 1) (B := 40) (C := 40) (E := 1700000) (by decide) (by decide)
      _ _ _ _ _ (by decide) H Mj _ hMj _ _ Ideal.ofBits_zero_f32)

end Cert.Gat.Bridge

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostLayers.lean ====
/-
  The dense pieces of a graph network layer as a host program spells them, on the extended reals.

  `stablehlo.dot_general` of an `[M, K]` by a `[K, N]` operand is the dense product `Cert.Gcn.mm`; a bias vector laid
  out as a row, broadcast down the rows and added gives the logits `Cert.Gcn.logits`; their `max` with a broadcast zero
  is `Cert.Gcn.biasRelu`; and the body of `jax.nn.log_softmax` along the rows — the row maxima by a `reduce` of `max` from
  `-∞` and one more `max` with `-∞`, kept as a column and broadcast back (`maxBack`), subtracted; the exponentials' row
  sums by a `reduce` of `add` from zero, kept as a column, their logarithm broadcast back, subtracted — is
  `Cert.Gcn.logSoftmax`. Each is an equation between whole arrays, for any extents and any evidence of the shape
  facts; every float-polymorphic operation is pinned to the extended reals, since an operand given as a plain function
  into them does not determine the instance.
-/
import proofs.«160089_j1881195675933_1_alg».proof.Proof.LibHostMatmulNN
import proofs.«160089_j1881195675933_1_alg».proof.Proof.LibHostKeepdims
import proofs.«160089_j1881195675933_1_alg».proof.Proof.LibGcnLayers
import Idealize.ShloMosaic.Lib.ValueIdx
import Idealize.ShloMosaic.Lib.Pipeline.Value
import Idealize.ShloMosaic.PureOps.Ideal.Laws

noncomputable section

open scoped BigOperators

namespace Cert.LibHostLayers

open Idealize.ShloMosaic Idealize.ShloMosaic.ValueIdx

variable {M K N : ℕ}

/-- The host's product of whole arrays is the dense product. -/
theorem dot_eq_mm (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![M, K]⟩ .f32) (B : FVec Ideal ⟨2, ![K, N]⟩ .f32) :
    Host.dotGeneral (F := Ideal) d none A B = Cert.Gcn.mm A B := by
  funext i
  obtain ⟨p, q, rfl⟩ : ∃ (p : Fin M) (q : Fin N), i = ix2 p q := ⟨i 0, i 1, eq_ix2 i⟩
  exact Cert.LibHostMatmulNN.hostDot_nn_apply d hlc hrc hln hrn hlb hrb none A B p q

/-- The bias laid out as a row and broadcast down the rows, added: the logits. -/
theorem add_bias_eq (h1 : (⟨1, ![N]⟩ : Shape).BroadcastsInDim ⟨2, ![1, N]⟩ ![1])
    (h2 : (⟨2, ![1, N]⟩ : Shape).BroadcastsInDim ⟨2, ![M, N]⟩ ![0, 1])
    (a : FVec Ideal ⟨2, ![M, N]⟩ .f32) (b : FVec Ideal ⟨1, ![N]⟩ .f32) :
    addf (F := Ideal) a (broadcastInDim ⟨2, ![M, N]⟩ ![0, 1] h2 (broadcastInDim ⟨2, ![1, N]⟩ ![1] h1 b)) = Cert.Gcn.logits a b := by
  funext i
  obtain ⟨p, q, rfl⟩ : ∃ (p : Fin M) (q : Fin N), i = ix2 p q := ⟨i 0, i 1, eq_ix2 i⟩
  show a (ix2 p q) + broadcastInDim ⟨2, ![M, N]⟩ ![0, 1] h2 (broadcastInDim ⟨2, ![1, N]⟩ ![1] h1 b) (ix2 p q) = _
  rw [broadcastInDim_1b_ab_apply ![0, 1] h2 rfl, broadcastInDim_b_1b_apply ![1] h1 rfl]
  rfl

/-- The logits' positive part, against a broadcast zero. -/
theorem relu_eq (h0 : (⟨0, ![]⟩ : Shape).BroadcastsInDim ⟨2, ![M, N]⟩ ![])
    (a : FVec Ideal ⟨2, ![M, N]⟩ .f32) (b : FVec Ideal ⟨1, ![N]⟩ .f32) :
    maximumf (F := Ideal) (Cert.Gcn.logits a b) (broadcastInDim ⟨2, ![M, N]⟩ ![] h0 (constant (F := Ideal) ⟨0, ![]⟩ .f32 0x00000000#32))
      = Cert.Gcn.biasRelu a b := by
  funext i
  show max (Cert.Gcn.logits a b i) (broadcastInDim ⟨2, ![M, N]⟩ ![] h0 (constant (F := Ideal) ⟨0, ![]⟩ .f32 0x00000000#32) i) = _
  rw [broadcastInDim_rank0_apply]
  rfl

/-- Folding `max` from a value never goes below that value. -/
theorem max_fold_self {ι : Type} (s : Finset ι) (w : EReal) (f : ι → EReal) : max w (s.fold max w f) = s.fold max w f :=
  max_eq_right ((Finset.le_fold_max w).mpr (Or.inl le_rfl))

/-- The host's exponential and logarithm, read at an index. -/
theorem hostExp_apply {s : Shape} {φ : FTy} (a : FVec Ideal s φ) (i : s.Idx) : Host.exp (F := Ideal) a i = Ideal.exp (a i) := rfl
theorem hostLog_apply {s : Shape} {φ : FTy} (a : FVec Ideal s φ) (i : s.Idx) : Host.log (F := Ideal) a i = Ideal.log (a i) := rfl

/-- The rows' maxima as the host computes them — a `reduce` of `max` from `-∞`, once more `max` with `-∞` — kept as a
    column and broadcast back along the rows. -/
def maxBack (hr' : (⟨2, ![M, N]⟩ : Shape).ReducesTo [1] ⟨1, ![M]⟩) (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) : FVec Ideal ⟨2, ![M, N]⟩ .f32 :=
  broadcastInDim ⟨2, ![M, N]⟩ ![0, 1] h2 (broadcastInDim ⟨2, ![M, 1]⟩ ![0] h1
    (maximumf (F := Ideal) (broadcastInDim ⟨1, ![M]⟩ ![] h0 (constant (F := Ideal) ⟨0, ![]⟩ .f32 0xFF800000#32))
      (Host.reduce (FloatOps.maximumf (F := Ideal) (φ := .f32)) z (constant (F := Ideal) ⟨0, ![]⟩ .f32 0xFF800000#32) hr' hu)))

/-- Read anywhere in row `p`, it is the row's maximum. -/
theorem maxBack_apply (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) (p : Fin M) (c : Fin N) :
    maxBack hr' hu h0 h1 h2 z (ix2 p c) = Cert.Gcn.rowMax z p := by
  unfold maxBack
  rw [broadcastInDim_a1_ab_apply ![0, 1] h2 rfl, broadcastInDim_a_a1_apply ![0] h1 rfl, maximumf_apply,
    broadcastInDim_rank0_apply, hostReduce_max_rows_apply z _ hr' hr hu p]
  exact max_fold_self _ _ _

/-- The body of `log_softmax` on a matrix `z`, as the host spells it, read at `(p, q)`. -/
theorem logSoftmax_host (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) (p : Fin M) (q : Fin N) :
    subf (F := Ideal) (subf (F := Ideal) z (maxBack hr' hu h0 h1 h2 z))
      (broadcastInDim ⟨2, ![M, N]⟩ ![0, 1] h2 (Host.log (F := Ideal) (broadcastInDim ⟨2, ![M, 1]⟩ ![0] h1
        (Host.reduceAdd (F := Ideal) (Host.exp (F := Ideal) (subf (F := Ideal) z (maxBack hr' hu h0 h1 h2 z)))
          (constant (F := Ideal) ⟨0, ![]⟩ .f32 0x00000000#32) hr' hu)))) (ix2 p q)
    = (z (ix2 p q) - Cert.Gcn.rowMax z p) - Ideal.log (∑ k : Fin N, Ideal.exp (z (ix2 p k) - Cert.Gcn.rowMax z p)) := by
  rw [subf_apply, subf_apply, maxBack_apply hr' hr hu h0 h1 h2 z p q, broadcastInDim_a1_ab_apply ![0, 1] h2 rfl,
    hostLog_apply, broadcastInDim_a_a1_apply ![0] h1 rfl, hostReduceAdd_rows_apply _ _ hr' hr hu p, constant_apply,
    Ideal.ofBits_zero_f32, zero_add]
  refine congrArg (fun s => (z (ix2 p q) - Cert.Gcn.rowMax z p) - Ideal.log s) (Finset.sum_congr rfl fun k _ => ?_)
  rw [hostExp_apply, subf_apply, maxBack_apply hr' hr hu h0 h1 h2 z p k]

/-- On the logits it is the row-wise log-softmax. -/
theorem logSoftmax_eq (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (a : FVec Ideal ⟨2, ![M, N]⟩ .f32) (b : FVec Ideal ⟨1, ![N]⟩ .f32) :
    subf (F := Ideal) (subf (F := Ideal) (Cert.Gcn.logits a b) (maxBack hr' hu h0 h1 h2 (Cert.Gcn.logits a b)))
      (broadcastInDim ⟨2, ![M, N]⟩ ![0, 1] h2 (Host.log (F := Ideal) (broadcastInDim ⟨2, ![M, 1]⟩ ![0] h1
        (Host.reduceAdd (F := Ideal) (Host.exp (F := Ideal) (subf (F := Ideal) (Cert.Gcn.logits a b) (maxBack hr' hu h0 h1 h2 (Cert.Gcn.logits a b))))
          (constant (F := Ideal) ⟨0, ![]⟩ .f32 0x00000000#32) hr' hu))))
    = Cert.Gcn.logSoftmax a b := by
  funext i
  obtain ⟨p, q, rfl⟩ : ∃ (p : Fin M) (q : Fin N), i = ix2 p q := ⟨i 0, i 1, eq_ix2 i⟩
  exact logSoftmax_host hr' hr hu h0 h1 h2 (Cert.Gcn.logits a b) p q

end Cert.LibHostLayers

end
-- ==== Proof.LogSoftmaxRef.lean ====
/-
  The reference's final stage is the row-wise log-softmax.

  The reference takes each row's maximum by a reduction of `max` from `-∞` (and once more `max` with `-∞`), keeps it as a
  column, broadcasts it back along the row and subtracts; it then sums the exponentials of the shifted row from zero,
  keeps the sum as a column, takes its logarithm, broadcasts it back and subtracts. Read at `(p, q)` that is
  `(x(p, q) - m(p)) - log Σ_k exp (x(p, k) - m(p))` with `m(p)` the fold of `max` over row `p` from the pattern of `-∞`:
  the whole-array function `Cert.Gat.logSoftmaxRows`.
-/
import proofs.«160089_j1881195675933_1_alg».proof.Proof.RefStages
import proofs.«160089_j1881195675933_1_alg».proof.Proof.LibHostLayers
import proofs.«160089_j1881195675933_1_alg».proof.Proof.LogSoftmaxSpec

noncomputable section

open scoped BigOperators

namespace Cert.ReferenceIdeal.RefRun

open Cert.ReferenceIdeal Cert.ReferenceIdeal.Gen Idealize.ShloMosaic Idealize.SL.Sem
open Idealize.ShloMosaic.ValueIdx

/-- Reducing a `[100000, 40]` matrix along its rows leaves a vector of 100000 entries. -/
theorem reduces_rows_100000x40 : (⟨2, ![100000, 40]⟩ : Shape).Reduces [1] ⟨1, ![100000]⟩ := by decide

/-- The reference's log-softmax stage, as a function of the whole array, is the row-wise log-softmax. -/
theorem lsmR_eq (x : (⟨S100000x40, .f32⟩ : BufTy).Contents (Elt Ideal)) :
    lsmR (F := Ideal) x = Cert.Gat.logSoftmaxRows x := by
  funext i
  obtain ⟨p, q, rfl⟩ : ∃ (p : Fin 100000) (q : Fin 40), i = ix2 p q := ⟨i 0, i 1, eq_ix2 i⟩
  rw [Cert.Gat.logSoftmaxRows_apply]
  exact Cert.LibHostLayers.logSoftmax_host (M := 100000) (N := 40) reducesTo_S100000x40_S100000_d1 reduces_rows_100000x40
    h_S_ bcast_S_S100000 bcast_S100000_S100000x1_0 bcast_S100000x1_S100000x40_0_1 x p q

end Cert.ReferenceIdeal.RefRun

end
-- ==== Proof.EluRef.lean ====
/-
  The reference's activation between the layers is the exponential linear unit the kernel's body computes.

  The reference forms `where(x > 0, x, 1 · expm1(where(x > 0, 0, x)))`. Entry by entry: where `x > 0` the outer choice keeps
  `x`; elsewhere the inner choice passes `x` itself to `expm1`, which on the extended reals is `exp x - 1`, and the
  factor is the word of 1.0, the unit of multiplication. The kernel's body forms `where(x > 0, x, exp x - 1)` with the same
  comparison against the same zero word, so the two agree at every entry.
-/
import proofs.«160089_j1881195675933_1_alg».proof.Proof.RefStages
import proofs.«160089_j1881195675933_1_alg».proof.Proof.EluSpec
import Idealize.ShloMosaic.Lib.IdealHost

noncomputable section

namespace Cert.ReferenceIdeal.RefRun

open Cert.ReferenceIdeal Cert.ReferenceIdeal.Gen Idealize.ShloMosaic Idealize.SL.Sem
open Idealize.ShloMosaic.ValueIdx

/-- One entry: the reference's nested choice around `expm1`, scaled by one, is the kernel's choice around `exp - 1`. -/
theorem elu_entry (a : EReal) :
    Scalar.select (Ideal.cmp .ogt a (Ideal.ofBits .f32 0x00000000#32)) a
      (Ideal.ofBits .f32 0x3F800000#32
        * (Ideal.exp (Scalar.select (Ideal.cmp .ogt a (Ideal.ofBits .f32 0x00000000#32)) (Ideal.ofBits .f32 0x00000000#32) a) - 1))
      = Cert.Gat.eluS a := by
  show _ = Scalar.select (Ideal.cmp .ogt a (Ideal.ofBits .f32 0x00000000#32)) a
      (Ideal.exp a - Ideal.ofBits .f32 0x3F800000#32)
  generalize Ideal.cmp .ogt a (Ideal.ofBits .f32 0x00000000#32) = b
  rcases BitVec.eq_zero_or_eq_one b with rfl | rfl
  · rw [select_zero, select_zero, select_zero, Ideal.ofBits_one_f32, one_mul]
  · rw [select_one, select_one]

/-- The reference's activation stage, as a function of the whole array, is the kernel's. -/
theorem eluR_eq (x : (⟨S100000x64, .f32⟩ : BufTy).Contents (Elt Ideal)) :
    eluR (F := Ideal) x = Cert.Gat.eluK x := by
  funext i
  have hz : broadcastInDim S100000x64 ![] bcast_S_S100000x64 (constant (F := Ideal) S_ .f32 0x00000000#32) i
      = Ideal.ofBits .f32 0x00000000#32 := broadcastInDim_scalar_apply _ _ _
  have h1 : broadcastInDim S100000x64 ![] bcast_S_S100000x64 (constant (F := Ideal) S_ .f32 0x3F800000#32) i
      = Ideal.ofBits .f32 0x3F800000#32 := broadcastInDim_scalar_apply _ _ _
  rw [Cert.Gat.eluK_apply, ← elu_entry (x i)]
  show Scalar.select (Ideal.cmp .ogt (x i) (broadcastInDim S100000x64 ![] bcast_S_S100000x64 (constant (F := Ideal) S_ .f32 0x00000000#32) i)) (x i)
      (broadcastInDim S100000x64 ![] bcast_S_S100000x64 (constant (F := Ideal) S_ .f32 0x3F800000#32) i
        * (Ideal.exp (Scalar.select (Ideal.cmp .ogt (x i) (broadcastInDim S100000x64 ![] bcast_S_S100000x64 (constant (F := Ideal) S_ .f32 0x00000000#32) i))
            (broadcastInDim S100000x64 ![] bcast_S_S100000x64 (constant (F := Ideal) S_ .f32 0x00000000#32) i) (x i)) - 1)) = _
  rw [hz, h1]

end Cert.ReferenceIdeal.RefRun

end
-- ==== Proof.HeadWord.lean ====
/-
  The head of a flat channel, on 32-bit words.

  Layer 1 has eight heads of eight channels; flat channel `k = 8a + b` is member `b` of head `a`. The kernel program
  computes the head of each of the 64 flat channels as a floor quotient of signed 32-bit words (a truncating quotient,
  corrected by one when the signs differ and the remainder is not zero) and compares it with the head numbers
  `0 … 7`, also as words. On these small non-negative values the word arithmetic is the arithmetic of the naturals:
  the quotient of `8a + b` by eight is `a`, and two head numbers are equal as words exactly when they are equal. Both
  facts are finite (sixty-four cases each) and are checked by evaluation.
-/
import proofs.«160089_j1881195675933_1_alg».proof.Proof.KStages
import proofs.«160089_j1881195675933_1_alg».proof.Proof.LibGrouped

noncomputable section

namespace Cert.Gat.Bridge

open Idealize.ShloMosaic Idealize.ShloMosaic.ValueIdx Idealize.ShloMosaic.RowOps
open Cert.KernelIdeal Cert.KernelIdeal.Gen

/-- The floor quotient by eight, as the program spells it on 32-bit words, of the flat channel of member `b` of head `a`
    is the word of `a`. -/
theorem headOf_flat : ∀ a b : Fin 8,
    KRun.headOf (F := Ideal) (ix1 (flat (by decide : 64 = 8 * 8) a b)) = BitVec.ofNat 32 a.val := by
  decide

/-- Two head numbers below eight compare equal as words exactly when they are equal. -/
theorem head_eq_word : ∀ a a' : Fin 8,
    IntOp.cmpi .eq (BitVec.ofNat 32 a.val) (BitVec.ofNat 32 a'.val) = if a = a' then 1#1 else 0#1 := by
  decide

end Cert.Gat.Bridge

end
-- ==== Proof.BlockDiag.lean ====
/-
  The kernel program's host-built attention matrices, read at an index.

  Layer 1 has eight heads of eight channels. The program lays the `[1, 8, 8]` table of a layer's attention weights
  (head, channel) out as a `[64, 8]` matrix `M` with `M(k, j)` the weight of flat channel `k` when `k` belongs to head `j`
  and zero otherwise, so that a row of 64 channels times `M` gives the eight per-head dot products at once. The mask
  "`k` belongs to head `j`" compares the head of `k` with `j`; for the flat channel `k = 8a + b` of member `b` of head `a`
  the head is `a`, so `M(8a + b, a')` is the table's `(a, b)` entry when `a = a'` and zero otherwise. Layer 2 has one
  head of forty channels and needs no mask: its `[1, 1, 40]` table is only reshaped to a column `[40, 1]`.
-/
import proofs.«160089_j1881195675933_1_alg».proof.Proof.KStages
import proofs.«160089_j1881195675933_1_alg».proof.Proof.RefStages
import proofs.«160089_j1881195675933_1_alg».proof.Proof.LibGrouped
import proofs.«160089_j1881195675933_1_alg».proof.Proof.HeadWord
import proofs.«160089_j1881195675933_1_alg».proof.Proof.LibHostKeepdims
import Idealize.ShloMosaic.Lib.ValueLayout
import Idealize.ShloMosaic.Lib.Pipeline.Value
import Idealize.ShloMosaic.PureOps.Ideal.Laws

noncomputable section

namespace Cert.Gat.Bridge

open Idealize.ShloMosaic Idealize.ShloMosaic.ValueIdx Idealize.ShloMosaic.RowOps
open Cert.KernelIdeal Cert.KernelIdeal.Gen

/-! ## Layer 1: the block-diagonal layout -/

/-- The mask at flat channel `8a + b` and head `a'` is set exactly when `a = a'`. -/
theorem headMask_flat (a b a' : Fin 8) :
    KRun.headMask (F := Ideal) (ix2 (flat (by decide : 64 = 8 * 8) a b) a') = if a = a' then 1#1 else 0#1 := by
  unfold KRun.headMask
  show IntOp.cmpi .eq
      (broadcastInDim S64x8 ![0, 1] bcast_S64x1_S64x8_0_1
        (broadcastInDim S64x1 ![0] bcast_S64_S64x1_0 (KRun.headOf (F := Ideal))) (ix2 (flat (by decide : 64 = 8 * 8) a b) a'))
      (broadcastInDim S64x8 ![0, 1] bcast_S1x8_S64x8_0_1
        (broadcastInDim S1x8 ![1] bcast_S8_S1x8_1 (iotaInDim S8 32 0)) (ix2 (flat (by decide : 64 = 8 * 8) a b) a')) = _
  rw [broadcastInDim_a1_ab_apply ![0, 1] _ rfl, broadcastInDim_a_a1_apply ![0] _ rfl,
    broadcastInDim_1b_ab_apply ![0, 1] _ rfl, broadcastInDim_b_1b_apply ![1] _ rfl, headOf_flat]
  exact head_eq_word a a'

/-- The block-diagonal layout of an `[8, 8]` table at flat channel `8a + b` and head `a'`: the table's `(a, b)` entry on
    the diagonal blocks, zero elsewhere. -/
theorem blockDiag_flat (A : (⟨S8x8, .f32⟩ : BufTy).Contents (Elt Ideal)) (a b a' : Fin 8) :
    KRun.blockDiag (F := Ideal) A (ix2 (flat (by decide : 64 = 8 * 8) a b) a') = if a = a' then A (ix2 a b) else 0 := by
  unfold KRun.blockDiag
  show Scalar.select (KRun.headMask (F := Ideal) (ix2 (flat (by decide : 64 = 8 * 8) a b) a'))
      (broadcastInDim S64x8 ![0, 1] bcast_S64x1_S64x8_0_1 (broadcastInDim S64x1 ![0] bcast_S64_S64x1_0
        (fun i => shapeCast S64 A shapeCasts_S8x8_S64 i)) (ix2 (flat (by decide : 64 = 8 * 8) a b) a'))
      (broadcastInDim S64x8 ![0, 1] bcast_S64x1_S64x8_0_1 (broadcastInDim S64x1 ![0] bcast_S64_S64x1_0
        (broadcastInDim S64 ![] bcast_S_S64 (constant (F := Ideal) S_ .f32 0x00000000#32))) (ix2 (flat (by decide : 64 = 8 * 8) a b) a')) = _
  rw [headMask_flat, broadcastInDim_a1_ab_apply ![0, 1] _ rfl, broadcastInDim_a_a1_apply ![0] _ rfl,
    broadcastInDim_a1_ab_apply ![0, 1] _ rfl, broadcastInDim_a_a1_apply ![0] _ rfl, broadcastInDim_rank0_apply,
    constant_apply, Ideal.ofBits_zero_f32]
  have hA : shapeCast S64 A shapeCasts_S8x8_S64 (ix1 (flat (by decide : 64 = 8 * 8) a b)) = A (ix2 a b) :=
    shapeCast_apply A _ _ _ (by rw [Shape.rowMajor_val_two, Shape.rowMajor_val_one]; rfl)
  by_cases h : a = a'
  · rw [if_pos h, if_pos h, select_one]; exact hA
  · rw [if_neg h, if_neg h, select_zero]

/-- The target-end matrix of layer 1 at flat channel `8a + b` and head `a'`. -/
theorem Mi1_apply (a3 : (⟨Cert.KernelIdeal.S1x8x16, .f32⟩ : BufTy).Contents (Elt Ideal)) (a b a' : Fin 8) :
    KRun.Mi1 (F := Ideal) a3 (ix2 (flat (by decide : 64 = 8 * 8) a b) a')
      = if a = a' then (extractStridedSlice Cert.ReferenceIdeal.S1x8x8 ![0, 0, 0] a3
          Cert.ReferenceIdeal.Facts₀.slices_S1x8x16_S1x8x8_0_0_0) (ix3 0 a b) else 0 := by
  unfold KRun.Mi1
  refine (blockDiag_flat _ a b a').trans ?_
  rw [shapeCast_1ab_ab_apply]

/-- The source-end matrix of layer 1 at flat channel `8a + b` and head `a'`. -/
theorem Mj1_apply (a3 : (⟨Cert.KernelIdeal.S1x8x16, .f32⟩ : BufTy).Contents (Elt Ideal)) (a b a' : Fin 8) :
    KRun.Mj1 (F := Ideal) a3 (ix2 (flat (by decide : 64 = 8 * 8) a b) a')
      = if a = a' then (extractStridedSlice Cert.ReferenceIdeal.S1x8x8 ![0, 0, 8] a3
          Cert.ReferenceIdeal.Facts₀.slices_S1x8x16_S1x8x8_0_0_8) (ix3 0 a b) else 0 := by
  unfold KRun.Mj1
  refine (blockDiag_flat _ a b a').trans ?_
  rw [shapeCast_1ab_ab_apply]

/-! ## Layer 2: one head, a column -/

/-- A `[1, 1, 40]` table reshaped to a vector and then to a column reads, at row `40a + b`, the table at `(0, a, b)`. -/
theorem column_of_table {α : Type} (T : (⟨3, ![1, 1, 40]⟩ : Shape).Idx → α)
    (h1 : (⟨3, ![1, 1, 40]⟩ : Shape).ShapeCasts ⟨1, ![40]⟩) (h2 : (⟨1, ![40]⟩ : Shape).ShapeCasts ⟨2, ![40, 1]⟩)
    (a : Fin 1) (b : Fin 40) (a' : Fin 1) :
    shapeCast ⟨2, ![40, 1]⟩ (fun i => shapeCast ⟨1, ![40]⟩ T h1 i) h2 (ix2 (flat (by decide : 40 = 1 * 40) a b) a')
      = T (ix3 0 a b) := by
  refine (shapeCast_apply _ h2 _ (ix1 (flat (by decide : 40 = 1 * 40) a b)) ?_).trans ?_
  · rw [Shape.rowMajor_val_one, Shape.rowMajor_val_two]
    show a.val * 40 + b.val = (a.val * 40 + b.val) * 1 + a'.val
    have := a'.isLt; omega
  · refine shapeCast_apply T h1 _ (ix3 0 a b) ?_
    rw [Shape.rowMajor_val_three, Shape.rowMajor_val_one]
    show (0 * 1 + a.val) * 40 + b.val = a.val * 40 + b.val
    omega

/-- The target-end column of layer 2 at row `40a + b` (one head: `a = a' = 0`). -/
theorem atti2_apply (a5 : (⟨Cert.KernelIdeal.S1x1x80, .f32⟩ : BufTy).Contents (Elt Ideal)) (a : Fin 1) (b : Fin 40) (a' : Fin 1) :
    KRun.atti2 (F := Ideal) a5 (ix2 (flat (by decide : 40 = 1 * 40) a b) a')
      = if a = a' then (extractStridedSlice Cert.ReferenceIdeal.S1x1x40 ![0, 0, 0] a5
          Cert.ReferenceIdeal.Facts₀.slices_S1x1x80_S1x1x40_0_0_0) (ix3 0 a b) else 0 := by
  rw [if_pos (Subsingleton.elim a a')]
  unfold KRun.atti2
  exact column_of_table _ shapeCasts_S1x1x40_S40 shapeCasts_S40_S40x1 a b a'

/-- The source-end column of layer 2 at row `40a + b`. -/
theorem attj2_apply (a5 : (⟨Cert.KernelIdeal.S1x1x80, .f32⟩ : BufTy).Contents (Elt Ideal)) (a : Fin 1) (b : Fin 40) (a' : Fin 1) :
    KRun.attj2 (F := Ideal) a5 (ix2 (flat (by decide : 40 = 1 * 40) a b) a')
      = if a = a' then (extractStridedSlice Cert.ReferenceIdeal.S1x1x40 ![0, 0, 40] a5
          Cert.ReferenceIdeal.Facts₀.slices_S1x1x80_S1x1x40_0_0_40) (ix3 0 a b) else 0 := by
  rw [if_pos (Subsingleton.elim a a')]
  unfold KRun.attj2
  exact column_of_table _ shapeCasts_S1x1x40_S40 shapeCasts_S40_S40x1 a b a'

end Cert.Gat.Bridge

end
-- ==== Proof.BridgeMain.lean ====
/-
  The whole network: the kernel program's value, as one function of the six arguments, is the reference's.

  Both compute two graph-attention layers and a row-wise log-softmax.  Layer by layer: the dense products are the same
  sums; the attention logits agree because the kernel's block-diagonal matrix product is the reference's per-head sum
  over channels; the attention weights are the very same chain of operations on the logits; the weighted accumulations
  are the flat and the grouped form of one sum; the activation between the layers is `x` for `x > 0` and `exp x − 1`
  otherwise on both sides; and the last step is the same row-wise function.
-/
import proofs.«160089_j1881195675933_1_alg».proof.Proof.KStages
import proofs.«160089_j1881195675933_1_alg».proof.Proof.RefStages
import proofs.«160089_j1881195675933_1_alg».proof.Proof.BridgeAgg
import proofs.«160089_j1881195675933_1_alg».proof.Proof.BridgeLogit
import proofs.«160089_j1881195675933_1_alg».proof.Proof.LibGcnLayers
import proofs.«160089_j1881195675933_1_alg».proof.Proof.LibHostLayers
import proofs.«160089_j1881195675933_1_alg».proof.Proof.LogSoftmaxSpec
import proofs.«160089_j1881195675933_1_alg».proof.Proof.LogSoftmaxRef
import proofs.«160089_j1881195675933_1_alg».proof.Proof.EluSpec
import proofs.«160089_j1881195675933_1_alg».proof.Proof.EluRef
import proofs.«160089_j1881195675933_1_alg».proof.Proof.BlockDiag
import proofs.«160089_j1881195675933_1_alg».proof.Proof.KOutSpec

noncomputable section

namespace Cert.Gat.Bridge

open Idealize.ShloMosaic Idealize.ShloMosaic.ValueIdx Idealize.ShloMosaic.RowOps

/-! ## The stages both programs spell identically -/

theorem edgeSrc_eq (a1 : IVec ⟨2, ![2, 1600000]⟩ 32) :
    Cert.KernelIdeal.KRun.edgeSrc (F := Ideal) a1 = Cert.ReferenceIdeal.RefRun.edgeSrc (F := Ideal) a1 := rfl

theorem edgeDst_eq (a1 : IVec ⟨2, ![2, 1600000]⟩ 32) :
    Cert.KernelIdeal.KRun.edgeDst (F := Ideal) a1 = Cert.ReferenceIdeal.RefRun.edgeDst (F := Ideal) a1 := rfl

theorem attn8_eq (alpha : FVec Ideal ⟨2, ![1700000, 8]⟩ .f32) (dst : IVec ⟨1, ![1700000]⟩ 32) :
    Cert.KernelIdeal.KRun.attn8 (F := Ideal) alpha dst = Cert.ReferenceIdeal.RefRun.attn8 (F := Ideal) alpha dst := rfl

theorem attn1_eq (alpha : FVec Ideal ⟨2, ![1700000, 1]⟩ .f32) (dst : IVec ⟨1, ![1700000]⟩ 32) :
    Cert.KernelIdeal.KRun.attn1 (F := Ideal) alpha dst = Cert.ReferenceIdeal.RefRun.attn1 (F := Ideal) alpha dst := rfl

/-! ## The dense products -/

theorem h1R_eq (a0 : FVec Ideal ⟨2, ![100000, 128]⟩ .f32) (a2 : FVec Ideal ⟨2, ![128, 64]⟩ .f32) :
    Cert.ReferenceIdeal.RefRun.h1R (F := Ideal) a0 a2
      = shapeCast ⟨3, ![100000, 8, 8]⟩ (Cert.Gcn.mm (M := 100000) (K := 128) (N := 64) a0 a2)
          Cert.ReferenceIdeal.Facts₀.shapeCasts_S100000x64_S100000x8x8 := by
  unfold Cert.ReferenceIdeal.RefRun.h1R
  rw [Cert.LibHostLayers.dot_eq_mm (M := 100000) (K := 128) (N := 64) _ rfl rfl rfl rfl rfl rfl]

theorem h2R_eq (x : FVec Ideal ⟨2, ![100000, 64]⟩ .f32) (a4 : FVec Ideal ⟨2, ![64, 40]⟩ .f32) :
    Cert.ReferenceIdeal.RefRun.h2R (F := Ideal) x a4
      = shapeCast ⟨3, ![100000, 1, 40]⟩ (Cert.Gcn.mm (M := 100000) (K := 64) (N := 40) x a4)
          Cert.ReferenceIdeal.Facts₀.shapeCasts_S100000x40_S100000x1x40 := by
  unfold Cert.ReferenceIdeal.RefRun.h2R
  rw [Cert.LibHostLayers.dot_eq_mm (M := 100000) (K := 64) (N := 40) _ rfl rfl rfl rfl rfl rfl]

theorem layer1_eq (a0 : FVec Ideal ⟨2, ![100000, 128]⟩ .f32) (a1 : IVec ⟨2, ![2, 1600000]⟩ 32)
    (a2 : FVec Ideal ⟨2, ![128, 64]⟩ .f32) (a3 : FVec Ideal ⟨3, ![1, 8, 16]⟩ .f32) :
    layer1K a0 a1 a2 a3 = Cert.ReferenceIdeal.RefRun.layer1 (F := Ideal) a0 a1 a2 a3 := by
  unfold layer1K Cert.ReferenceIdeal.RefRun.layer1
  rw [h1R_eq, alpha1_eq _ _ _ a3 (Mi1_apply a3) (Mj1_apply a3), attn8_eq, agg1_eq, edgeSrc_eq, edgeDst_eq]

theorem layer2_eq (o : FVec Ideal ⟨2, ![100000, 64]⟩ .f32) (a1 : IVec ⟨2, ![2, 1600000]⟩ 32)
    (a4 : FVec Ideal ⟨2, ![64, 40]⟩ .f32) (a5 : FVec Ideal ⟨3, ![1, 1, 80]⟩ .f32) :
    layer2K o a1 a4 a5 = Cert.ReferenceIdeal.RefRun.layer2 (F := Ideal) (Cert.ReferenceIdeal.RefRun.eluR (F := Ideal) o) a1 a4 a5 := by
  unfold layer2K Cert.ReferenceIdeal.RefRun.layer2
  rw [Cert.ReferenceIdeal.RefRun.eluR_eq, h2R_eq, alpha2_eq _ _ _ a5 (atti2_apply a5) (attj2_apply a5), attn1_eq, agg2_eq,
    edgeSrc_eq, edgeDst_eq]

/-- The kernel program's value is the reference's. -/
theorem outK_eq (a0 : FVec Ideal ⟨2, ![100000, 128]⟩ .f32) (a1 : IVec ⟨2, ![2, 1600000]⟩ 32)
    (a2 : FVec Ideal ⟨2, ![128, 64]⟩ .f32) (a3 : FVec Ideal ⟨3, ![1, 8, 16]⟩ .f32)
    (a4 : FVec Ideal ⟨2, ![64, 40]⟩ .f32) (a5 : FVec Ideal ⟨3, ![1, 1, 80]⟩ .f32) :
    outK a0 a1 a2 a3 a4 a5 = Cert.ReferenceIdeal.RefRun.out (F := Ideal) a0 a1 a2 a3 a4 a5 := by
  unfold outK Cert.ReferenceIdeal.RefRun.out
  rw [Cert.ReferenceIdeal.RefRun.lsmR_eq, layer1_eq, layer2_eq]

end Cert.Gat.Bridge

end
-- ==== Proof.lean ====
/-
  A two-layer graph attention network over 100000 nodes and 1700000 edges (1600000 given edges and one self loop per
  node), followed by a row-wise log-softmax, computed two ways.

  The kernel's program runs three row-tiled kernels among host stages: the first forms the node features `x · W₁` and
  their products with two matrices that are block-diagonal over the eight heads; the host gathers those per-head
  scores along the edges, turns them into attention weights (leaky rectification, each edge's maximum over its heads
  subtracted, the exponential, division by the sum over the edges with the same target) and accumulates the weighted
  source rows into the targets; the second kernel applies `x ↦ x` for `x > 0`, `exp x − 1` otherwise, and repeats the
  three products for the single head of forty channels; the host repeats the edge stage; the third kernel takes the
  row-wise log-softmax.  The reference does all of it on the host, with the features grouped `[N, heads, channels]`,
  the scores as sums over channels after the gather, and a mean over the (single) head at the end.

  On the extended reals the two are one function of the six arguments: the dense products are the same sums; a
  product with a block-diagonal matrix is the per-head sum over channels (zero times anything is zero, and adding
  zero changes nothing); gathering rows commutes with what is done inside a row; a weighted accumulation over flat rows
  is the grouped one flattened; `expm1 x` is `exp x − 1`; summing over a single head and dividing by one changes
  nothing; and the attention-weight chain and the log-softmax are the same operations on both sides.  No step needs the
  inputs to be finite.

  The kernel program's run comes from its generated frame with the result buffer read off the last boundary; each
  kernel's output array is one whole-array function of the contents at its entry; the reference's run is the fold of
  its operations, calls inlined.
-/
import proofs.«160089_j1881195675933_1_alg».proof.Defs
import proofs.«160089_j1881195675933_1_alg».proof.Proof.Gen.Kernel
import proofs.«160089_j1881195675933_1_alg».proof.Proof.Gen.Kernel.Skeleton
import proofs.«160089_j1881195675933_1_alg».proof.Proof.Gen.Kernel.Launch
import proofs.«160089_j1881195675933_1_alg».proof.Proof.Gen.Kernel.Points
import proofs.«160089_j1881195675933_1_alg».proof.Proof.Gen.Kernel.Frame
import proofs.«160089_j1881195675933_1_alg».proof.Proof.Gen.KernelIdeal
import proofs.«160089_j1881195675933_1_alg».proof.Proof.Gen.KernelIdeal.Skeleton
import proofs.«160089_j1881195675933_1_alg».proof.Proof.Gen.KernelIdeal.Launch
import proofs.«160089_j1881195675933_1_alg».proof.Proof.Gen.KernelIdeal.Points
import proofs.«160089_j1881195675933_1_alg».proof.Proof.Gen.KernelIdeal.Frame
import proofs.«160089_j1881195675933_1_alg».proof.Proof.Gen.ReferenceIdeal
import proofs.«160089_j1881195675933_1_alg».proof.Proof.Gen.Pre_finite_inputs
import proofs.«160089_j1881195675933_1_alg».proof.Proof.KRun
import proofs.«160089_j1881195675933_1_alg».proof.Proof.KValue
import proofs.«160089_j1881195675933_1_alg».proof.Proof.RefRun
import proofs.«160089_j1881195675933_1_alg».proof.Proof.BridgeMain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the six arguments both programs end with the same array: the kernel program's
    result is `outK` of its arguments, the reference's is `out` of its own, and the two functions are equal. -/
theorem algebraic : Cert.algebraic_KernelIdeal_ReferenceIdeal := by
  intro m ρ m' ρ' _ hagree
  refine ⟨Cert.KernelIdeal.KRun.out (F := Ideal) m ρ, Cert.KernelIdeal.KRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  show _ = Cert.KernelIdeal.KRun.out (F := Ideal) m ρ c
  rw [Cert.KernelIdeal.KRun.out_value, (hagree c).1, (hagree c).2.1, (hagree c).2.2.1, (hagree c).2.2.2.1,
    (hagree c).2.2.2.2.1, (hagree c).2.2.2.2.2]
  exact (Cert.Gat.Bridge.outK_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
